-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S4096 : Shape := ⟨1, ![4096]⟩
abbrev S1024x256 : Shape := ⟨2, ![1024, 256]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 38
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S8192x256, .bf16⟩
  | .hbm, ⟨14, _⟩ => ⟨S4096x256, .bf16⟩
  | .hbm, ⟨15, _⟩ => ⟨S4096x256, .bf16⟩
  | .hbm, ⟨16, _⟩ => ⟨S4096x256, .f32⟩
  | .hbm, ⟨17, _⟩ => ⟨S4096x256, .f32⟩
  | .hbm, ⟨18, _⟩ => ⟨S4096x256, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x256, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S8192, .f32⟩
  | .hbm, ⟨31, _⟩ => ⟨S8192x1, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S1024x1, .f32⟩
  | .local _ .vmem, ⟨4, _⟩ => ⟨S1024x1, .f32⟩
  | .local _ .vmem, ⟨5, _⟩ => ⟨S1024x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
def k0_mult1 (k0_t1 : Fin k0_t1_loop.trips) : BitVec 32 :=
  let c0_i32_10 : BitVec 32 := 0#32
  let c0_i32 : BitVec 32 := 0#32
  let c1_i32 : BitVec 32 := 1#32
  let arg5 : BitVec 32 := Scf.iv c0_i32 c1_i32 k0_t1
  let c1_i32_9 : BitVec 32 := 1#32
  let v12 : BitVec 32 := Scalar.muli arg5 c1_i32_9
  let v13 : BitVec 32 := Scalar.addi c0_i32_10 v12
  let c1024_i32 : BitVec 32 := 1024#32
  let v14 : BitVec 32 := Scalar.muli v13 c1024_i32
  v14
def k0_off1 (k0_t1 : Fin k0_t1_loop.trips) : Fin 2 → Nat :=
  let c0_i32_10 : BitVec 32 := 0#32
  let c0_i32 : BitVec 32 := 0#32
  let c1_i32 : BitVec 32 := 1#32
  let arg5 : BitVec 32 := Scf.iv c0_i32 c1_i32 k0_t1
  let c1_i32_9 : BitVec 32 := 1#32
  let v12 : BitVec 32 := Scalar.muli arg5 c1_i32_9
  let v13 : BitVec 32 := Scalar.addi c0_i32_10 v12
  let c1024_i32 : BitVec 32 := 1024#32
  let v14 : BitVec 32 := Scalar.muli v13 c1024_i32
  let v15 : BitVec 32 := v14
  let v16 : Index := Scalar.indexCast v15
  let c0_11 : Index := 0#32
  ![v16.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bitsLt_bf16_f32 : FTy.bits .bf16 < FTy.bits .f32
  slices_S8192x256_S4096x256_0_0 : S8192x256.Slices ![0, 0] S4096x256
  slices_S8192x256_S4096x256_4096_0 : S8192x256.Slices ![4096, 0] S4096x256
  reducesTo_S4096x256_S4096_d1 : S4096x256.ReducesTo [1] S4096
  bcast_S_S4096 : S_.BroadcastsInDim S4096 (![] : Fin 0 → Fin S4096.rank)
  concatenates_S4096_S4096_S8192_d0 : Shape.Concatenates [S4096, S4096] S8192 0
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S1024x1024_S1024 : S1024x1024.Reduces [1] S1024
  shapeCasts_S1024_S1024x1 : S1024.ShapeCasts S1024x1
  shapeCasts_S8192x1_S8192 : S8192x1.ShapeCasts S8192
  reducesTo_S8192_S_d0 : S8192.ReducesTo [0] S_
  dot_S1024x256_S1024x256_S1024x1024_1_1_0_0_n_n_wf : DotDims.WF S1024x256 S1024x256 S1024x1024 [1] [1] [0] [0] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v6) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S4096 : Shape := ⟨1, ![4096]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 65
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S256x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S4096, .i32⟩
  | .hbm, ⟨19, _⟩ => ⟨S4096, .i32⟩
  | .hbm, ⟨20, _⟩ => ⟨S8192, .i32⟩
  | .hbm, ⟨21, _⟩ => ⟨S_, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S8192x1, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1, .f32⟩
  | .hbm, ⟨34, _⟩ => ⟨S8192x8192, .f32⟩
  | .hbm, ⟨35, _⟩ => ⟨S8192x8192, .f32⟩
  | .hbm, ⟨36, _⟩ => ⟨S8192x1, .i32⟩
  | .hbm, ⟨37, _⟩ => ⟨S_, .i32⟩
  | .hbm, ⟨38, _⟩ => ⟨S8192x1, .i32⟩
  | .hbm, ⟨39, _⟩ => ⟨S8192x1, .i1⟩
  | .hbm, ⟨40, _⟩ => ⟨S_, .i32⟩
  | .hbm, ⟨41, _⟩ => ⟨S8192x1, .i32⟩
  | .hbm, ⟨42, _⟩ => ⟨S8192x1, .i32⟩
  | .hbm, ⟨43, _⟩ => ⟨S8192x1, .i32⟩
  | .hbm, ⟨44, _⟩ => ⟨S8192x1x1, .i32⟩
  | .hbm, ⟨45, _⟩ => ⟨S1, .i32⟩
  | .hbm, ⟨46, _⟩ => ⟨S_, .i32⟩
  | .hbm, ⟨47, _⟩ => ⟨S8192x1x1, .i32⟩
  | .hbm, ⟨48, _⟩ => ⟨S8192x1x1, .i1⟩
  | .hbm, ⟨49, _⟩ => ⟨S1x1x1, .i32⟩
  | .hbm, ⟨50, _⟩ => ⟨S8192x1x1, .i32⟩
  | .hbm, ⟨51, _⟩ => ⟨S8192x1x1, .i1⟩
  | .hbm, ⟨52, _⟩ => ⟨S8192x1x1, .i1⟩
  | .hbm, ⟨53, _⟩ => ⟨S_, .i1⟩
  | .hbm, ⟨54, _⟩ => ⟨S8192x1, .i1⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192, .f32⟩
  | .hbm, ⟨60, _⟩ => ⟨S8192, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call1_cst : Ref sig .tc := ⟨.hbm, 21, rfl⟩
abbrev main_call1_v0 : Ref sig .tc := ⟨.hbm, 22, rfl⟩
abbrev main_call1_cst_0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_cst_1 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_v13 : Ref sig .tc := ⟨.hbm, 35, rfl⟩
abbrev main_v14 : Ref sig .tc := ⟨.hbm, 36, rfl⟩
abbrev main_call2_c : Ref sig .tc := ⟨.hbm, 37, rfl⟩
abbrev main_call2_v0 : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_c_1 : Ref sig .tc := ⟨.hbm, 45, rfl⟩
abbrev main_call2_c_2 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_3 : Ref sig .tc := ⟨.hbm, 53, rfl⟩
abbrev main_call2_v12 : Ref sig .tc := ⟨.hbm, 54, rfl⟩
abbrev main_call2_v13 : Ref sig .tc := ⟨.hbm, 55, rfl⟩
abbrev main_call2_cst : Ref sig .tc := ⟨.hbm, 56, rfl⟩
abbrev main_call2_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_cst_1 : Ref sig .tc := ⟨.hbm, 61, rfl⟩
abbrev main_v18 : Ref sig .tc := ⟨.hbm, 62, rfl⟩
abbrev main_cst_2 : Ref sig .tc := ⟨.hbm, 63, rfl⟩
abbrev main_v19 : Ref sig .tc := ⟨.hbm, 64, rfl⟩

abbrev nD : Nat := 1
abbrev τ : Topo := Topo.v7x

variable {F : FTy → Type} [FloatOps F]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  concatenates_S4096_S4096_S8192_d0 : Shape.Concatenates [S4096, S4096] S8192 0
  reducesTo_S8192x8192_S8192_d1 : S8192x8192.ReducesTo [1] S8192
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S8192x1x1_S8192x1_n_1_0_0_1_2_11_wf : GatherDims.WF S8192x8192 S8192x1x1 S8192x1 [] [1] [0] [1] [0] 2 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S8192x1x1_S8192x1_n_1_0_0_1_2_11 : GatherDims S8192x8192 S8192x1x1 S8192x1 where
  offsetDims := []
  collapsedSliceDims := [1]
  operandBatchingDims := [0]
  startIndicesBatchingDims := [0]
  startIndexMap := [1]
  indexVectorDim := 2
  sliceSizes := ![1, 1]
  wf := gather_S8192x8192_S8192x1x1_S8192x1_n_1_0_0_1_2_11_wf

class Facts : Prop extends Facts₀ where

variable [Facts]
-- ==== Proof.KData.lean ====
/-
  The proof data of the kernel's one region, for every float instance.

  The region runs on a grid of 8 points. At point `t` the body is handed block `t` (1024 rows) of the normalized array as its
  query block and the WHOLE normalized array as its keys (fetched once, at the first point, and kept), and a scratch column.
  It zeroes the scratch, then for each of the 8 key tiles (1024 rows each) adds to the scratch the row sums of
  `exp (2·q · tileᵀ)`, and finally stores the logarithm of the scratch as its output block. So what the body leaves is:
  the query block as found, the keys as found, and `outV q X`, the column computed from them by the recursion `accV`.
-/
import proofs.«106615_j4045859193248_2_alg».proof.Proof.Gen.KernelIdeal.Launch
import proofs.«106615_j4045859193248_2_alg».proof.Proof.Gen.KernelIdeal.Points
import proofs.«106615_j4045859193248_2_alg».proof.Proof.Gen.KernelIdeal.Loops
import Idealize.ShloMosaic.Lib.Pipeline.Regions
import Idealize.ShloMosaic.Lib.Pipeline.Value

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

/-! ## The body's values -/

/-- Key tile `k`: rows `1024·k … 1024·k + 1023` of the key array. -/
def tile (X : Vec F S8192x256 .bf16) (k : Fin k0_t1_loop.trips) : Vec F S1024x256 .bf16 :=
  View.ld X (Rect.unit (s := S8192x256) (k0_off1 k) S1024x256.size (k0_off1_inb k))

/-- The scratch column before trip `k`: zero, then one tile's row sums added per trip. -/
def accV (q : Vec F S1024x256 .bf16) (X : Vec F S8192x256 .bf16) : ℕ → Vec F S1024x1 .f32
  | 0 => k0_pay1
  | k + 1 => if h : k < k0_t1_loop.trips then k0_pay2 q (tile X ⟨k, h⟩) (accV q X k) else accV q X k

theorem accV_succ (q : Vec F S1024x256 .bf16) (X : Vec F S8192x256 .bf16) (k : Fin k0_t1_loop.trips) :
    accV q X (k.val + 1) = k0_pay2 q (tile X k) (accV q X k.val) := by
  rw [accV, dif_pos k.isLt]

/-- The output block: the logarithm of the scratch after all the trips. -/
def outV (q : Vec F S1024x256 .bf16) (X : Vec F S8192x256 .bf16) : Vec F S1024x1 .f32 :=
  k0_pay3 (accV q X k0_t1_loop.trips)

/-! ## The arrays as the region finds them -/

variable (m : (ℓ : Loc nD τ sig) → Buf (Elt F) ℓ)

/-- Core `c`'s buffers at launch, as the host operations' valuation; -/
abbrev V₀ (c : Dev nD) : Valuation τ sig (Elt F) := fun b => m ((c : Dev nD), b)
/-- the host operations before the region, in order; -/
abbrev preOps : List (HloOp τ sig (Elt F)) := hostOps0 ++ hostOps0_1 ++ hostOps0_2
/-- and the buffers when the region is entered. -/
abbrev V (c : Dev nD) (b : Ref sig .tc) : Buf (Elt F) ((c : Thread nD τ).loc b) := StableHlo.after preOps (V₀ m c) b

/-- The query block of point `t`: block `t` of the normalized array. -/
abbrev qblk (c : Dev nD) (t : Fin cfg0.N) : (cfg0.win 0).block.Idx → Elt F (cfg0.win 0).elt :=
  ((cfg0.win 0).blk t).view.read (Elt F) (V m c (Pipeline.arrRef spec0 0))

/-- The keys at point `t`: the window's block there, which at every point is the whole normalized array. -/
abbrev kall (c : Dev nD) (t : Fin cfg0.N) : (cfg0.win 1).block.Idx → Elt F (cfg0.win 1).elt :=
  ((cfg0.win 1).blk t).view.read (Elt F) (V m c (Pipeline.arrRef spec0 1))

/-- The proof data on core `c`: each array at its entry contents; after the body the query block and the keys as found and
    the output block at `outV`; the invariant the scratch at something; the two input windows hold the shared array at half
    a share each; nothing owed. -/
def dats (_ : Fin 1) (c : Dev nD) : Dat τ (Elt F) Unit ℕ (UR sig nD τ) ℕ cfg0 c where
  A w := V m c (Pipeline.arrRef spec0 w)
  after w t := match w with
    | ⟨0, _⟩ => qblk m c t
    | ⟨1, _⟩ => kall m c t
    | ⟨2, _⟩ => outV (qblk m c t) (kall m c t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

abbrev 𝒱₀ : Variants := Variants.none

end Cert.KernelIdeal.Hand

end
-- ==== Proof.KRunHost.lean ====
/-
  The host operations around the kernel's one region.

  Before the region the program runs 29 tensor operations in three stretches (stacking the two inputs, the row norms,
  the normalization, its rounding to the narrower float type, and the target terms); after it, 6 more (the reshape of the
  kernel's column, the subtraction of the target terms, the sum, the division by the row count). Each stretch is a straight
  line over the device's unscoped buffers, so it runs from the buffers held at a valuation to the buffers held at the
  valuation the line computes. No operation of either stretch writes one of the two argument arrays: they hold at the end
  what they held at launch.
-/
import proofs.«106615_j4045859193248_2_alg».proof.Proof.KData
import Idealize.ShloMosaic.Lib.Pipeline.Frame

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs sub_ucRefs unscopedBufs_held)

variable {F : FTy → Type} [FloatOps F]

/-! ## Every operation stays within the unscoped buffers and allocates nothing -/

/-- The operations before the region touch unscoped buffers only. -/
theorem preOps_sub : ∀ op ∈ (preOps (F := F)), op.bufs ⊆ ucRefs τ sig := fun op h => by
  rcases List.mem_append.mp h with h | h
  · rcases List.mem_append.mp h with h | h
    · exact sub_ucRefs op ((List.forall_iff_forall_mem.mp hostOps0_sub) op h)
    · exact sub_ucRefs op ((List.forall_iff_forall_mem.mp hostOps0_1_sub) op h)
  · exact sub_ucRefs op ((List.forall_iff_forall_mem.mp hostOps0_2_sub) op h)

/-- The operations after the region touch unscoped buffers only. -/
theorem hostOps1_sub' : ∀ op ∈ (hostOps1 (F := F)), op.bufs ⊆ ucRefs τ sig := fun op h =>
  sub_ucRefs op ((List.forall_iff_forall_mem.mp hostOps1_sub) op h)

/-- No operation before the region allocates a buffer. -/
theorem preOps_fresh : ∀ op ∈ (preOps (F := F)), op.fresh = ∅ := fun op h => by
  rcases List.mem_append.mp h with h | h
  · rcases List.mem_append.mp h with h | h
    · (repeat (cases h with | head => rfl | tail _ h => ?_)); exact nomatch h
    · (repeat (cases h with | head => rfl | tail _ h => ?_)); exact nomatch h
  · (repeat (cases h with | head => rfl | tail _ h => ?_)); exact nomatch h

/-- No operation after the region allocates a buffer. -/
theorem hostOps1_fresh : ∀ op ∈ (hostOps1 (F := F)), op.fresh = ∅ := fun op h => by
  (repeat (cases h with | head => rfl | tail _ h => ?_)); exact nomatch h

/-! ## The arguments are never written -/

/-- The buffers the operations before the region write. -/
def preWrites : List (Ref sig .tc) :=
  [main_v0, main_call0_v0, main_call0_cst, main_call0_v1, main_call0_v2, main_v1, main_cst, main_v2, main_v3, main_v4, main_v5,
   main_v6, main_v7, main_v8, main_v9, main_v10, main_v11, main_cst_0, main_v12, main_cst_1, main_v13, main_v14, main_v15,
   main_cst_2, main_v16, main_cst_3, main_v17, main_v18, main_v19]

/-- The buffers the operations after the region write. -/
def postWrites : List (Ref sig .tc) := [main_v21, main_v22, main_cst_4, main_v23, main_cst_5, main_v24]

/-- A buffer outside `preWrites` is written by no operation before the region. -/
theorem pre_not_written (b : Ref sig .tc) (hb : b ∉ preWrites) :
    ∀ op ∈ (preOps (F := F)), Proc.devRef (τ := τ) .tc b ∉ op.writes := by
  have hne : ∀ y ∈ preWrites, b ≠ y := fun y hy e => hb (e ▸ hy)
  intro op hop
  simp only [preOps, hostOps0, hostOps0_1, hostOps0_2, List.mem_append, List.mem_cons, List.mem_nil_iff, or_false] at hop
  rcases hop with (rfl | rfl | rfl | rfl | rfl | rfl) | rfl | rfl | rfl | rfl | rfl | rfl | rfl | rfl | rfl | rfl | rfl | rfl | rfl | rfl | rfl | rfl | rfl | rfl | rfl | rfl | rfl | rfl | rfl <;>
    simp only [StableHlo.unary_writes, StableHlo.binary_writes, StableHlo.nullary_writes, Finset.mem_singleton] <;>
    exact StableHlo.devRef_ne_of_ne (hne _ (by decide))

/-- A buffer outside `postWrites` is written by no operation after the region. -/
theorem post_not_written (b : Ref sig .tc) (hb : b ∉ postWrites) :
    ∀ op ∈ (hostOps1 (F := F)), Proc.devRef (τ := τ) .tc b ∉ op.writes := by
  have hne : ∀ y ∈ postWrites, b ≠ y := fun y hy e => hb (e ▸ hy)
  intro op hop
  simp only [hostOps1, List.mem_cons, List.mem_nil_iff, or_false] at hop
  rcases hop with rfl | rfl | rfl | rfl | rfl | rfl <;>
    simp only [StableHlo.unary_writes, StableHlo.binary_writes, StableHlo.nullary_writes, StableHlo.reshape_writes, Finset.mem_singleton] <;>
    exact StableHlo.devRef_ne_of_ne (hne _ (by decide))

variable (m : (ℓ : Loc nD τ sig) → Buf (Elt F) ℓ)

/-- A buffer no operation before the region writes enters the region as launched. -/
theorem V_of_not_written (c : Dev nD) (b : Ref sig .tc) (hb : b ∉ preWrites) : V m c b = m ((c : Thread nD τ).loc b) :=
  StableHlo.after_of_forall_not_mem (b := Proc.devRef .tc b) preOps (V₀ m c) (pre_not_written b hb)

end Cert.KernelIdeal.Hand

end
-- ==== Proof.KRunRegion.lean ====
/-
  The kernel's one region between the host stretches.

  The region reads the normalized array through two windows (the query blocks and the whole array as keys) and writes the
  column of logarithms through a third. Both reading windows sit on ONE buffer, so on entry that buffer's full ownership is cut
  into two halves, one per window; the output buffer goes in whole; every other unscoped buffer passes the region by
  untouched. On exit the two halves — the buffer was only read, both still say what it held on entry — are joined into the
  full ownership again, and the output buffer comes back holding what the eight write-backs left in it. So the device's
  buffers after the region are those before it, except that the output buffer holds the computed column.
-/
import proofs.«106615_j4045859193248_2_alg».proof.Proof.KRunHost
import Idealize.ShloMosaic.Lib.Pipeline.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs sub_ucRefs unscopedBufs_held)

variable {F : FTy → Type} [FloatOps F]

local notation "𝕄" => MT nD τ sig Unit (Elt F) ℕ (UR sig nD τ) ℕ

/-- The ghost algebra is the staging cells' rounds algebra and nothing else: the kernel has no protocol of its own. -/
abbrev EP : Emb (UR sig nD τ) (MT nD τ sig Unit (Elt F) ℕ (UR sig nD τ) ℕ) := emb₁

/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm

/-- What rides beside the buffers through every segment: that the core owes nothing. -/
abbrev R (c : Dev nD) : sProp 𝕄 := iprop(∃ W, owes (c : Thread nD τ) (0 : CellTallies nD τ sig Unit) W)

/-! ## The two buffers the region works on, out of the unscoped ones -/

/-- The normalized array's buffer, read by two windows; -/
abbrev d6 : DevRef τ sig := Proc.devRef .tc main_v6
/-- the output column's buffer. -/
abbrev d20 : DevRef τ sig := Proc.devRef .tc main_v20

theorem d6_ne_d20 : (d6 : DevRef τ sig) ≠ d20 := StableHlo.devRef_ne_of_ne (by decide)

theorem pair_sub : ({d6, d20} : Finset (DevRef τ sig)) ⊆ ucRefs τ sig := by
  intro b hb
  rcases Finset.mem_insert.mp hb with rfl | hb
  · exact Finset.mem_filter.mpr ⟨StableHlo.devRef_mem_tcRefs _, by decide⟩
  · rcases Finset.mem_singleton.mp hb with rfl
    exact Finset.mem_filter.mpr ⟨StableHlo.devRef_mem_tcRefs _, by decide⟩

/-- The unscoped buffers held at a valuation: the two the region works on, and the rest. -/
theorem held_ucRefs_split (c : Dev nD) (W : Valuation τ sig (Elt F)) :
    (StableHlo.held (c : Thread nD τ) (ucRefs τ sig) W : sProp 𝕄)
      = iprop(((((c : Thread nD τ).loc main_v6) ↦{fullShare} W d6) ∗ (((c : Thread nD τ).loc main_v20) ↦{fullShare} W d20))
          ∗ StableHlo.held (c : Thread nD τ) (ucRefs τ sig \ {d6, d20}) W) := by
  rw [StableHlo.held_sub_split (c : Thread nD τ) pair_sub W]
  congr 1
  unfold StableHlo.held
  rw [bigSep_insert (by rw [Finset.mem_singleton]; exact d6_ne_d20), bigSep_singleton]
  rfl

variable (m : (ℓ : Loc nD τ sig) → Buf (Elt F) ℓ)

/-- The windows' arrays one by one: the shared buffer at a half for each reading window, the output buffer whole. -/
theorem arrays_eq3 (c : Dev nD) (G : (w : Fin cfg0.W) → Buf (Elt F) ((cfg0.win w).arr.view.loc (c : Thread nD τ))) :
    ((dats m 0 c).arrays G : sProp 𝕄)
      = iprop((((c : Thread nD τ).loc main_v6) ↦{fullShare.left} G 0) ∗ (((c : Thread nD τ).loc main_v6) ↦{fullShare.right} G 1)
          ∗ (((c : Thread nD τ).loc main_v20) ↦{fullShare} G 2)) := by
  unfold Dat.arrays
  rw [bigSep_W0, (arr_whole0 0).set_eq_univ, (arr_whole0 2).set_eq_univ]
  rfl

/-! ## The buffers after the region -/

/-- The device's buffers when the region is left: as entered, except the output buffer, which holds what the eight
    write-backs left in it. -/
def Wx (c : Dev nD) : Valuation τ sig (Elt F) :=
  Function.update (StableHlo.after preOps (V₀ m c)) d20 ((dats m 0 c).arrAt 2 cfg0.N)

theorem Wx_d20 (c : Dev nD) : Wx m c d20 = (dats m 0 c).arrAt 2 cfg0.N := by
  unfold Wx; exact Function.update_self ..

theorem Wx_of_ne (c : Dev nD) (b : DevRef τ sig) (hb : b ≠ d20) : Wx m c b = StableHlo.after preOps (V₀ m c) b := by
  unfold Wx; exact Function.update_of_ne hb ..

/-- Off the two buffers the region works on nothing changed. -/
theorem held_rest_Wx (c : Dev nD) :
    (StableHlo.held (c : Thread nD τ) (ucRefs τ sig \ {d6, d20}) (Wx m c) : sProp 𝕄)
      = StableHlo.held (c : Thread nD τ) (ucRefs τ sig \ {d6, d20}) (StableHlo.after preOps (V₀ m c)) :=
  StableHlo.held_congr (c : Thread nD τ) fun b hb => Wx_of_ne m c b fun e =>
    (Finset.mem_sdiff.mp hb).2 (e ▸ Finset.mem_insert_of_mem (Finset.mem_singleton_self _))

/-! ## The segments -/

/-- THE STRETCH BEFORE the region: the 29 operations over the unscoped buffers, from the launch contents. -/
def seg0 : Pipeline.HostSeg (Name := ℕ) (U := UR sig nD τ) (pcfgs (F := F)) defs₀ 𝒱₀ L lv :=
  Pipeline.HostSeg.ofOps _ _ _ _ _ (ucRefs τ sig) preOps preOps_sub preOps_fresh (V₀ m) R

/-- THE STRETCH AFTER the region: the 6 operations over the unscoped buffers, from what the region left. -/
def seg1 : Pipeline.HostSeg (Name := ℕ) (U := UR sig nD τ) (pcfgs (F := F)) defs₀ 𝒱₀ L lv :=
  Pipeline.HostSeg.ofOps _ _ _ _ _ (ucRefs τ sig) hostOps1 hostOps1_sub' hostOps1_fresh (Wx m) R

variable (hbody : ∀ c, BodyObligation (dats m 0 c) (defs₀ (F := F)) 𝒱₀ () Set.univ)

set_option backward.isDefEq.respectTransparency.types false in
/-- THE REGION: entered from what the first stretch left — the shared buffer cut in two halves for the two reading windows,
    the output buffer whole, the other buffers bypassing —, left with the halves joined again and the output buffer at its
    final contents. The kernel has no semaphore of its own; its invariant is the scratch buffer at something. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (hbody c).loose
  hwaits := Pipeline.hwaits_of_owed_zero _ _ _ _ L lv 0 fun _ _ => rfl
  pre c := iprop(StableHlo.held (c : Thread nD τ) (ucRefs τ sig) (StableHlo.after preOps (V₀ m c)) ∗ R c)
  post c := iprop(StableHlo.held (c : Thread nD τ) (ucRefs τ sig) (Wx m c) ∗ R c)
  X _ := iprop(emp)
  Y _ := iprop(emp)
  Z c := StableHlo.held (c : Thread nD τ) (ucRefs τ sig \ {d6, d20}) (StableHlo.after preOps (V₀ m c))
  hentry c := by
    rw [arrays_eq3 m c, held_ucRefs_split c (StableHlo.after preOps (V₀ m c))]
    iintro ⟨⟨⟨⟨H6, H20⟩, Hrest⟩, HO⟩, -, -⟩
    ihave H6' := (pointsTo_share (PosShare.mem_left_op_right fullShare)).1 $$ H6
    icases H6' with ⟨H6l, H6r⟩
    imodintro
    isplitl [H6l H6r H20]
    · isplitl [H6l]; · iexact H6l
      isplitl [H6r]; · iexact H6r
      iexact H20
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [arrays_eq3 m c, held_ucRefs_split c (Wx m c), Wx_d20, Wx_of_ne m c d6 d6_ne_d20, held_rest_Wx,
      (dats m 0 c).arrAt_in 0 rfl, (dats m 0 c).arrAt_in 1 rfl,
      show (dats m 0 c).A 0 = StableHlo.after preOps (V₀ m c) d6 from rfl,
      show (dats m 0 c).A 1 = StableHlo.after preOps (V₀ m c) d6 from rfl]
    iintro ⟨⟨H6l, H6r, H20⟩, HO, -, Hrest⟩
    ihave H6 := (pointsTo_share (PosShare.mem_left_op_right fullShare)).2 $$ [H6l H6r]
    · isplitl [H6l]; · iexact H6l
      iexact H6r
    imodintro
    isplitr [HO]
    · isplitr [Hrest]
      · isplitl [H6]; · iexact H6
        iexact H20
      · iexact Hrest
    · unfold Pipeline.Dat.owesAt Pipeline.owesWithin
      icases HO with ⟨%W, -, HO⟩; iexists W; iexact HO

end Cert.KernelIdeal.Hand

end
-- ==== Proof.KRun.lean ====
/-
  The run of the whole program.

  The program is the 29 operations before the region, the region, and the 6 operations after it. Run in that order from any
  memory whose semaphore counters are zero, every weakly fair execution on the device's core terminates, and every final
  memory holds, in the result buffer, the value the last six operations compute from the buffers as the region left them
  (those the first 29 operations computed, with the kernel's column in the output buffer), and in the two argument
  buffers what they held at launch: no operation writes them, and the region does not touch them.
-/
import proofs.«106615_j4045859193248_2_alg».proof.Proof.KRunRegion

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs sub_ucRefs unscopedBufs_held)

variable {F : FTy → Type} [FloatOps F]

local notation "𝕄" => MT nD τ sig Unit (Elt F) ℕ (UR sig nD τ) ℕ

variable (m : (ℓ : Loc nD τ sig) → Buf (Elt F) ℓ)

/-! ## What the end holds -/

/-- The device's buffers at the end: the last six operations run from what the region left. -/
abbrev Wend (c : Dev nD) : Valuation τ sig (Elt F) := StableHlo.after hostOps1 (Wx m c)

/-- An argument buffer holds at the end what it held at launch. -/
theorem Wend_arg (c : Dev nD) (b : Ref sig .tc) (h₀ : b ∉ preWrites) (h₁ : b ∉ postWrites) (h₂ : b ≠ main_v20) :
    Wend m c (Proc.devRef .tc b) = m ((c : Thread nD τ).loc b) := by
  unfold Wend
  rw [StableHlo.after_of_forall_not_mem (b := Proc.devRef .tc b) hostOps1 (Wx m c) (post_not_written b h₁),
    Wx_of_ne m c _ (StableHlo.devRef_ne_of_ne h₂)]
  exact V_of_not_written m c b h₀

theorem mem_ucRefs (b : Ref sig .tc) (h : b.isScoped = false) : Proc.devRef (τ := τ) .tc b ∈ ucRefs τ sig :=
  Finset.mem_filter.mpr ⟨StableHlo.devRef_mem_tcRefs _, fun h' => Bool.false_ne_true (h.symm.trans h')⟩

/-- The physical post: the result buffer at the value the last operations compute, the arguments as launched. -/
def QC : PUnit × MemSt nD τ sig (Elt F) → Prop := fun r =>
  ∀ c : Dev nD, r.2.mem ((c : Thread nD τ).loc main_v24) = Wend m c (Proc.devRef .tc main_v24)
    ∧ r.2.mem ((c : Thread nD τ).loc main_arg0) = m ((c : Thread nD τ).loc main_arg0)
    ∧ r.2.mem ((c : Thread nD τ).loc main_arg1) = m ((c : Thread nD τ).loc main_arg1)

/-- The program as the list of its three segments. -/
abbrev segs (hbody : ∀ c, BodyObligation (dats m 0 c) (defs₀ (F := F)) 𝒱₀ () Set.univ) :
    List (Pipeline.Seg (pcfgs (F := F)) adm (dats m) () defs₀ 𝒱₀ L lv) :=
  [.host (seg0 m), .region (reg0 m hbody), .host (seg1 m)]

/-- The program IS the run of the three segments: its chain of five items, the three stretches before the region being one
    line run in a row. -/
theorem main_eq (hbody : ∀ c, BodyObligation (dats m 0 c) (defs₀ (F := F)) 𝒱₀ () Set.univ) (c : Dev nD) :
    main (F := F) c = Pipeline.Seg.run (segs m hbody) := by
  rw [main_chain c, Pipeline.Seg.run_eq_chain]
  simp only [List.map_cons, List.map_nil, Pipeline.Seg.prog, seg0, seg1, Pipeline.HostSeg.ofOps, Pipeline.chain_cons,
    Pipeline.chain_nil, StableHlo.seq_append, bind_assoc]

set_option backward.isDefEq.respectTransparency.types false in
/-- From any memory with zero counters: every weakly fair execution of the program terminates, and every final memory has
    the result buffer at the computed value and the two arguments unchanged. -/
theorem run_main_of (hbody : ∀ c, BodyObligation (dats m 0 c) (defs₀ (F := F)) 𝒱₀ () Set.univ) (ρ : Dev nD → PrngReg) :
    θ_run defs (onTc (τ := τ) (main (F := F))) ⟨m, fun _ => 0, ρ⟩ (QC m) :=
  Pipeline.θ_run_regions_kit (pcfgs (F := F)) adm (dats m) () cellOf_inj EP defs₀ 𝒱₀ L lv m ρ main (segs m hbody)
    (fun c Q => by rw [main_eq m hbody c])
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V₀ m c) ∗ R c))
    (Tₙ := fun c => StableHlo.held (c : Thread nD τ) (ucRefs τ sig) (Wend m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (ucRefs τ sig) (V₀ m c) from
        unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v24) = Wend m c (Proc.devRef .tc main_v24)
      ∧ s.mem ((c : Thread nD τ).loc main_arg0) = m ((c : Thread nD τ).loc main_arg0)
      ∧ s.mem ((c : Thread nD τ).loc main_arg1) = m ((c : Thread nD τ).loc main_arg1))
    (hfin := fun c s' => by
      unfold StableHlo.held
      iintro ⟨Hh, HSI⟩
      ihave Hr := (pointsTo_read_all (ucRefs τ sig) (fun b => ((c : Thread nD τ).1, b)) (Wend m c) s') $$ [Hh HSI]
      · isplitl [Hh] <;> iassumption
      icases Hr with ⟨%ha, HSI⟩
      imodintro
      isplitr
      · ipureintro
        exact ⟨ha _ (mem_ucRefs main_v24 rfl),
          (ha _ (mem_ucRefs main_arg0 rfl)).trans (Wend_arg m c main_arg0 (by decide) (by decide) (by decide)),
          (ha _ (mem_ucRefs main_arg1 rfl)).trans (Wend_arg m c main_arg1 (by decide) (by decide) (by decide))⟩
      iexact HSI)
    (hQ := fun _ h => h)

end Cert.KernelIdeal.Hand

end
-- ==== Proof.Spec.lean ====
/-
  The two sides of the claim as ONE pair of functions of the stacked input array.

  Both programs first stack the two inputs into an array `z` of 8192 rows of 256 entries and divide every row by the larger of its
  Euclidean norm and a small positive constant; call the result `zn`. From there

  * the kernel side, per row `r`: the logarithm of the sum over ALL rows `n` of `exp ⟨2·zn r, zn n⟩`, minus twice the inner product of
    row `r` (second half: of row `r - 4096`) with row `r`; averaged over the rows;
  * the reference side, per row `r`: minus the log-softmax of the logits `⟨zn r, zn n⟩ / (1/2)` at the label column `r mod 4096`, the
    softmax shifted by a per-row amount `M r` (the row's largest logit); averaged over the rows.

  The two agree whenever every entry of `z` is a real number and every `M r` is a real number: the shift cancels, because
  `log (∑ exp (a - M)) = log (∑ exp a) - M` on the reals. This module only states the two sides; it imports no program.
-/
import Idealize.ShloMosaic.PureOps.Ideal
import Idealize.ShloMosaic.Lib.ValueIdx

noncomputable section

open scoped BigOperators

namespace Cert.Spec

open Idealize.ShloMosaic Idealize.ShloMosaic.ValueIdx

/-- The stacked array's index type: 8192 rows of 256 entries. -/
abbrev Z := (⟨2, ![8192, 256]⟩ : Shape).Idx → EReal

/-- The lower bound on a row's norm (the word of the float32 nearest `1e-8`). -/
def eps : EReal := Ideal.ofBits .f32 0x322BCC77#32

/-- Row `r`'s divisor: the larger of its Euclidean norm and `eps`. -/
def nrm (z : Z) (r : Fin 8192) : EReal :=
  max (Ideal.sqrt (0 + ∑ d : Fin 256, z (ix2 r d) * z (ix2 r d))) eps

/-- The normalized rows. -/
def zn (z : Z) (r : Fin 8192) (d : Fin 256) : EReal := Ideal.div (z (ix2 r d)) (nrm z r)

/-- The label column of row `r`: `r mod 4096`. -/
def lab (r : Fin 8192) : Fin 8192 := ⟨r.val % 4096, by omega⟩

/-- The partner row of `r` in the kernel's target term: `r` itself in the first half, `r - 4096` in the second. -/
def mate (r : Fin 8192) : Fin 8192 := ⟨r.val % 4096, by omega⟩

/-! ## The kernel side -/

/-- The kernel's logit of rows `r` and `n`: row `r` doubled (the word is bfloat16's `2`) against row `n`. -/
def dotK (z : Z) (r n : Fin 8192) : EReal :=
  ∑ d : Fin 256, (zn z r d * Ideal.ofBits .bf16 0x4000#16) * zn z n d

/-- The kernel's target term of row `r`: twice (float32's `2`) the inner product of the partner row with row `r`. -/
def tgtK (z : Z) (r : Fin 8192) : EReal :=
  (0 + ∑ d : Fin 256, zn z (mate r) d * zn z r d) * Ideal.ofBits .f32 0x40000000#32

/-- The kernel side's result: the mean over the rows of log-sum-exp minus target. -/
def resK (z : Z) : EReal :=
  Ideal.div (0 + ∑ r : Fin 8192, (Ideal.log (∑ n : Fin 8192, Ideal.exp (dotK z r n)) - tgtK z r))
    (Ideal.ofBits .f32 0x46000000#32)

/-! ## The reference side -/

/-- The reference's logit of rows `r` and `n`: the inner product divided by float32's `1/2`. -/
def logit (z : Z) (r n : Fin 8192) : EReal :=
  Ideal.div (∑ d : Fin 256, zn z r d * zn z n d) (Ideal.ofBits .f32 0x3F000000#32)

/-- The reference side's result for a per-row shift `M`: the mean over the rows of minus the shifted log-softmax at the label. -/
def resR (z : Z) (M : Fin 8192 → EReal) : EReal :=
  Ideal.div (0 + ∑ r : Fin 8192,
      -((logit z r (lab r) - M r) - Ideal.log (0 + ∑ n : Fin 8192, Ideal.exp (logit z r n - M r))))
    (Ideal.ofBits .f32 0x46000000#32)

end Cert.Spec

end
-- ==== Proof.KHostZn.lean ====
/-
  The array the kernel's region reads, entry by entry.

  Before the region the program stacks its two inputs into one array `z` of 8192 rows of 256 entries, squares it, sums each row,
  takes the square root, takes the larger of that and a small constant, and divides every entry of the row by the result. Read at
  row `r` and entry `d` this is `z r d / max (sqrt (∑ d', z r d' · z r d')) ε`, the specification's normalized row. The steps: the
  program's operations composed into one term (`normalize`), each broadcast read at an index (a column spread over the lanes reads
  the column at the row; a vector stood up as a column reads the vector; a scalar reads itself), and the row sum as a finite sum.
-/
import proofs.«106615_j4045859193248_2_alg».proof.Proof.KData
import proofs.«106615_j4045859193248_2_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem
open scoped BigOperators

variable (m : (ℓ : Loc nD τ sig) → Buf (Elt Ideal) ℓ) (c : Dev nD)

/-! ## Words -/

/-- The all-zero float32 word denotes 0. -/
theorem zero_word : Ideal.ofBits .f32 0x00000000#32 = (0 : EReal) := by
  simp [Ideal.ofBits, Ideal.ieee]

/-! ## The stacked input and its normalization, as the program spells them -/

/-- The stacked input on core `c`: the two argument arrays laid one after the other along the rows. -/
abbrev zin : S8192x256.Idx → EReal :=
  concatenate S8192x256 0 [⟨S4096x256, V₀ m c (Proc.devRef .tc main_arg0)⟩, ⟨S4096x256, V₀ m c (Proc.devRef .tc main_arg1)⟩]
    concatenates_S4096x256_S4096x256_S8192x256_d0

/-- The column of row divisors: the larger of each row's Euclidean norm and the small constant. -/
def rowNorm (z : FVec Ideal S8192x256 .f32) : FVec Ideal S8192x1 .f32 :=
  maximumf (Host.sqrt (broadcastInDim S8192x1 ![0] bcast_S8192_S8192x1_0
      (Host.reduceAdd (mulf z z) (constant S_ .f32 0x00000000#32) reducesTo_S8192x256_S8192_d1 h_S_)))
    (broadcastInDim S8192x1 ![] bcast_S_S8192x1 (constant S_ .f32 0x322BCC77#32))

/-- Every row divided by its divisor, then narrowed (at the extended reals the narrowing changes nothing). -/
def normalize (z : FVec Ideal S8192x256 .f32) : FVec Ideal S8192x256 .bf16 :=
  truncf .bf16 (Host.divf z (broadcastInDim S8192x256 ![0, 1] bcast_S8192x1_S8192x256_0_1 (rowNorm z))) bitsLt_bf16_f32

/-- The first host operation writes the stacked input. -/
theorem V_v0 : (V m c main_v0 : S8192x256.Idx → EReal) = zin m c := by
  dsimp only [V, preOps, hostOps0, hostOps0_1, hostOps0_2]
  simp only [List.cons_append, List.nil_append, List.append_nil]
  after_results

/-- The array the region reads is the normalized stacked input. -/
theorem V_v6 : (V m c main_v6 : S8192x256.Idx → EReal) = normalize (zin m c) := by
  dsimp only [V, preOps, hostOps0, hostOps0_1, hostOps0_2]
  simp only [List.cons_append, List.nil_append, List.append_nil]
  after_results
  rfl

/-! ## Broadcasts and row sums read at an index -/

/-- A column spread over 256 lanes reads the column at the row. -/
theorem bcastCol_apply (y : FVec Ideal S8192x1 .f32) (r : Fin 8192) (d : Fin 256) :
    broadcastInDim S8192x256 ![0, 1] bcast_S8192x1_S8192x256_0_1 y (ix2 r d) = y (ix2 r (0 : Fin 1)) :=
  broadcastInDim_apply _ bcast_S8192x1_S8192x256_0_1 y (ix2 r d) (ix2 r (0 : Fin 1)) (fun a => match a with
    | ⟨0, _⟩ => by show r.val = if (8192 : Nat) = 1 then 0 else r.val; rw [if_neg (by decide)]
    | ⟨1, _⟩ => by show 0 = if (1 : Nat) = 1 then 0 else d.val; rw [if_pos rfl])

/-- A vector stood up as a column reads the vector at the row. -/
theorem bcastVec_apply (y : FVec Ideal S8192 .f32) (r : Fin 8192) (u : Fin 1) :
    broadcastInDim S8192x1 ![0] bcast_S8192_S8192x1_0 y (ix2 r u) = y (ix1 r) :=
  broadcastInDim_apply _ bcast_S8192_S8192x1_0 y (ix2 r u) (ix1 r) (fun a => match a with
    | ⟨0, _⟩ => by show r.val = if (8192 : Nat) = 1 then 0 else r.val; rw [if_neg (by decide)])

/-- A scalar spread over a column reads the scalar. -/
theorem bcastScalarCol_apply (y : FVec Ideal S_ .f32) (i : S8192x1.Idx) :
    broadcastInDim S8192x1 ![] bcast_S_S8192x1 y i = y ix0 :=
  broadcastInDim_apply _ bcast_S_S8192x1 y i ix0 (fun a => a.elim0)

/-- A row sum of an array of 8192 rows of 256 entries, from the zero word. -/
theorem rowSum8192_apply (x : FVec Ideal S8192x256 .f32) (r : Fin 8192) :
    Host.reduceAdd x (constant S_ .f32 0x00000000#32) reducesTo_S8192x256_S8192_d1 h_S_ (ix1 r)
      = 0 + ∑ d : Fin 256, x (ix2 r d) := by
  simp only [Host.reduceAdd, Ideal.hostReduceAdd_def]
  rw [Ideal.hostReduceAdd_single reducesTo_S8192x256_S8192_d1 (by decide)]
  refine congrArg₂ (· + ·) zero_word (Finset.sum_congr rfl fun k _ => ?_)
  exact congrArg x (funext fun a => Fin.ext (by match a with | ⟨0, _⟩ => rfl | ⟨1, _⟩ => rfl))

/-- Row `r`'s divisor. -/
theorem rowNorm_apply (z : FVec Ideal S8192x256 .f32) (r : Fin 8192) :
    rowNorm z (ix2 r (0 : Fin 1)) = Cert.Spec.nrm z r := by
  have e1 := bcastVec_apply (Host.reduceAdd (mulf z z) (constant S_ .f32 0x00000000#32) reducesTo_S8192x256_S8192_d1 h_S_) r 0
  have e2 := bcastScalarCol_apply (constant (F := Ideal) S_ .f32 0x322BCC77#32) (ix2 r (0 : Fin 1))
  have e3 := rowSum8192_apply (mulf z z) r
  unfold rowNorm Cert.Spec.nrm Cert.Spec.eps
  exact congrArg₂ max (congrArg Ideal.sqrt (e1.trans e3)) e2

/-- The normalized array at row `r`, entry `d`. -/
theorem normalize_apply (z : FVec Ideal S8192x256 .f32) (r : Fin 8192) (d : Fin 256) :
    normalize z (ix2 r d) = Cert.Spec.zn z r d := by
  have e := (bcastCol_apply (rowNorm z) r d).trans (rowNorm_apply z r)
  unfold normalize Cert.Spec.zn
  exact congrArg (Ideal.div (z (ix2 r d))) e

/-- What the region reads, at row `r`, entry `d`. -/
theorem v6_apply (r : Fin 8192) (d : Fin 256) :
    (V m c main_v6 : S8192x256.Idx → EReal) (ix2 r d) = Cert.Spec.zn (zin m c) r d := by
  rw [V_v6]; exact normalize_apply _ r d

end Cert.KernelIdeal.Hand

end
-- ==== Proof.RefValue.lean ====
/-
  The value the reference program computes, as one function of its two argument arrays.

  The program stacks the two arguments into an array z of 8192 rows of 256 entries, divides every row by the larger of
  its Euclidean norm and a small positive constant, forms the 8192 × 8192 logits (inner products of normalized rows,
  divided by one half), takes the log-softmax of every row shifted by the row's largest logit, reads from row r the
  entry at column r mod 4096, negates it, and averages over the rows.

  Read at an index, stage by stage:
  * the labels are two runs 0 … 4095 laid end to end, so row r's label is the 32-bit word of r mod 4096: never negative
    and at most 8191, so the normalizing select keeps the label, the bounds mask is one everywhere, and the final select
    takes the gathered entry (never the filler);
  * the gather reads row r of its operand at the (clamped) column its start index names;
  * every float stage is the corresponding term of `Cert.Spec`.
  Hence `result_eq`: the last stage is `Cert.Spec.resR` of the stacked array and of the per-row shift `Mref`; and
  `Mref_real`: over a row of real logits the shift is a real number (a maximum over a nonempty finite family of reals,
  and max ⊥ x = x).
-/
import proofs.«106615_j4045859193248_2_alg».proof.Proof.RefReadP
import proofs.«106615_j4045859193248_2_alg».proof.Proof.Spec
import Idealize.ShloMosaic.Lib.Affine
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.ReadP Idealize.ShloMosaic Idealize.ShloMosaic.ValueIdx

/-! ## The gather: row r of the operand at the (clamped) column the start index names -/

theorem gather_row_apply {α : Type} {w : Nat} (x : S8192x8192.Idx → α) (idx : IVec S8192x1x1 w) (r : Fin 8192) :
    Host.gather gather_S8192x8192_S8192x1x1_S8192x1_n_1_0_0_1_2_11 x idx (ix2 r (0 : Fin 1))
      = x (ix2 r (⟨min (idx (ix3 r (0 : Fin 1) (0 : Fin 1))).toInt.toNat 8191, by omega⟩ : Fin 8192)) := by
  unfold Host.gather
  congr 1
  funext a
  refine Fin.ext ?_
  match a with
  | ⟨0, _⟩ =>
    show gather_S8192x8192_S8192x1x1_S8192x1_n_1_0_0_1_2_11.start (ix2 r (0 : Fin 1)) idx 0
        + gather_S8192x8192_S8192x1x1_S8192x1_n_1_0_0_1_2_11.batchCoord (ix2 r (0 : Fin 1)) 0
        + gather_S8192x8192_S8192x1x1_S8192x1_n_1_0_0_1_2_11.offCoord (ix2 r (0 : Fin 1)) 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (0 : Fin 2) ∈ gather_S8192x8192_S8192x1x1_S8192x1_n_1_0_0_1_2_11.operandBatchingDims from List.mem_singleton.mpr rfl)]
    rfl
  | ⟨1, _⟩ =>
    show gather_S8192x8192_S8192x1x1_S8192x1_n_1_0_0_1_2_11.start (ix2 r (0 : Fin 1)) idx 1
        + gather_S8192x8192_S8192x1x1_S8192x1_n_1_0_0_1_2_11.batchCoord (ix2 r (0 : Fin 1)) 1
        + gather_S8192x8192_S8192x1x1_S8192x1_n_1_0_0_1_2_11.offCoord (ix2 r (0 : Fin 1)) 1
      = min (idx (ix3 r (0 : Fin 1) (0 : Fin 1))).toInt.toNat 8191
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8192x8192_S8192x1x1_S8192x1_n_1_0_0_1_2_11.startIndexMap from List.mem_singleton.mpr rfl)]
    have hsi : gather_S8192x8192_S8192x1x1_S8192x1_n_1_0_0_1_2_11.siIdx (ix2 r (0 : Fin 1))
        ⟨List.idxOf (1 : Fin 2) gather_S8192x8192_S8192x1x1_S8192x1_n_1_0_0_1_2_11.startIndexMap,
          List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

/-! ## The labels: row r's label word is r mod 4096 -/

theorem toInt_ofNat_small (n : Nat) (h : n < 4096) : (BitVec.ofNat 32 n).toInt = (n : Int) := by
  rw [BitVec.toInt_eq_toNat_cond, BitVec.toNat_ofNat, Nat.mod_eq_of_lt (by omega)]
  rw [if_pos (by omega)]

theorem labels_apply (r : Fin 8192) :
    val_main_v12 (F := Ideal) (ix1 r) = BitVec.ofNat 32 (r.val % 4096) := by
  unfold val_main_v12
  by_cases h : r.val < 4096
  · rw [concatenate_pair_apply_left (t := S8192) (s₁ := S4096) (s₂ := S4096) (0 : Fin 1) (val_main_v10 (F := Ideal))
      (val_main_v11 (F := Ideal)) concatenates_S4096_S4096_S8192_d0 (ix1 r) rfl
      (ix1 (⟨r.val, h⟩ : Fin 4096)) (fun b => by match b with | ⟨0, _⟩ => rfl)]
    rw [val_main_v10_apply]
    show BitVec.ofNat 32 r.val = _
    rw [Nat.mod_eq_of_lt h]
  · rw [concatenate_pair_apply_right (t := S8192) (s₁ := S4096) (s₂ := S4096) (0 : Fin 1) (val_main_v10 (F := Ideal))
      (val_main_v11 (F := Ideal)) concatenates_S4096_S4096_S8192_d0 (ix1 r) rfl rfl
      (ix1 (⟨r.val - 4096, by omega⟩ : Fin 4096)) (fun b hb => by match b with | ⟨0, _⟩ => exact absurd rfl hb)
      (by show r.val - 4096 + 4096 = r.val; omega)]
    rw [val_main_v11_apply]
    show BitVec.ofNat 32 (r.val - 4096) = _
    rw [show r.val % 4096 = r.val - 4096 from by omega]

theorem v14_apply (r : Fin 8192) :
    val_main_v14 (F := Ideal) (ix2 r (0 : Fin 1)) = BitVec.ofNat 32 (r.val % 4096) := by
  rw [val_main_v14_apply]
  have e : idx_main_v14 (ix2 r (0 : Fin 1)) = ix1 r := funext fun a => Fin.ext (by match a with | ⟨0, _⟩ => rfl)
  rw [e, labels_apply]

/-- The label is never negative: the normalizing select keeps the label itself. -/
theorem v4_apply (r : Fin 8192) :
    val_main_call2_v4 (F := Ideal) (ix2 r (0 : Fin 1)) = BitVec.ofNat 32 (r.val % 4096) := by
  rw [val_main_call2_v4_apply, val_main_call2_v1_apply, v14_apply, val_main_call2_v0_apply, val_main_call2_c_apply]
  have h : IntOp.cmpi .slt (BitVec.ofNat 32 (r.val % 4096)) 0#32 = 0#1 := by
    apply eq_zero_of_ne_one
    rw [IntOp.cmpi_slt, toInt_ofNat_small _ (Nat.mod_lt _ (by decide)), show (0#32 : BitVec 32).toInt = 0 from by decide]
    omega
  rw [h, select_zero]

theorem v5_apply (r : Fin 8192) :
    val_main_call2_v5 (F := Ideal) (ix3 r (0 : Fin 1) (0 : Fin 1)) = BitVec.ofNat 32 (r.val % 4096) := by
  rw [val_main_call2_v5_apply]
  have e : idx_main_call2_v5 (ix3 r (0 : Fin 1) (0 : Fin 1)) = ix2 r (0 : Fin 1) := funext fun a => Fin.ext (by
    match a with
    | ⟨0, _⟩ => show ((r.val * 1 + 0) * 1 + 0) / 1 = r.val; omega
    | ⟨1, _⟩ => rfl)
  rw [e, v4_apply]

/-! ## The bounds mask is all ones -/

theorem v11_apply (r : Fin 8192) :
    val_main_call2_v11 (F := Ideal) (ix3 r (0 : Fin 1) (0 : Fin 1)) = 1#1 := by
  rw [val_main_call2_v11_apply, val_main_call2_v7_apply, val_main_call2_v10_apply, v5_apply,
    val_main_call2_v6_apply, val_main_call2_c_2_apply, val_main_call2_v9_apply, val_main_call2_v8_apply,
    val_main_call2_c_1_apply]
  have h1 : IntOp.cmpi .sge (BitVec.ofNat 32 (r.val % 4096)) 0#32 = 1#1 := by
    rw [IntOp.cmpi_sge, toInt_ofNat_small _ (Nat.mod_lt _ (by decide)), show (0#32 : BitVec 32).toInt = 0 from by decide]
    omega
  have h2 : IntOp.cmpi .sle (BitVec.ofNat 32 (r.val % 4096)) 8191#32 = 1#1 := by
    rw [IntOp.cmpi_sle, toInt_ofNat_small _ (Nat.mod_lt _ (by decide)), show (8191#32 : BitVec 32).toInt = 8191 from by decide]
    omega
  rw [h1, h2]; decide

theorem v11_all (i : S8192x1x1.Idx) : val_main_call2_v11 (F := Ideal) i = 1#1 := by
  have e : i = ix3 (⟨(i 0).val, (i 0).isLt⟩ : Fin 8192) (0 : Fin 1) (0 : Fin 1) := funext fun a => Fin.ext (by
    match a with
    | ⟨0, _⟩ => rfl
    | ⟨1, _⟩ => (have h1 : (i 1).val < 1 := (i 1).isLt; show (i 1).val = 0; omega)
    | ⟨2, _⟩ => (have h2 : (i 2).val < 1 := (i 2).isLt; show (i 2).val = 0; omega))
  rw [e]; exact v11_apply _

theorem foldl_andi_all_one {ι : Type} (x : ι → BitVec 1) (hx : ∀ i, x i = 1#1) :
    ∀ (l : List ι), l.foldl (fun r i => IntOp.andi r (x i)) 1#1 = 1#1
  | [] => rfl
  | a :: l => by
    rw [List.foldl_cons, hx a, show IntOp.andi (1#1 : BitVec 1) 1#1 = 1#1 from by decide]
    exact foldl_andi_all_one x hx l

theorem v12_apply (j : S8192x1.Idx) : val_main_call2_v12 (F := Ideal) j = 1#1 := by
  unfold val_main_call2_v12
  rw [Host.reduce_eq_foldl]
  exact foldl_andi_all_one _ v11_all _

/-- The stacked array: the reference's own first stage. -/
abbrev zOf (a0 a1 : (⟨S4096x256, .f32⟩ : BufTy).Contents (Elt Ideal)) : Cert.Spec.Z := val_main_v0 (F := Ideal) a0 a1

/-- The per-row shift the program computes: the larger of -∞ and the row's largest logit (a fold from -∞). -/
def Mref (a0 a1 : (⟨S4096x256, .f32⟩ : BufTy).Contents (Elt Ideal)) (r : Fin 8192) : EReal :=
  val_main_call1_v2 (F := Ideal) a0 a1 (ix1 r)

section Stages
variable (a0 a1 : (⟨S4096x256, .f32⟩ : BufTy).Contents (Elt Ideal))

/-- A row's sum of squares. -/
theorem sumsq_apply (r : Fin 8192) :
    val_main_call0_v1 (F := Ideal) a0 a1 (ix1 r) = 0 + ∑ d : Fin 256, zOf a0 a1 (ix2 r d) * zOf a0 a1 (ix2 r d) := by
  rw [val_main_call0_v1_apply, val_main_call0_cst_apply, Ideal.ofBits_def, Ideal.ofBits_zero_f32]
  refine congrArg (fun s => (0 : EReal) + s) (Finset.sum_congr rfl fun k _ => ?_)
  have e : idx_main_call0_v1 (ix1 r) k = ix2 r k :=
    funext fun a => Fin.ext (by match a with | ⟨0, _⟩ => rfl | ⟨1, _⟩ => rfl)
  rw [e, val_main_call0_v0_apply]; rfl

/-- A row's divisor. -/
theorem nrm_apply (r : Fin 8192) :
    val_main_v3 (F := Ideal) a0 a1 (ix2 r (0 : Fin 1)) = Cert.Spec.nrm (zOf a0 a1) r := by
  have e : idx_main_call0_v2 (ix2 r (0 : Fin 1)) = ix1 r :=
    funext fun a => Fin.ext (by match a with | ⟨0, _⟩ => rfl)
  rw [val_main_v3_apply, val_main_v1_apply, val_main_call0_v2_apply, e, sumsq_apply, val_main_v2_apply, val_main_cst_apply]
  rfl

/-- The normalized rows. -/
theorem zn_apply (r : Fin 8192) (d : Fin 256) :
    val_main_v5 (F := Ideal) a0 a1 (ix2 r d) = Cert.Spec.zn (zOf a0 a1) r d := by
  have e : idx_main_v4 (ix2 r d) = ix2 r (0 : Fin 1) :=
    funext fun a => Fin.ext (by match a with | ⟨0, _⟩ => rfl | ⟨1, _⟩ => rfl)
  rw [val_main_v5_apply, val_main_v4_apply, e, nrm_apply]
  rfl

/-- The logits. -/
theorem logit_apply (r n : Fin 8192) :
    val_main_v9 (F := Ideal) a0 a1 (ix2 r n) = Cert.Spec.logit (zOf a0 a1) r n := by
  rw [val_main_v9_apply, val_main_v7_apply, val_main_v8_apply, val_main_cst_0_apply]
  have hs : (∑ k : Fin 256, val_main_v5 (F := Ideal) a0 a1 (lidx_main_v7 (ix2 r n) k)
        * val_main_v6 (F := Ideal) a0 a1 (ridx_main_v7 (ix2 r n) k))
      = ∑ d : Fin 256, Cert.Spec.zn (zOf a0 a1) r d * Cert.Spec.zn (zOf a0 a1) n d :=
    Finset.sum_congr rfl fun k _ => by
      have e1 : lidx_main_v7 (ix2 r n) k = ix2 r k :=
        funext fun a => Fin.ext (by match a with | ⟨0, _⟩ => rfl | ⟨1, _⟩ => rfl)
      have e2 : idx_main_v6 (ridx_main_v7 (ix2 r n) k) = ix2 n k :=
        funext fun a => Fin.ext (by match a with | ⟨0, _⟩ => rfl | ⟨1, _⟩ => rfl)
      rw [e1, val_main_v6_apply, e2, zn_apply, zn_apply]
  rw [hs]
  rfl

/-- The shifted logits. -/
theorem shifted_apply (r n : Fin 8192) :
    val_main_call1_v5 (F := Ideal) a0 a1 (ix2 r n) = Cert.Spec.logit (zOf a0 a1) r n - Mref a0 a1 r := by
  have e1 : idx_main_call1_v4 (ix2 r n) = ix2 r (0 : Fin 1) :=
    funext fun a => Fin.ext (by match a with | ⟨0, _⟩ => rfl | ⟨1, _⟩ => rfl)
  have e2 : idx_main_call1_v3 (ix2 r (0 : Fin 1)) = ix1 r :=
    funext fun a => Fin.ext (by match a with | ⟨0, _⟩ => rfl)
  rw [val_main_call1_v5_apply, logit_apply, val_main_call1_v4_apply, e1, val_main_call1_v3_apply, e2]
  rfl

/-- The logarithm of a row's sum of exponentials of shifted logits. -/
theorem lse_apply (r : Fin 8192) :
    val_main_call1_v9 (F := Ideal) a0 a1 (ix2 r (0 : Fin 1))
      = Ideal.log (0 + ∑ n : Fin 8192, Ideal.exp (Cert.Spec.logit (zOf a0 a1) r n - Mref a0 a1 r)) := by
  have e : idx_main_call1_v8 (ix2 r (0 : Fin 1)) = ix1 r :=
    funext fun a => Fin.ext (by match a with | ⟨0, _⟩ => rfl)
  rw [val_main_call1_v9_apply, val_main_call1_v8_apply, e, val_main_call1_v7_apply, val_main_call1_cst_1_apply,
    Ideal.ofBits_def, Ideal.ofBits_zero_f32]
  have hs : (∑ k : Fin 8192, val_main_call1_v6 (F := Ideal) a0 a1 (idx_main_call1_v7 (ix1 r) k))
      = ∑ n : Fin 8192, Ideal.exp (Cert.Spec.logit (zOf a0 a1) r n - Mref a0 a1 r) :=
    Finset.sum_congr rfl fun k _ => by
      have e3 : idx_main_call1_v7 (ix1 r) k = ix2 r k :=
        funext fun a => Fin.ext (by match a with | ⟨0, _⟩ => rfl | ⟨1, _⟩ => rfl)
      rw [e3, val_main_call1_v6_apply, shifted_apply]; rfl
  rw [hs]
  rfl

/-- The shifted log-softmax. -/
theorem logp_apply (r n : Fin 8192) :
    val_main_v13 (F := Ideal) a0 a1 (ix2 r n)
      = (Cert.Spec.logit (zOf a0 a1) r n - Mref a0 a1 r)
        - Ideal.log (0 + ∑ n' : Fin 8192, Ideal.exp (Cert.Spec.logit (zOf a0 a1) r n' - Mref a0 a1 r)) := by
  have e : idx_main_call1_v10 (ix2 r n) = ix2 r (0 : Fin 1) :=
    funext fun a => Fin.ext (by match a with | ⟨0, _⟩ => rfl | ⟨1, _⟩ => rfl)
  rw [val_main_v13_apply, shifted_apply, val_main_call1_v10_apply, e, lse_apply]
  rfl

/-- The entry taken from row r: the one at the label column. -/
theorem take_apply (r : Fin 8192) :
    val_main_v15 (F := Ideal) a0 a1 (ix2 r (0 : Fin 1)) = val_main_v13 (F := Ideal) a0 a1 (ix2 r (Cert.Spec.lab r)) := by
  have hidx : (⟨min (val_main_call2_v5 (F := Ideal) (ix3 r (0 : Fin 1) (0 : Fin 1))).toInt.toNat 8191, by omega⟩ : Fin 8192)
      = Cert.Spec.lab r := by
    apply Fin.ext
    show min (val_main_call2_v5 (F := Ideal) (ix3 r (0 : Fin 1) (0 : Fin 1))).toInt.toNat 8191 = r.val % 4096
    rw [v5_apply, toInt_ofNat_small _ (Nat.mod_lt _ (by decide))]
    omega
  rw [val_main_v15_apply, v12_apply, select_one]
  unfold val_main_call2_v13
  rw [gather_row_apply]
  exact congrArg (fun c => val_main_v13 (F := Ideal) a0 a1 (ix2 r c)) hidx

/-- Minus the taken entry. -/
theorem nll_apply (r : Fin 8192) :
    val_main_v17 (F := Ideal) a0 a1 (ix1 r)
      = -((Cert.Spec.logit (zOf a0 a1) r (Cert.Spec.lab r) - Mref a0 a1 r)
          - Ideal.log (0 + ∑ n : Fin 8192, Ideal.exp (Cert.Spec.logit (zOf a0 a1) r n - Mref a0 a1 r))) := by
  have e : idx_main_v16 (ix1 r) = ix2 r (0 : Fin 1) :=
    funext fun a => Fin.ext (by
      match a with
      | ⟨0, _⟩ => show r.val / 1 = r.val; omega
      | ⟨1, _⟩ => rfl)
  rw [val_main_v17_apply, val_main_v16_apply, e, take_apply, logp_apply]
  rfl

/-- A rank-1 index is its coordinate. -/
def idxEquiv1 : S8192.Idx ≃ Fin 8192 where
  toFun j := ⟨(j 0).val, (j 0).isLt⟩
  invFun r := ix1 r
  left_inv j := funext fun a => by match a with | ⟨0, _⟩ => rfl
  right_inv r := rfl

/-- THE REFERENCE'S VALUE: the mean over the rows of minus the shifted log-softmax at the label. -/
theorem result_eq :
    val_main_v19 (F := Ideal) a0 a1 = fun _ => Cert.Spec.resR (zOf a0 a1) (Mref a0 a1) := by
  funext i
  have hs : (∑ j : S8192.Idx, val_main_v17 (F := Ideal) a0 a1 j)
      = ∑ r : Fin 8192, -((Cert.Spec.logit (zOf a0 a1) r (Cert.Spec.lab r) - Mref a0 a1 r)
          - Ideal.log (0 + ∑ n : Fin 8192, Ideal.exp (Cert.Spec.logit (zOf a0 a1) r n - Mref a0 a1 r))) :=
    (Equiv.sum_comp idxEquiv1.symm (fun j => val_main_v17 (F := Ideal) a0 a1 j)).symm.trans
      (Finset.sum_congr rfl fun r _ => nll_apply a0 a1 r)
  rw [val_main_v19_apply, val_main_v18_apply, hs, val_main_cst_1_apply, val_main_cst_2_apply, Ideal.ofBits_def,
    Ideal.ofBits_zero_f32]
  rfl

/-- The shift of a row of real logits is real: a maximum over a nonempty finite family of reals, and max ⊥ x = x. -/
theorem Mref_real (r : Fin 8192) (h : ∀ n : Fin 8192, ∃ x : ℝ, Cert.Spec.logit (zOf a0 a1) r n = (x : EReal)) :
    ∃ x : ℝ, Mref a0 a1 r = (x : EReal) := by
  have hb : Ideal.ofBits .f32 0xFF800000#32 = (⊥ : EReal) := by simp [Ideal.ofBits, Ideal.ieee]
  have hfold : Mref a0 a1 r = max (⊥ : EReal)
      ((Finset.univ : Finset (Fin 8192)).fold max (⊥ : EReal) (fun n => Cert.Spec.logit (zOf a0 a1) r n)) := by
    unfold Mref
    rw [val_main_call1_v2_apply, val_main_call1_v1_apply, val_main_call1_cst_0_apply]
    unfold val_main_call1_v0
    rw [Host.reduce_eq_fold_single (FloatOps.maximumf (F := Ideal) (φ := .f32)) (val_main_v9 (F := Ideal) a0 a1)
      (val_main_call1_cst (F := Ideal)) reducesTo_S8192x8192_S8192_d1 (by decide) h_S_ (ix1 r)]
    rw [val_main_call1_cst_apply]
    have hf : (val_main_v9 (F := Ideal) a0 a1 ∘ Shape.Reduces.lift (s := S8192x8192) (t := S8192) (a := 1) (by decide) (ix1 r))
        = fun n : Fin 8192 => Cert.Spec.logit (zOf a0 a1) r n := by
      funext k
      have e : Shape.Reduces.lift (s := S8192x8192) (t := S8192) (a := 1) (by decide) (ix1 r) k = ix2 r (⟨k.val, k.isLt⟩ : Fin 8192) :=
        funext fun a => Fin.ext (by match a with | ⟨0, _⟩ => rfl | ⟨1, _⟩ => rfl)
      show val_main_v9 (F := Ideal) a0 a1 (Shape.Reduces.lift (s := S8192x8192) (t := S8192) (a := 1) (by decide) (ix1 r) k) = _
      rw [e, logit_apply]
      rfl
    rw [hf]
    simp only [Ideal.ofBits_def, hb]
    rfl
  rw [hfold, max_eq_right bot_le]
  have h1 : (⊥ : EReal) < (Finset.univ : Finset (Fin 8192)).fold max (⊥ : EReal) (fun n => Cert.Spec.logit (zOf a0 a1) r n) :=
    (Finset.lt_fold_max _).2 (Or.inr ⟨(0 : Fin 8192), Finset.mem_univ _, by
      obtain ⟨x, hx⟩ := h 0; rw [hx]; exact EReal.bot_lt_coe x⟩)
  have h2 : (Finset.univ : Finset (Fin 8192)).fold max (⊥ : EReal) (fun n => Cert.Spec.logit (zOf a0 a1) r n) < ⊤ :=
    (Finset.fold_max_lt _).2 ⟨bot_lt_top, fun n _ => by obtain ⟨x, hx⟩ := h n; rw [hx]; exact EReal.coe_lt_top x⟩
  exact ⟨_, (EReal.coe_toReal h2.ne h1.ne').symm⟩

end Stages

end Cert.ReferenceIdeal.RefValue

end
-- ==== Proof.LseLaw.lean ====
/-
  The law that joins the two sides of the claim: on real inputs and real per-row shifts, the kernel side and the
  reference side of `Spec` are the same extended real.

  The steps, all of them about real numbers carried inside the extended reals:

  * the four constants are reals: the norm's lower bound is a positive real, bfloat16's `0x4000` and float32's
    `0x40000000` are `2`, float32's `0x3F000000` is `1/2` (the common divisor of the two means is never evaluated);
  * a row's divisor is a positive real (a square root of a sum of squares, or the positive lower bound if that is larger),
    so every normalized entry `zn z r d` is a real;
  * hence the kernel's logit `⟨2·zn r, zn n⟩` and the reference's `⟨zn r, zn n⟩ / (1/2)` are the same real
    `2·∑ d, zn r d · zn n d`, and the kernel's target term is the logit at the label column (the partner row IS the label
    row, and multiplication commutes);
  * for reals `a n`, `m`, `t` over a nonempty finite index set,
    `log (∑ exp (a n)) - t = -((t - m) - log (∑ exp (a n - m)))`, because `∑ exp (a n - m) = (∑ exp (a n)) · exp (-m)`, the sums
    are positive, and `log (s · exp (-m)) = log s - m`;
  * the two means are then the same sum divided by the same word.
-/
import proofs.«106615_j4045859193248_2_alg».proof.Proof.Spec

noncomputable section

open scoped BigOperators

namespace Cert.Spec

open Idealize.ShloMosaic Idealize.ShloMosaic.ValueIdx

/-! ## The constants as reals -/

/-- bfloat16's `0x4000` is the real `2`. -/
theorem two_bf16 : Ideal.ofBits .bf16 0x4000#16 = ((2 : ℝ) : EReal) := by
  simp [Ideal.ofBits, Ideal.ieee, -EReal.coe_mul]; norm_num

/-- float32's `0x40000000` is the real `2`. -/
theorem two_f32 : Ideal.ofBits .f32 0x40000000#32 = ((2 : ℝ) : EReal) := by
  simp [Ideal.ofBits, Ideal.ieee, -EReal.coe_mul]; norm_num

/-- float32's `0x3F000000` is the real `1/2`. -/
theorem half_f32 : Ideal.ofBits .f32 0x3F000000#32 = (((1 / 2 : ℝ)) : EReal) := by
  simp [Ideal.ofBits, Ideal.ieee, -EReal.coe_mul]; norm_num

/-- The norm's lower bound is a positive real (a normal float32 with sign bit `0`). -/
theorem eps_real : ∃ e : ℝ, 0 < e ∧ eps = (e : EReal) := by
  unfold eps
  simp [Ideal.ofBits, Ideal.ieee, -EReal.coe_mul]

/-! ## Finite sums of reals inside the extended reals -/

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The shift law of log-sum-exp -/

/-- For reals over a nonempty finite index set, `log (∑ exp a) - t = -((t - m) - log (∑ exp (a - m)))`: the shift `m` cancels. -/
theorem lse_shift {ι : Type*} (s : Finset ι) (hs : s.Nonempty) (a : ι → ℝ) (m t : ℝ) :
    Ideal.log (∑ n ∈ s, Ideal.exp (a n : EReal)) - (t : EReal)
      = -(((t : EReal) - (m : EReal))
          - Ideal.log (0 + ∑ n ∈ s, Ideal.exp ((a n : EReal) - (m : EReal)))) := by
  have hS : 0 < ∑ n ∈ s, Real.exp (a n) := Finset.sum_pos (fun n _ => Real.exp_pos _) hs
  have hS' : 0 < ∑ n ∈ s, Real.exp (a n - m) := Finset.sum_pos (fun n _ => Real.exp_pos _) hs
  have e1 : ∑ n ∈ s, Ideal.exp (a n : EReal) = ((∑ n ∈ s, Real.exp (a n) : ℝ) : EReal) := by
    rw [coe_sum]; rfl
  have e2 : ∑ n ∈ s, Ideal.exp ((a n : EReal) - (m : EReal))
      = ((∑ n ∈ s, Real.exp (a n - m) : ℝ) : EReal) := by
    rw [coe_sum]; rfl
  have hsum : ∑ n ∈ s, Real.exp (a n - m) = (∑ n ∈ s, Real.exp (a n)) * Real.exp (-m) := by
    rw [Finset.sum_mul]
    exact Finset.sum_congr rfl (fun n _ => by rw [sub_eq_add_neg, Real.exp_add])
  have hlog : Real.log (∑ n ∈ s, Real.exp (a n - m)) = Real.log (∑ n ∈ s, Real.exp (a n)) - m := by
    rw [hsum, Real.log_mul hS.ne' (Real.exp_pos _).ne', Real.log_exp]; ring
  rw [e1, e2, zero_add, Ideal.log_coe, Ideal.log_coe, if_neg (not_le.mpr hS), if_neg (not_le.mpr hS'), hlog]
  rw [← EReal.coe_sub, ← EReal.coe_sub, ← EReal.coe_sub, ← EReal.coe_neg]
  congr 1
  ring

/-! ## The normalized rows are real -/

/-- A row's divisor is a positive real. -/
theorem nrm_real (z : Z) (hz : ∀ i, ∃ x : ℝ, z i = (x : EReal)) (r : Fin 8192) :
    ∃ N : ℝ, 0 < N ∧ nrm z r = (N : EReal) := by
  choose x hx using hz
  obtain ⟨e, he, heps⟩ := eps_real
  refine ⟨max (Real.sqrt (∑ d : Fin 256, x (ix2 r d) * x (ix2 r d))) e, lt_max_of_lt_right he, ?_⟩
  have h1 : (0 : EReal) + ∑ d : Fin 256, z (ix2 r d) * z (ix2 r d)
      = ((∑ d : Fin 256, x (ix2 r d) * x (ix2 r d) : ℝ) : EReal) := by
    rw [zero_add, coe_sum]
    exact Finset.sum_congr rfl (fun d _ => by rw [hx, EReal.coe_mul])
  have h0 : ¬ (∑ d : Fin 256, x (ix2 r d) * x (ix2 r d)) < 0 :=
    not_lt.mpr (Finset.sum_nonneg (fun d _ => mul_self_nonneg _))
  unfold nrm
  rw [h1, Ideal.sqrt_coe, if_neg h0, heps]
  exact (EReal.coe_strictMono.monotone.map_max).symm

/-- Every normalized entry is a real. -/
theorem zn_real (z : Z) (hz : ∀ i, ∃ x : ℝ, z i = (x : EReal)) (r : Fin 8192) (d : Fin 256) :
    ∃ y : ℝ, zn z r d = (y : EReal) := by
  obtain ⟨N, hN, hnrm⟩ := nrm_real z hz r
  obtain ⟨x, hx⟩ := hz (ix2 r d)
  refine ⟨x * (1 / N), ?_⟩
  unfold zn
  rw [hnrm, Ideal.div_coe hN.ne', hx, EReal.coe_mul]

/-! ## The logits and the target term as reals -/

section Reals

variable (z : Z) (y : Fin 8192 → Fin 256 → ℝ) (hy : ∀ r d, zn z r d = (y r d : EReal))

include hy

/-- The inner product of two normalized rows is the real inner product. -/
theorem inner_real (r n : Fin 8192) :
    ∑ d : Fin 256, zn z r d * zn z n d = ((∑ d : Fin 256, y r d * y n d : ℝ) : EReal) := by
  rw [coe_sum]
  exact Finset.sum_congr rfl (fun d _ => by rw [hy, hy, EReal.coe_mul])

/-- The kernel's logit is twice the real inner product. -/
theorem dotK_real (r n : Fin 8192) :
    dotK z r n = ((2 * ∑ d : Fin 256, y r d * y n d : ℝ) : EReal) := by
  unfold dotK
  rw [two_bf16, Finset.mul_sum, coe_sum]
  refine Finset.sum_congr rfl (fun d _ => ?_)
  rw [hy, hy, ← EReal.coe_mul, ← EReal.coe_mul]
  congr 1
  ring

/-- The reference's logit is twice the real inner product. -/
theorem logit_real (r n : Fin 8192) :
    logit z r n = ((2 * ∑ d : Fin 256, y r d * y n d : ℝ) : EReal) := by
  unfold logit
  rw [half_f32, Ideal.div_coe (by norm_num), inner_real z y hy, ← EReal.coe_mul]
  congr 1
  ring

/-- The kernel's target term is the logit at the label column. -/
theorem tgtK_real (r : Fin 8192) :
    tgtK z r = ((2 * ∑ d : Fin 256, y r d * y (lab r) d : ℝ) : EReal) := by
  unfold tgtK
  rw [two_f32, zero_add, inner_real z y hy, ← EReal.coe_mul]
  congr 1
  rw [mul_comm]
  congr 1
  exact Finset.sum_congr rfl (fun d _ => mul_comm _ _)

end Reals

/-! ## The two sides agree -/

/-- On real inputs and real shifts the kernel side and the reference side are equal. -/
theorem resK_eq_resR (z : Z) (hz : ∀ i, ∃ x : ℝ, z i = (x : EReal)) (M : Fin 8192 → EReal)
    (hM : ∀ r, ∃ m : ℝ, M r = (m : EReal)) : resK z = resR z M := by
  choose y hy using zn_real z hz
  choose m hm using hM
  unfold resK resR
  congr 2
  refine Finset.sum_congr rfl (fun r _ => ?_)
  simp only [dotK_real z y hy, logit_real z y hy, tgtK_real z y hy, hm]
  exact lse_shift Finset.univ Finset.univ_nonempty (fun n => 2 * ∑ d : Fin 256, y r d * y n d) (m r)
    (2 * ∑ d : Fin 256, y r d * y (lab r) d)

end Cert.Spec

end
-- ==== Proof.FiniteInputs.lean ====
/-
  What the finiteness precondition gives. The precondition says that every entry of each of the two input arrays has
  absolute value below +∞. In the extended reals |x| = max x (-x) < ⊤ excludes both infinities, so every entry is a real
  number; the stacked array's entries are entries of one of the two inputs, hence real as well.
-/
import proofs.«106615_j4045859193248_2_alg».proof.Pre_finite_inputs
import proofs.«106615_j4045859193248_2_alg».proof.Proof.Gen.Pre_finite_inputs
import Idealize.ShloMosaic.Lib.ReduceAll
import Idealize.ShloMosaic.Lib.ValueIdx
import Idealize.ShloMosaic.Lib.Pipeline.Value

noncomputable section

namespace Cert.FiniteInputs

open Idealize.ShloMosaic Idealize.ShloMosaic.ValueIdx
open Cert.Pre_finite_inputs Cert.Pre_finite_inputs.Gen

/-- The scalar shape has one index. -/
instance : Subsingleton S_.Idx := ⟨fun a b => funext fun d => d.elim0⟩

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The word of float32's +∞ denotes ⊤. -/
theorem inf_word : Ideal.ofBits .f32 0x7F800000#32 = (⊤ : EReal) := by
  simp [Ideal.ofBits, Ideal.ieee]

/-- One bit that is the truth value of a proposition is 1 exactly when the proposition holds. -/
theorem ofBool_decide_eq_one (p : Prop) [Decidable p] (h : BitVec.ofBool (decide p) = 1#1) : p := by
  by_cases hp : p
  · exact hp
  · simp [hp] at h

/-- An entry whose comparison |x| < +∞ came out true is a real number. -/
theorem elt_real (a : FVec Ideal S4096x256 .f32) (i : S4096x256.Idx)
    (e : cmpf .olt (Host.absf a) (broadcastInDim S4096x256 ![] bcast_S_S4096x256 (constant S_ .f32 0x7F800000#32)) i = 1#1) :
    ∃ r : ℝ, a i = (r : EReal) := by
  have e' : BitVec.ofBool (decide (max (a i) (-(a i)) < Ideal.ofBits .f32 0x7F800000#32)) = 1#1 := e
  have e'' := ofBool_decide_eq_one _ e'
  rw [inf_word] at e''
  exact real_of_abs_lt_top _ e''

theorem entries_real (a0 a1 : FVec Ideal S4096x256 .f32)
    (h : Cert.Pre_finite_inputs.fn (F := Ideal) a0 a1 = fun _ => 1#1) :
    (∀ i, ∃ x : ℝ, a0 i = (x : EReal)) ∧ (∀ i, ∃ x : ℝ, a1 i = (x : EReal)) := by
  have h0 := congrFun h ValueIdx.ix0
  dsimp only [Cert.Pre_finite_inputs.fn] at h0
  obtain ⟨h1, h2⟩ := IntOp.andi_eq_one.1 h0
  exact ⟨fun i => elt_real a0 i (Host.reduce_andi_all _ _ _ _ _ h1 i),
    fun i => elt_real a1 i (Host.reduce_andi_all _ _ _ _ _ h2 i)⟩

/-- The stacked array's shape: 8192 rows of 256 entries. -/
abbrev S8192x256 : Shape := ⟨2, ![8192, 256]⟩

/-- Every entry of the stack of the two inputs is an entry of the first input (rows below 4096) or of the second (the
    row less 4096), hence a real number. -/
theorem stacked_real (a0 a1 : FVec Ideal S4096x256 .f32)
    (h : Cert.Pre_finite_inputs.fn (F := Ideal) a0 a1 = fun _ => 1#1)
    (hc : Shape.Concatenates [S4096x256, S4096x256] S8192x256 0) (i : S8192x256.Idx) :
    ∃ x : ℝ, concatenate S8192x256 0 [⟨S4096x256, a0⟩, ⟨S4096x256, a1⟩] hc i = (x : EReal) := by
  obtain ⟨r0, r1⟩ := entries_real a0 a1 h
  have hi0 : (i 0).val < 8192 := idx2_lt0 i
  by_cases hlt : (i 0).val < 4096
  · rw [concatenate_pair_apply_left (0 : Fin S8192x256.rank) a0 a1 hc i rfl (ix2 ⟨(i 0).val, hlt⟩ (i 1))
      (fun b => by match b with | ⟨0, _⟩ => rfl | ⟨1, _⟩ => rfl)]
    exact r0 _
  · rw [concatenate_pair_apply_right (0 : Fin S8192x256.rank) a0 a1 hc i rfl rfl
      (ix2 ⟨(i 0).val - 4096, by omega⟩ (i 1))
      (fun b hb => by
        match b, hb with
        | ⟨0, _⟩, hb => exact absurd rfl hb
        | ⟨1, _⟩, _ => rfl)
      (by show (i 0).val - 4096 + 4096 = (i 0).val; omega)]
    exact r1 _

end Cert.FiniteInputs

end
-- ==== Proof.Claims.lean ====
/-
  The five claims of the certificate, assembled.

  Both programs, read over the extended reals, compute one number from the stacked input `z` (the two argument arrays laid one
  after the other): the kernel program the mean over the rows of log-sum-exp of the doubled inner products of normalized rows
  minus twice the inner product with the partner row (`Cert.Spec.resK z`), the reference program the mean of minus the shifted
  log-softmax at the label column (`Cert.Spec.resR z M`, `M` the per-row shift it computes). The precondition makes every entry
  of `z` a real number; then every normalized entry, every logit and every shift is real, the shift cancels
  (`log ∑ exp (a - M) = log ∑ exp a - M`), and the two numbers are equal. The frame claims keep, of each program's run, that it
  terminates and leaves its two arguments as launched. The kernel program is its own idealization: nothing was rewritten.

  What each claim takes from elsewhere is a hypothesis of its theorem here: the kernel body's obligation (at the extended
  reals, for the value; the run at bit patterns, for the frame), the value the kernel program's last operations compute, and
  the reference program's run.
-/
import proofs.«106615_j4045859193248_2_alg».proof.Defs
import proofs.«106615_j4045859193248_2_alg».proof.Proof.Gen.Kernel
import proofs.«106615_j4045859193248_2_alg».proof.Proof.Gen.KernelIdeal
import proofs.«106615_j4045859193248_2_alg».proof.Proof.Gen.ReferenceIdeal
import proofs.«106615_j4045859193248_2_alg».proof.Proof.Gen.Pre_finite_inputs
import proofs.«106615_j4045859193248_2_alg».proof.Proof.KRun
import proofs.«106615_j4045859193248_2_alg».proof.Proof.KHostZn
import proofs.«106615_j4045859193248_2_alg».proof.Proof.RefValue
import proofs.«106615_j4045859193248_2_alg».proof.Proof.LseLaw
import proofs.«106615_j4045859193248_2_alg».proof.Proof.FiniteInputs

noncomputable section

namespace Cert.Proof.Claims

open Idealize.ShloMosaic Idealize.ShloMosaic.TcCoe Idealize.SL.Sem
open Idealize.ShloMosaic.Pipeline (BodyObligation)

/-! ## What is taken from elsewhere -/

/-- The kernel body's obligation at the extended reals, on every core from every launch memory. -/
abbrev KernelIdealBody : Prop :=
  ∀ (m : (ℓ : Loc Cert.KernelIdeal.nD Cert.KernelIdeal.τ Cert.KernelIdeal.sig) → Buf (Elt Ideal) ℓ) (c : Dev Cert.KernelIdeal.nD),
    BodyObligation (Cert.KernelIdeal.Hand.dats m 0 c) (Cert.KernelIdeal.defs₀ (F := Ideal)) Cert.KernelIdeal.Hand.𝒱₀ () Set.univ

/-- The value the kernel program's last operations leave in the result buffer: the kernel side of the specification at the
    stacked input. -/
abbrev KernelIdealValue : Prop :=
  ∀ (m : (ℓ : Loc Cert.KernelIdeal.nD Cert.KernelIdeal.τ Cert.KernelIdeal.sig) → Buf (Elt Ideal) ℓ) (c : Dev Cert.KernelIdeal.nD),
    (Cert.KernelIdeal.Hand.Wend m c (Proc.devRef .tc Cert.KernelIdeal.main_v24) : Cert.KernelIdeal.S_.Idx → EReal)
      = fun _ => Cert.Spec.resK (Cert.KernelIdeal.Hand.zin m c)

/-- The kernel program's run at bit patterns, as far as the frame claim needs it: it terminates and leaves the arguments. -/
abbrev KernelFrameRun : Prop :=
  ∀ (m : (ℓ : Loc Cert.Kernel.nD Cert.Kernel.τ Cert.Kernel.sig) → Buf (Elt Bits) ℓ) (ρ : Dev Cert.Kernel.nD → PrngReg),
    θ_run (Cert.Kernel.defs (F := Bits)) (onTc (τ := Cert.Kernel.τ) (Cert.Kernel.main (F := Bits))) ⟨m, fun _ => 0, ρ⟩
      (fun r => ∀ c : Dev Cert.Kernel.nD,
        r.2.mem ((c.tc : Thread Cert.Kernel.nD Cert.Kernel.τ).loc Cert.Kernel.main_arg0)
            = m ((c.tc : Thread Cert.Kernel.nD Cert.Kernel.τ).loc Cert.Kernel.main_arg0)
        ∧ r.2.mem ((c.tc : Thread Cert.Kernel.nD Cert.Kernel.τ).loc Cert.Kernel.main_arg1)
            = m ((c.tc : Thread Cert.Kernel.nD Cert.Kernel.τ).loc Cert.Kernel.main_arg1))

/-- The reference program's run: it terminates with the result buffer at its last stage's term of the two arguments, and
    leaves the arguments. -/
abbrev ReferenceRun : Prop :=
  ∀ (m : (ℓ : Loc Cert.ReferenceIdeal.nD Cert.ReferenceIdeal.τ Cert.ReferenceIdeal.sig) → Buf (Elt Ideal) ℓ)
    (ρ : Dev Cert.ReferenceIdeal.nD → PrngReg),
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v19)
            = Cert.ReferenceIdeal.ReadP.val_main_v19 (F := Ideal)
                (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))

/-! ## The frames and the idealization -/

theorem preserves : Cert.preserves_Kernel_KernelIdeal := trivial

theorem frame_p (hrun : KernelFrameRun) : Cert.frame_Kernel := fun m ρ _ => hrun m ρ

theorem frame_pi (hbody : KernelIdealBody) : Cert.frame_KernelIdeal := fun m ρ _ =>
  (θ_run Cert.KernelIdeal.defs _ _).mono (fun _ h c => ⟨(h c).2.1, (h c).2.2⟩)
    (Cert.KernelIdeal.Hand.run_main_of m (hbody m) ρ)

theorem frame_ri (hrun : ReferenceRun) : Cert.frame_ReferenceIdeal := fun m ρ _ =>
  (θ_run Cert.ReferenceIdeal.defs _ _).mono (fun _ h c => (h c).2) (hrun m ρ)

/-! ## The two values are equal -/

/-- On arguments the precondition holds of, the reference program's last stage is the kernel side of the specification at
    the stacked input. -/
theorem ref_value (m : (ℓ : Loc Cert.KernelIdeal.nD Cert.KernelIdeal.τ Cert.KernelIdeal.sig) → Buf (Elt Ideal) ℓ)
    (c : Dev Cert.KernelIdeal.nD)
    (hp : Cert.Pre_finite_inputs.fn (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) = fun _ => 1#1) :
    Cert.ReferenceIdeal.ReadP.val_main_v19 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = fun _ => Cert.Spec.resK (Cert.KernelIdeal.Hand.zin m c) := by
  have hz : ∀ i, ∃ x : ℝ, Cert.KernelIdeal.Hand.zin m c i = (x : EReal) := fun i =>
    Cert.FiniteInputs.stacked_real _ _ hp _ i
  choose y hy using Cert.Spec.zn_real (Cert.KernelIdeal.Hand.zin m c) hz
  have hM : ∀ r, ∃ x : ℝ, Cert.ReferenceIdeal.RefValue.Mref
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) r = (x : EReal) := fun r =>
    Cert.ReferenceIdeal.RefValue.Mref_real _ _ r (fun n => ⟨_, Cert.Spec.logit_real (Cert.KernelIdeal.Hand.zin m c) y hy r n⟩)
  rw [Cert.ReferenceIdeal.RefValue.result_eq]
  funext _
  exact (Cert.Spec.resK_eq_resR (Cert.KernelIdeal.Hand.zin m c) hz _ hM).symm

/-- Both programs run, and end with equal results and unchanged arguments. -/
theorem algebraic (hbody : KernelIdealBody) (hval : KernelIdealValue) (hrun : ReferenceRun) :
    Cert.algebraic_KernelIdeal_ReferenceIdeal := by
  intro m ρ m' ρ' hpre hagree
  refine ⟨fun c => (fun _ => Cert.Spec.resK (Cert.KernelIdeal.Hand.zin m c)), ?_, ?_⟩
  · exact (θ_run Cert.KernelIdeal.defs _ _).mono (fun _ h c => ⟨(h c).1.trans (hval m c), (h c).2⟩)
      (Cert.KernelIdeal.Hand.run_main_of m (hbody m) ρ)
  · refine (θ_run Cert.ReferenceIdeal.defs _ _).mono (fun _ h c => ⟨(h c).1.trans ?_, (h c).2⟩) (hrun m' ρ')
    rw [(hagree c).1, (hagree c).2]
    exact ref_value m c (hpre c)

/-! ## The certificate's claim -/

theorem claim (hB : KernelFrameRun) (hbody : KernelIdealBody) (hval : KernelIdealValue) (hrun : ReferenceRun) : Cert.Claim :=
  ⟨Cert.Kernel.Gen.facts, Cert.KernelIdeal.Gen.facts, Cert.ReferenceIdeal.Gen.facts, Cert.Pre_finite_inputs.Gen.facts,
    frame_p hB, frame_pi hbody, frame_ri hrun, preserves, algebraic hbody hval hrun⟩

end Cert.Proof.Claims

end
-- ==== Proof.KBefore.lean ====
/-
  What the body finds in the two reading windows' buffers at each of the eight points.

  The query window moves to a new block of the normalized array at every point, so it is fetched at every point and the body
  finds that block. The key window's block is the whole array at every point: it is fetched once, at the first point, and
  the body, which only reads it, leaves it in place — so at every point the body finds the whole array there, fetched at that
  point or not.
-/
import proofs.«106615_j4045859193248_2_alg».proof.Proof.KData
import Idealize.ShloMosaic.Lib.Pipeline.Frame
import Idealize.ShloMosaic.Lib.Pipeline.FrameBody

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-- The query window's buffer holds block `t` of the normalized array when the body runs at point `t`. -/
theorem before0 (c : Dev nD) (t : Fin cfg0.N) (d : (cfg0.win 0).block.Idx → Elt F (cfg0.win 0).elt) :
    (dats m 0 c).before 0 t d = qblk m c t := by
  rw [(dats m 0 c).before_fetched 0 t (fetch0_0 t) d]
  unfold Dat.fetched Dat.blockOf
  dsimp only [dats]
  rfl

/-- The key window's buffer holds the whole normalized array when the body runs at any point. -/
theorem before1 (c : Dev nD) (t : Fin cfg0.N) (d : (cfg0.win 1).block.Idx → Elt F (cfg0.win 1).elt) :
    (dats m 0 c).before 1 t d = kall m c t := by
  rw [(dats m 0 c).before_in_eq_fetched 1 rfl (fun _ => rfl) (fun _ _ _ => rfl)
    (fun t => by unfold Dat.blockOf; dsimp only [dats]) t d]
  unfold Dat.fetched Dat.blockOf
  dsimp only [dats]
  rfl

end Cert.KernelIdeal.Hand

end
-- ==== Proof.KBody.lean ====
/-
  The kernel body's triple and the pipeline's body obligation, for every float instance.

  One trip of the loop stores into the scratch column ONE whole-buffer piece: the payload of the query block, the trip's key tile
  and the scratch as the trip found it. A whole-buffer store leaves its payload and a whole-buffer load reads the contents, so by
  induction on the trip count the scratch before trip `k` reads `accV q X k` — zero, then one tile's row sums of
  `exp (2·q·tileᵀ)` added per trip. After the loop the body stores the logarithm of the scratch, whole, into the output
  buffer, which therefore reads `outV q X`; the query block and the keys are only read. At a grid point the pipeline hands the
  body the point's query block and the keys (the whole normalized array, fetched at the first point and kept), so the obligation
  at every point is that triple at the point's staging buffers.
-/
import proofs.«106615_j4045859193248_2_alg».proof.Proof.KData
import proofs.«106615_j4045859193248_2_alg».proof.Proof.KBefore
import Idealize.ShloMosaic.Lib.Pipeline.FrameBody

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄G" => MT nD τ sig Unit (Elt F) ℕ (UR sig nD τ) ℕ

/-! ## Whole-buffer loads and stores -/

/-- Both offsets of a whole-buffer rectangle are zero. -/
theorem off_zero : (![0, 0] : Fin 2 → Nat) = fun _ => 0 := by
  funext a; fin_cases a <;> rfl

/-- The whole-buffer rectangle of the scratch column and of the output block; -/
abbrev rCol : Rect S1024x1 := Rect.unit (s := S1024x1) ![0, 0] S1024x1.size inb_S1024x1_S1024x1_0_0
/-- and of the query block. -/
abbrev rQ : Rect S1024x256 := Rect.unit (s := S1024x256) ![0, 0] S1024x256.size inb_S1024x256_S1024x256_0_0

/-- A column buffer whose LAST store was a whole-buffer one reads that store's payload, whatever was stored before. -/
theorem read_store_whole {sp : Space} (v : View sig .tc sp S1024x1 .f32) (f : v.ty.Contents (Elt F))
    (w : S1024x1.Idx → Elt F .f32) (L : List (View.Piece (Elt F) S1024x1 .f32)) :
    v.read (Elt F) (v.writes (Elt F) f ((⟨rCol, w⟩ : View.Piece (Elt F) S1024x1 .f32) :: L)) = w := by
  have hcov : ∀ y : S1024x1.Idx, ∃ p ∈ ((⟨rCol, w⟩ : View.Piece (Elt F) S1024x1 .f32) :: L), y ∈ p.1.set :=
    fun y => ⟨⟨rCol, w⟩, List.mem_cons_self .., View.mem_set_unit_zero off_zero inb_S1024x1_S1024x1_0_0 y⟩
  rw [View.read_writes_eq_canon v f _ hcov]
  exact View.canon_cons_unit_zero off_zero inb_S1024x1_S1024x1_0_0 w L

/-! ## One trip's piece, and the scratch trip by trip -/

/-- The pieces one trip stores, as the run found them: one whole-buffer piece, its payload over what the trip loaded. -/
theorem tripL_eq (𝒱 : Variants) (c : Dev nD) (bd : Option 𝒱.V) (i : grid0.Coords) (arg1 : Memref sig .tc .vmem S1024x256 .bf16) (harg1 : arg1.IsWhole) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (v4 : Vec F S1024x256 .bf16) (X_arg2 : BufTy.Contents (Elt F) arg2.view.ty) (k : Fin k0_t1_loop.trips) (f : BufTy.Contents (Elt F) arg4.view.ty) :
    tripL_k0_t1 (F := F) 𝒱 c bd i arg1 harg1 arg2 harg2 arg3 harg3 arg4 harg4 v4 X_arg2 k f
      = [⟨Rect.unit (s := S1024x1) ![0, 0] S1024x1.size inb_S1024x1_S1024x1_0_0, k0_pay2 v4 (View.readAt (Elt F) arg2.view (Rect.unit (s := S8192x256) (k0_off1 k) S1024x256.size (k0_off1_inb k)).toLoadRect X_arg2)
            (View.readAt (Elt F) arg4.view (Rect.unit (s := S1024x1) ![0, 0] S1024x1.size inb_S1024x1_S1024x1_0_0).toLoadRect f)⟩] := by
  unfold tripL_k0_t1
  unfold trip_k0_t1
  rfl

/-- The same with the loads read off the buffers' contents: the key tile, and the scratch as found. -/
theorem tripL_eq' (𝒱 : Variants) (c : Dev nD) (bd : Option 𝒱.V) (i : grid0.Coords) (arg1 : Memref sig .tc .vmem S1024x256 .bf16) (harg1 : arg1.IsWhole) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (v4 : Vec F S1024x256 .bf16) (X_arg2 : BufTy.Contents (Elt F) arg2.view.ty) (k : Fin k0_t1_loop.trips) (f : BufTy.Contents (Elt F) arg4.view.ty) :
    tripL_k0_t1 (F := F) 𝒱 c bd i arg1 harg1 arg2 harg2 arg3 harg3 arg4 harg4 v4 X_arg2 k f
      = [⟨rCol, k0_pay2 v4 (tile (arg2.view.read (Elt F) X_arg2) k) (arg4.view.read (Elt F) f)⟩] := by
  rw [tripL_eq]
  have h1 : View.readAt (Elt F) arg4.view rCol.toLoadRect f = arg4.view.read (Elt F) f :=
    (View.readAt_eq_ld arg4.view f rCol).trans (View.ld_unit_zero off_zero _ _)
  have h2 : View.readAt (Elt F) arg2.view (Rect.unit (s := S8192x256) (k0_off1 k) S1024x256.size (k0_off1_inb k)).toLoadRect X_arg2 = tile (arg2.view.read (Elt F) X_arg2) k := by
    unfold tile; exact View.readAt_eq_ld arg2.view X_arg2 _
  rw [h1, h2]

/-- The scratch before trip `k` reads `accV`, if it read zero when the loop was entered. -/
theorem acc_read (𝒱 : Variants) (c : Dev nD) (bd : Option 𝒱.V) (i : grid0.Coords) (arg1 : Memref sig .tc .vmem S1024x256 .bf16) (harg1 : arg1.IsWhole) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (v4 : Vec F S1024x256 .bf16) (X_arg2 : BufTy.Contents (Elt F) arg2.view.ty) (G0 : BufTy.Contents (Elt F) arg4.view.ty)
    (hG0 : arg4.view.read (Elt F) G0 = k0_pay1) :
    ∀ k, k ≤ k0_t1_loop.trips →
      arg4.view.read (Elt F) (arg4.view.writes (Elt F) G0
        (pb_k0_t1 (F := F) 𝒱 c bd i arg1 harg1 arg2 harg2 arg3 harg3 arg4 harg4 v4 X_arg2 G0 k))
      = accV v4 (arg2.view.read (Elt F) X_arg2) k := by
  intro k
  induction k with
  | zero =>
    intro _
    exact hG0
  | succ k ih =>
    intro hk
    have hk' : k < k0_t1_loop.trips := hk
    have ih' := ih (Nat.le_of_lt hk')
    have e1 := pb_k0_t1_succ (F := F) 𝒱 c bd i arg1 harg1 arg2 harg2 arg3 harg3 arg4 harg4 v4 X_arg2 G0 ⟨k, hk'⟩
    have e2 := tripL_eq' (F := F) 𝒱 c bd i arg1 harg1 arg2 harg2 arg3 harg3 arg4 harg4 v4 X_arg2 ⟨k, hk'⟩
      (arg4.view.writes (Elt F) G0 (pb_k0_t1 (F := F) 𝒱 c bd i arg1 harg1 arg2 harg2 arg3 harg3 arg4 harg4 v4 X_arg2 G0 k))
    have e3 := e1.trans (congrArg (· ++ pb_k0_t1 (F := F) 𝒱 c bd i arg1 harg1 arg2 harg2 arg3 harg3 arg4 harg4 v4 X_arg2 G0 k) e2)
    refine (congrArg (fun L => arg4.view.read (Elt F) (arg4.view.writes (Elt F) G0 L)) e3).trans ?_
    refine (read_store_whole arg4.view G0 _ _).trans ?_
    rw [accV_succ v4 _ ⟨k, hk'⟩]
    exact congrArg (k0_pay2 v4 (tile (arg2.view.read (Elt F) X_arg2) ⟨k, hk'⟩)) ih'

/-! ## The body's triple -/

/-- From the query block at `Q1`, the keys at `XX`, the output buffer and the scratch at anything, the body ends with the query
    block and the keys as they were, the output buffer at `outV Q1 XX`, and the scratch at something. -/
theorem kernelRun (𝒱 : Variants) (c : Dev nD) (bd : Option 𝒱.V) (E : Set ℕ) (i : grid0.Coords) (arg1 : Memref sig .tc .vmem S1024x256 .bf16) (harg1 : arg1.IsWhole) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole)
    (Q1 : S1024x256.Idx → Elt F .bf16) (XX : S8192x256.Idx → Elt F .bf16) :
    (iprop(owns (c : Thread nD τ) arg1 fullShare Q1 ∗ owns (c : Thread nD τ) arg2 fullShare XX
        ∗ (∃ d3, owns (c : Thread nD τ) arg3 fullShare d3) ∗ (∃ d4, owns (c : Thread nD τ) arg4 fullShare d4)) : sProp 𝕄G)
      ⊢ wp frame (wpE (defs₀ (F := F)) 𝒱 (c : Thread nD τ) bd) E (cc0__lse_kernel (F := F) i arg1 harg1 arg2 harg2 arg3 harg3 arg4 harg4)
          (fun _ => iprop(owns (c : Thread nD τ) arg1 fullShare Q1 ∗ owns (c : Thread nD τ) arg2 fullShare XX
            ∗ owns (c : Thread nD τ) arg3 fullShare (outV Q1 XX) ∗ (∃ d4, owns (c : Thread nD τ) arg4 fullShare d4))) := by
  unfold owns
  iintro ⟨⟨%X1, %h1, H1⟩, ⟨%X2, %h2, H2⟩, ⟨%d3, %f3, %h3, H3⟩, ⟨%d4, %f4, %h4, H4⟩⟩
  subst h1 h2
  simp only [cc0__lse_kernel_eq_skeleton]; unfold cc0__lse_kernel_skel
  sl_exec
  sl_step
  sl_unfold_run_names
  isplitl [H1]
  · iexists _; isplitr; · ipureintro; rfl
    iexact H1
  isplitl [H2]
  · iexists _; isplitr; · ipureintro; rfl
    iexact H2
  isplitl [H3]
  · iexists _; isplitr; swap; · iexact H3
    ipureintro
    rw [read_store_whole]
    unfold outV
    refine congrArg k0_pay3 ?_
    have e1 : View.readAt (Elt F) arg1.view rQ.toLoadRect X1 = arg1.view.read (Elt F) X1 :=
      (View.readAt_eq_ld arg1.view X1 rQ).trans (View.ld_unit_zero off_zero _ _)
    have e4 : ∀ g, View.readAt (Elt F) arg4.view rCol.toLoadRect g = arg4.view.read (Elt F) g := fun g =>
      (View.readAt_eq_ld arg4.view g rCol).trans (View.ld_unit_zero off_zero _ _)
    rw [e1, e4, View.writes_append]
    exact acc_read 𝒱 c bd i arg1 harg1 arg2 harg2 arg3 harg3 arg4 harg4 _ X2 _ (read_store_whole arg4.view arg4.view.junk k0_pay1 []) k0_t1_loop.trips le_rfl
  · iexists _; iexists _; isplitr; swap; · iexact H4
    ipureintro; rfl

/-! ## The body obligation -/

variable (m : (ℓ : Loc nD τ sig) → Buf (Elt F) ℓ)

/-- What the proof data says the body leaves in each window's buffer, window by window. -/
theorem after0 (c : Dev nD) (t : Fin cfg0.N) : (dats m 0 c).after 0 t = qblk m c t := by dsimp only [dats]
theorem after1 (c : Dev nD) (t : Fin cfg0.N) : (dats m 0 c).after 1 t = kall m c t := by dsimp only [dats]
theorem after2 (c : Dev nD) (t : Fin cfg0.N) : (dats m 0 c).after 2 t = outV (qblk m c t) (kall m c t) := by dsimp only [dats]

theorem body_obligation (c : Dev nD) : BodyObligation (dats m 0 c) (defs₀ (F := F)) 𝒱₀ () Set.univ := fun t => by
  rw [bigSep_W0, bigSep_W0]
  dsimp only
  simp only [before0 m c t, before1 m c t]
  rw [show (dats m 0 c).owesAt () t.succ = (dats m 0 c).owesAt () t.castSucc from rfl]
  rw [show (dats m 0 c).Φ t.castSucc = Pipeline.scopedRest (Ix := Unit) (Name := ℕ) (U := UR sig nD τ) (Lvl := ℕ) (Val := Elt F) spec0 c from rfl,
    show (dats m 0 c).Φ t.succ = Pipeline.scopedRest (Ix := Unit) (Name := ℕ) (U := UR sig nD τ) (Lvl := ℕ) (Val := Elt F) spec0 c from rfl, scopedRest0_eq]
  rw [after0 m c t, after1 m c t, after2 m c t]
  show _ ⊢ wp frame (wpE (defs₀ (F := F)) 𝒱₀ (c : Thread nD τ) none) Set.univ (bodyAt0 (F := F) t) _
  have hk := kernelRun (F := F) 𝒱₀ c none Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (Memref.whole cc0_scratch0) (Memref.isWhole_whole _) (qblk m c t) (kall m c t)
  simp only [owns_whole] at hk
  iintro ⟨Hs, Ho, ⟨%d0, H0⟩, ⟨%d1, H1⟩, ⟨%d2, H2⟩⟩
  iapply (wp_wand_r Idealize.ShloMosaic.frame (wpE (defs₀ (F := F)) 𝒱₀ (c : Thread nD τ) none) Set.univ)
  isplitl [Hs H0 H1 H2]
  · iapply hk
    isplitl [H0]; · iexact H0
    isplitl [H1]; · iexact H1
    isplitl [H2]; · iexists _; iexact H2
    iexact Hs
  · iintro %_ ⟨H0, H1, H2, Hs⟩
    isplitl [Hs]; · iexact Hs
    isplitl [Ho]; · iexact Ho
    isplitl [H0]; · iexact H0
    isplitl [H1]; · iexact H1
    iexact H2

end Cert.KernelIdeal.Hand

end
-- ==== Proof.LibColumnLayout.lean ====
/-
  Column forms of two layout operations, read at an index built from coordinates.

  A sum over the last axis taken with the reduced axis kept (a column of row sums) meets two layout operations the
  library reads only in their row forms: the cast of a vector `[a]` to a column `[a, 1]`, and the broadcast of a column
  `[a, 1]` across `b` columns to `[a, b]`. Both read, at `(i, ·)`, the operand's entry of row `i`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- A vector `[a]` cast to a column `[a, 1]` reads, at `(i, u)`, the operand at `i`, whatever the unit coordinate `u`:
    both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.LibIndexLayout.lean ====
/-
  Three small facts about indices of rank-2 arrays, stated over indices built from coordinates.

  A rank-2 index is determined by its two coordinates. A column `[a, 1]` re-laid as a row `[1, a]` keeps its entries in
  order: entry `(0, k)` of the row is entry `(k, 0)` of the column, both being the `k`-th in row-major order. And when an
  `[M, K]` array is summed along its rows into a vector `[M]`, the entry that the sum at `p` reads for the lane `k` is
  `(p, k)`.
-/
import Idealize.ShloMosaic.Lib.Pipeline.Value
import Idealize.ShloMosaic.Lib.ValueIdx
import Idealize.ShloMosaic.PureOps.Reduce

namespace Cert.Lib.IndexLayout

open Idealize.ShloMosaic Idealize.ShloMosaic.ValueIdx

/-- A rank-2 index is the pair of its coordinates. -/
theorem ix2_ext {n0 n1 : Nat} (j : (⟨2, ![n0, n1]⟩ : Shape).Idx) (a : Fin n0) (b : Fin n1) (h0 : j 0 = a) (h1 : j 1 = b) :
    j = ix2 a b := by
  funext d
  match d with
  | ⟨0, _⟩ => exact h0
  | ⟨1, _⟩ => exact h1

/-- A column `[a, 1]` re-laid as a row `[1, a]` reads, at `(0, k)`, the column's entry `(k, 0)`. -/
theorem shapeCast_a1_1a_apply {α : Type} {a : ℕ} (x : (⟨2, ![a, 1]⟩ : Shape).Idx → α)
    (h : (⟨2, ![a, 1]⟩ : Shape).ShapeCasts ⟨2, ![1, a]⟩) (k : Fin a) :
    shapeCast ⟨2, ![1, a]⟩ x h (ix2 (0 : Fin 1) k) = x (ix2 k (0 : Fin 1)) :=
  shapeCast_apply x h _ _ (by
    rw [Shape.rowMajor_val_two, Shape.rowMajor_val_two]
    show k.val * 1 + 0 = 0 * a + k.val
    omega)

/-- Summing an `[M, K]` array along its rows: the source index over the row `p` with the lane `k` inserted is `(p, k)`. -/
theorem lift_row (M K : Nat) (hred : (⟨2, ![M, K]⟩ : Shape).Reduces [1] ⟨1, ![M]⟩) (p : Fin M) (k : Fin K) :
    hred.lift (ix1 p) k = ix2 p k := by
  funext c
  apply Fin.ext
  match c with
  | ⟨0, _⟩ => rfl
  | ⟨1, _⟩ => rfl

end Cert.Lib.IndexLayout
-- ==== Proof.KPayIdx.lean ====
/-
  The values of the kernel's body read at an index, at the ideal instance.

  * The zeroing payload is `0` everywhere, and the final payload is the logarithm of the scratch, entrywise.
  * The accumulating payload, at row `p` of the column: what the scratch held there plus the sum over the 1024 rows `n` of the
    key tile of `exp (∑ d, (q p d · 2) · tile n d)`. The matrix product contracts the second axis of both operands
    (`q · tileᵀ`), so its entry `(p, n)` pairs row `p` of the doubled query block with row `n` of the tile; the lane sum over
    `n` then lands in row `p` of the column, whose cast from a vector keeps the row-major order.
  * Key tile `k` is rows `1024·k … 1024·k + 1023` of the key array: entry `(n, d)` of the tile is entry `(1024·k + n, d)`.
  * The scratch before trip `k` is therefore the sum of the terms of the first `1024·k` key rows (by induction on `k`, adding one
    tile's 1024 terms per trip), and after the 8 trips the sum over all 8192 key rows; the output block is its logarithm.
    The extended reals are an additive commutative monoid, so splitting a sum over `1024·(k+1)` terms into the first `1024·k`
    and the next `1024` needs no finiteness.
-/
import proofs.«106615_j4045859193248_2_alg».proof.Proof.KData
import proofs.«106615_j4045859193248_2_alg».proof.Proof.LibColumnLayout
import proofs.«106615_j4045859193248_2_alg».proof.Proof.LibIndexLayout
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-! ## The three payloads -/

/-- The zeroing payload is zero at every index. -/
theorem pay1_apply (i : S1024x1.Idx) : k0_pay1 (F := Ideal) i = 0 := by
  unfold k0_pay1
  rw [shapeCast_self, broadcast_apply]
  exact Ideal.ofBits_zero_f32

/-- The final payload is the logarithm, entrywise. -/
theorem pay3_apply (v9 : Vec Ideal S1024x1 .f32) (i : S1024x1.Idx) : k0_pay3 v9 i = Ideal.log (v9 i) := rfl

/-- The matrix product's record: both operands contracted along their second axis. -/
abbrev dotQK := dot_S1024x256_S1024x256_S1024x1024_1_1_0_0_n_n

/-- The left operand's index at output `(p, n)` and contraction index `d` is `(p, d)` … -/
theorem dot_lhs0 (j : S1024x1024.Idx) (q : dotQK.contr.Idx) : (dotQK.lhsIdx j q 0).val = (j 0).val := by
  unfold DotDims.lhsIdx
  rw [dif_neg (show ¬(0 : Fin S1024x256.rank) ∈ dotQK.lhsBatch by decide), dif_pos (show (0 : Fin S1024x256.rank) ∈ dotQK.lhsNonContracting by decide)]
  rfl
theorem dot_lhs1 (j : S1024x1024.Idx) (q : dotQK.contr.Idx) : (dotQK.lhsIdx j q 1).val = (q ⟨0, by decide⟩).val :=
  dotQK.lhsIdx_val_of_single rfl j q
/-- … and the right operand's is `(n, d)`. -/
theorem dot_rhs0 (j : S1024x1024.Idx) (q : dotQK.contr.Idx) : (dotQK.rhsIdx j q 0).val = (j 1).val := by
  unfold DotDims.rhsIdx
  rw [dif_neg (show ¬(0 : Fin S1024x256.rank) ∈ dotQK.rhsBatch by decide), dif_pos (show (0 : Fin S1024x256.rank) ∈ dotQK.rhsNonContracting by decide)]
  rfl
theorem dot_rhs1 (j : S1024x1024.Idx) (q : dotQK.contr.Idx) : (dotQK.rhsIdx j q 1).val = (q ⟨0, by decide⟩).val :=
  dotQK.rhsIdx_val_of_single rfl j q

/-- The product into the zero accumulator, at `(p, n)`: the inner product of row `p` of the left with row `n` of the right. -/
theorem matmul_at (a b : FVec Ideal S1024x256 .bf16) (p n : Fin 1024) :
    matmul dotQK none a b (constant S1024x1024 .f32 0x00000000#32) (ix2 p n) = ∑ d : Fin 256, a (ix2 p d) * b (ix2 n d) := by
  simp only [matmul]
  rw [Ideal.matmul_constant_zero_apply, ← Equiv.sum_comp (contrEquiv1 dotQK 256 rfl rfl).symm]
  refine Finset.sum_congr rfl fun d _ => ?_
  have hd := contrEquiv1_symm_val dotQK 256 rfl rfl d
  have el : dotQK.lhsIdx (ix2 p n) ((contrEquiv1 dotQK 256 rfl rfl).symm d) = ix2 p d := funext fun c => Fin.ext (by
    match c with
    | ⟨0, _⟩ => exact dot_lhs0 _ _
    | ⟨1, _⟩ => exact (dot_lhs1 _ _).trans hd)
  have er : dotQK.rhsIdx (ix2 p n) ((contrEquiv1 dotQK 256 rfl rfl).symm d) = ix2 n d := funext fun c => Fin.ext (by
    match c with
    | ⟨0, _⟩ => exact dot_rhs0 _ _
    | ⟨1, _⟩ => exact (dot_rhs1 _ _).trans hd)
  rw [el, er]

/-- The accumulating payload at row `p`: what the scratch held plus the tile's 1024 terms. -/
theorem pay2_apply (v4 v17 : Vec Ideal S1024x256 .bf16) (v21 : Vec Ideal S1024x1 .f32) (p : Fin 1024) (u : Fin 1) :
    k0_pay2 v4 v17 v21 (ix2 p u) = v21 (ix2 p u) + ∑ n : Fin 1024, Ideal.exp (∑ d : Fin 256, (v4 (ix2 p d) * Ideal.ofBits .bf16 0x4000#16) * v17 (ix2 n d)) := by
  unfold k0_pay2
  rw [shapeCast_self, addf_apply, ColumnLayout.shapeCast_a_a1_apply]
  refine congrArg (v21 (ix2 p u) + ·) ?_
  refine (Ideal.multiReduction_add_single _ 0x00000000#32 reduces_S1024x1024_S1024 _ _ (ix1 p)).trans ?_
  show ∑ n : Fin 1024, _ = _
  refine Finset.sum_congr rfl fun n _ => ?_
  rw [Cert.Lib.IndexLayout.lift_row]
  refine congrArg Ideal.exp ?_
  refine (matmul_at _ _ p n).trans ?_
  refine Finset.sum_congr rfl fun d _ => ?_
  rw [mulf_apply, shapeCast_self, shapeCast_self, broadcast_apply]
  rfl

/-! ## The key tiles -/

/-- The loop makes 8 trips. -/
theorem trips_eq : k0_t1_loop.trips = 8 := by decide

/-- Row `n` of key tile `k` as a row of the key array. -/
def krow (k : Fin k0_t1_loop.trips) (n : Fin 1024) : Fin 8192 :=
  ⟨1024 * k.val + n.val, by have := k.isLt; have := k0_t1_abs.2.1; have := n.isLt; omega⟩

/-- Entry `(n, d)` of key tile `k` is entry `(1024·k + n, d)` of the key array. -/
theorem tile_apply (X : Vec Ideal S8192x256 .bf16) (k : Fin k0_t1_loop.trips) (n : Fin 1024) (d : Fin 256) :
    tile X k (ix2 n d) = X (ix2 (krow k n) d) := by
  unfold tile
  show X ((Rect.unit (s := S8192x256) (k0_off1 k) S1024x256.size (k0_off1_inb k)).idx (ix2 n d)) = _
  refine congrArg X (funext fun c => Fin.ext ?_)
  have h0 : k0_off1 k 0 = 1024 * k.val := by rw [k0_off1_eq]; rfl
  have h1 : k0_off1 k 1 = 0 := by rw [k0_off1_eq]; rfl
  match c with
  | ⟨0, _⟩ =>
    show k0_off1 k 0 + 1 * n.val = 1024 * k.val + n.val
    rw [h0, Nat.one_mul]
  | ⟨1, _⟩ =>
    show k0_off1 k 1 + 1 * d.val = d.val
    rw [h1, Nat.one_mul, Nat.zero_add]

/-! ## The scratch after the trips, and the output block -/

/-- The term of query row `p` at key row `j`: the exponential of the doubled inner product. -/
def term (q : Vec Ideal S1024x256 .bf16) (X : Vec Ideal S8192x256 .bf16) (p : Fin 1024) (j : Fin 8192) : EReal :=
  Ideal.exp (∑ d : Fin 256, (q (ix2 p d) * Ideal.ofBits .bf16 0x4000#16) * X (ix2 j d))

/-- The same over the natural numbers, zero past the last key row. -/
def termN (q : Vec Ideal S1024x256 .bf16) (X : Vec Ideal S8192x256 .bf16) (p : Fin 1024) (m : ℕ) : EReal :=
  if h : m < 8192 then term q X p ⟨m, h⟩ else 0

/-- The scratch before trip `k`, at row `p`: the terms of the first `1024·k` key rows. -/
theorem accV_apply (q : Vec Ideal S1024x256 .bf16) (X : Vec Ideal S8192x256 .bf16) (p : Fin 1024) (u : Fin 1) :
    ∀ k, k ≤ k0_t1_loop.trips → accV q X k (ix2 p u) = ∑ m ∈ Finset.range (1024 * k), termN q X p m
  | 0, _ => by
    show k0_pay1 (F := Ideal) (ix2 p u) = _
    rw [pay1_apply, Nat.mul_zero, Finset.sum_range_zero]
  | k + 1, hk => by
    have hk' : k < k0_t1_loop.trips := hk
    have ih := accV_apply q X p u k (Nat.le_of_lt hk')
    rw [accV_succ q X ⟨k, hk'⟩, pay2_apply, ih, Nat.mul_succ, Finset.sum_range_add]
    refine congrArg (_ + ·) ?_
    rw [Finset.sum_range]
    refine Finset.sum_congr rfl fun n _ => ?_
    have hlt : 1024 * k + n.val < 8192 := (krow ⟨k, hk'⟩ n).isLt
    unfold termN
    rw [dif_pos hlt]
    unfold term
    refine congrArg Ideal.exp (Finset.sum_congr rfl fun d _ => ?_)
    rw [tile_apply]
    rfl

/-- The output block at row `p`: the logarithm of the sum of the terms of all 8192 key rows. -/
theorem outV_apply (q : Vec Ideal S1024x256 .bf16) (X : Vec Ideal S8192x256 .bf16) (p : Fin 1024) (u : Fin 1) :
    outV q X (ix2 p u) = Ideal.log (∑ n : Fin 8192, Ideal.exp (∑ d : Fin 256, (q (ix2 p d) * Ideal.ofBits .bf16 0x4000#16) * X (ix2 n d))) := by
  unfold outV
  rw [pay3_apply, accV_apply q X p u _ le_rfl, trips_eq]
  refine congrArg Ideal.log ?_
  rw [show 1024 * 8 = 8192 from rfl, Finset.sum_range]
  refine Finset.sum_congr rfl fun n _ => ?_
  unfold termN
  rw [dif_pos n.isLt]
  rfl

end Cert.KernelIdeal.Hand

end
-- ==== Proof.KHostTgt.lean ====
/-
  The kernel program's target vector, entry by entry.

  After normalizing the stacked array the program cuts it into its first and its last 4096 rows, multiplies the first half
  entrywise by itself and by the second half, sums each row, doubles the sums, and lays the two vectors of 4096 end to end.
  Read at row `r` this is twice the inner product of normalized row `r mod 4096` with normalized row `r`: in the first half
  the row with itself, in the second half row `r - 4096` with row `r`. The steps: a slice read at an index (the same
  coordinates, the row offset added), the row sum as a finite sum, the doubling constant, and the two-piece concatenation
  read on either side of row 4096.
-/
import proofs.«106615_j4045859193248_2_alg».proof.Proof.KData
import proofs.«106615_j4045859193248_2_alg».proof.Proof.KHostZn
import proofs.«106615_j4045859193248_2_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem
open scoped BigOperators

variable (m : (ℓ : Loc nD τ sig) → Buf (Elt Ideal) ℓ) (c : Dev nD)

/-! ## The target term, as the program spells it -/

/-- The first 4096 rows of the normalized array, widened (at the extended reals the widening changes nothing). -/
def lo (y : FVec Ideal S8192x256 .bf16) : FVec Ideal S4096x256 .f32 :=
  extf .f32 (extractStridedSlice S4096x256 ![0, 0] y slices_S8192x256_S4096x256_0_0) bitsLt_bf16_f32

/-- The last 4096 rows of the normalized array, widened. -/
def hi (y : FVec Ideal S8192x256 .bf16) : FVec Ideal S4096x256 .f32 :=
  extf .f32 (extractStridedSlice S4096x256 ![4096, 0] y slices_S8192x256_S4096x256_4096_0) bitsLt_bf16_f32

/-- Twice each of the first 4096 rows' inner product with itself. -/
def half1 (y : FVec Ideal S8192x256 .bf16) : FVec Ideal S4096 .f32 :=
  mulf (Host.reduceAdd (mulf (lo y) (lo y)) (constant S_ .f32 0x00000000#32) reducesTo_S4096x256_S4096_d1 h_S_)
    (broadcastInDim S4096 ![] bcast_S_S4096 (constant S_ .f32 0x40000000#32))

/-- Twice the inner product of each of the first 4096 rows with the row 4096 further down. -/
def half2 (y : FVec Ideal S8192x256 .bf16) : FVec Ideal S4096 .f32 :=
  mulf (Host.reduceAdd (mulf (lo y) (hi y)) (constant S_ .f32 0x00000000#32) reducesTo_S4096x256_S4096_d1 h_S_)
    (broadcastInDim S4096 ![] bcast_S_S4096 (constant S_ .f32 0x40000000#32))

/-- The target vector: the two halves laid end to end. -/
def target (y : FVec Ideal S8192x256 .bf16) : FVec Ideal S8192 .f32 :=
  concatenate S8192 0 [⟨S4096, half1 y⟩, ⟨S4096, half2 y⟩] concatenates_S4096_S4096_S8192_d0

/-! ## Read at an index -/

/-- The first half's row `r'` is the array's row of the same number. -/
theorem lo_apply (y : FVec Ideal S8192x256 .bf16) (r' : Fin 4096) (d : Fin 256) (R : Fin 8192) (hR : R.val = r'.val) :
    lo y (ix2 r' d) = y (ix2 R d) :=
  extractStridedSlice_apply ![0, 0] y slices_S8192x256_S4096x256_0_0 (ix2 r' d) (ix2 R d) (fun a => match a with
    | ⟨0, _⟩ => by show R.val = 0 + r'.val; omega
    | ⟨1, _⟩ => by show d.val = 0 + d.val; omega)

/-- The second half's row `r'` is the array's row `4096 + r'`. -/
theorem hi_apply (y : FVec Ideal S8192x256 .bf16) (r' : Fin 4096) (d : Fin 256) (R : Fin 8192) (hR : R.val = 4096 + r'.val) :
    hi y (ix2 r' d) = y (ix2 R d) :=
  extractStridedSlice_apply ![4096, 0] y slices_S8192x256_S4096x256_4096_0 (ix2 r' d) (ix2 R d) (fun a => match a with
    | ⟨0, _⟩ => by show R.val = 4096 + r'.val; omega
    | ⟨1, _⟩ => by show d.val = 0 + d.val; omega)

/-- A row sum of an array of 4096 rows of 256 entries, from the zero word. -/
theorem rowSum4096_apply (x : FVec Ideal S4096x256 .f32) (r : Fin 4096) :
    Host.reduceAdd x (constant S_ .f32 0x00000000#32) reducesTo_S4096x256_S4096_d1 h_S_ (ix1 r)
      = 0 + ∑ d : Fin 256, x (ix2 r d) := by
  simp only [Host.reduceAdd, Ideal.hostReduceAdd_def]
  rw [Ideal.hostReduceAdd_single reducesTo_S4096x256_S4096_d1 (by decide)]
  refine congrArg₂ (· + ·) zero_word (Finset.sum_congr rfl fun k _ => ?_)
  exact congrArg x (funext fun a => Fin.ext (by match a with | ⟨0, _⟩ => rfl | ⟨1, _⟩ => rfl))

/-- A scalar spread over a vector of 4096 entries reads the scalar. -/
theorem bcastScalarVec_apply (y : FVec Ideal S_ .f32) (i : S4096.Idx) :
    broadcastInDim S4096 ![] bcast_S_S4096 y i = y ix0 :=
  broadcastInDim_apply _ bcast_S_S4096 y i ix0 (fun a => a.elim0)

theorem half1_apply (y : FVec Ideal S8192x256 .bf16) (r' : Fin 4096) (R : Fin 8192) (hR : R.val = r'.val) :
    half1 y (ix1 r') = (0 + ∑ d : Fin 256, y (ix2 R d) * y (ix2 R d)) * Ideal.ofBits .f32 0x40000000#32 := by
  have e1 := rowSum4096_apply (mulf (lo y) (lo y)) r'
  have e2 := bcastScalarVec_apply (constant (F := Ideal) S_ .f32 0x40000000#32) (ix1 r')
  have e3 : (∑ d : Fin 256, mulf (lo y) (lo y) (ix2 r' d)) = ∑ d : Fin 256, y (ix2 R d) * y (ix2 R d) :=
    Finset.sum_congr rfl fun d _ => congrArg₂ (· * ·) (lo_apply y r' d R hR) (lo_apply y r' d R hR)
  unfold half1
  exact congrArg₂ (· * ·) (e1.trans (congrArg (0 + ·) e3)) e2

theorem half2_apply (y : FVec Ideal S8192x256 .bf16) (r' : Fin 4096) (R₁ R₂ : Fin 8192) (h₁ : R₁.val = r'.val)
    (h₂ : R₂.val = 4096 + r'.val) :
    half2 y (ix1 r') = (0 + ∑ d : Fin 256, y (ix2 R₁ d) * y (ix2 R₂ d)) * Ideal.ofBits .f32 0x40000000#32 := by
  have e1 := rowSum4096_apply (mulf (lo y) (hi y)) r'
  have e2 := bcastScalarVec_apply (constant (F := Ideal) S_ .f32 0x40000000#32) (ix1 r')
  have e3 : (∑ d : Fin 256, mulf (lo y) (hi y) (ix2 r' d)) = ∑ d : Fin 256, y (ix2 R₁ d) * y (ix2 R₂ d) :=
    Finset.sum_congr rfl fun d _ => congrArg₂ (· * ·) (lo_apply y r' d R₁ h₁) (hi_apply y r' d R₂ h₂)
  unfold half2
  exact congrArg₂ (· * ·) (e1.trans (congrArg (0 + ·) e3)) e2

/-- The target vector at row `r`: twice the inner product of the partner row with row `r`. -/
theorem target_apply (y : FVec Ideal S8192x256 .bf16) (r : Fin 8192) :
    target y (ix1 r)
      = (0 + ∑ d : Fin 256, y (ix2 (Cert.Spec.mate r) d) * y (ix2 r d)) * Ideal.ofBits .f32 0x40000000#32 := by
  have h8 : r.val < 8192 := r.isLt
  by_cases h : r.val < 4096
  · have hm : Cert.Spec.mate r = r := Fin.ext (by show r.val % 4096 = r.val; omega)
    rw [hm]
    unfold target
    rw [concatenate_pair_apply_left (0 : Fin S8192.rank) (half1 y) (half2 y) concatenates_S4096_S4096_S8192_d0 (ix1 r) rfl
      (ix1 ⟨r.val, h⟩) (fun b => match b with | ⟨0, _⟩ => rfl)]
    exact half1_apply y ⟨r.val, h⟩ r rfl
  · unfold target
    rw [concatenate_pair_apply_right (0 : Fin S8192.rank) (half1 y) (half2 y) concatenates_S4096_S4096_S8192_d0 (ix1 r) rfl rfl
      (ix1 ⟨r.val - 4096, by omega⟩) (fun b hb => match b, hb with | ⟨0, _⟩, hb => absurd rfl hb)
      (by show r.val - 4096 + 4096 = r.val; omega)]
    exact half2_apply y ⟨r.val - 4096, by omega⟩ (Cert.Spec.mate r) r (by show r.val % 4096 = r.val - 4096; omega)
      (by show r.val = 4096 + (r.val - 4096); omega)

/-! ## The program's target buffer -/

/-- The target buffer holds the target vector of the normalized stacked input. -/
theorem V_v19 : (V m c main_v19 : S8192.Idx → EReal) = target (normalize (zin m c)) := by
  dsimp only [V, preOps, hostOps0, hostOps0_1, hostOps0_2]
  simp only [List.cons_append, List.nil_append, List.append_nil]
  after_results_simp
  rfl

/-- The target buffer at row `r`: the specification's target term of the stacked input. -/
theorem v19_apply (r : Fin 8192) :
    (V m c main_v19 : S8192.Idx → EReal) (ix1 r) = Cert.Spec.tgtK (zin m c) r := by
  rw [V_v19, target_apply]
  unfold Cert.Spec.tgtK
  refine congrArg (· * Ideal.ofBits .f32 0x40000000#32) (congrArg (0 + ·) (Finset.sum_congr rfl fun d _ => ?_))
  rw [normalize_apply, normalize_apply]

end Cert.KernelIdeal.Hand

end
-- ==== Proof.KHostTail.lean ====
/-
  The kernel program's last six operations: the mean over the rows.

  After the region the program reads the region's output column as a vector of 8192 entries, subtracts the target vector,
  sums the 8192 differences and divides by 8192. Whatever the two buffers hold, the result is
  `(0 + ∑ r, (o r - t r)) / 8192`. The steps: the column read as a vector (row `r` of the column is entry `r`), the sum over
  the one axis as a finite sum over the rows, and the division by the constant.
-/
import proofs.«106615_j4045859193248_2_alg».proof.Proof.KData
import proofs.«106615_j4045859193248_2_alg».proof.Proof.KHostZn
import proofs.«106615_j4045859193248_2_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem
open scoped BigOperators

variable (m : (ℓ : Loc nD τ sig) → Buf (Elt Ideal) ℓ) (c : Dev nD)

/-! ## The operations after the region -/

/-- The mean of the rows' differences, as the program spells it: the region's output column read as a vector, the target vector
    subtracted, the 8192 entries summed from the zero word, the sum divided by the word of 8192. -/
def finish (o : FVec Ideal S8192x1 .f32) (t : FVec Ideal S8192 .f32) : FVec Ideal S_ .f32 :=
  Host.divf (Host.reduceAdd (subf (shapeCast S8192 o shapeCasts_S8192x1_S8192) t) (constant S_ .f32 0x00000000#32)
    reducesTo_S8192_S_d0 h_S_) (constant S_ .f32 0x46000000#32)

/-- The same as a formula: the sum over the rows of column entry less vector entry, from 0, divided by the word of 8192. -/
def meanDiff (o : S8192x1.Idx → EReal) (t : S8192.Idx → EReal) : EReal :=
  Ideal.div (0 + ∑ r : Fin 8192, (o (ix2 r (0 : Fin 1)) - t (ix1 r))) (Ideal.ofBits .f32 0x46000000#32)

/-- The result buffer after the last six operations, from any contents `W` of the buffers before them. -/
theorem after_tail (W : Valuation τ sig (Elt Ideal)) :
    (StableHlo.after hostOps1 W (Proc.devRef .tc main_v24) : S_.Idx → EReal)
      = finish (W (Proc.devRef .tc main_v20)) (W (Proc.devRef .tc main_v19)) := by
  dsimp only [hostOps1]
  after_results
  rfl

/-! ## Read at the one index -/

/-- The indices of a vector of `n` entries are its `n` positions. -/
def idxEquiv1 {n : Nat} : (⟨1, ![n]⟩ : Shape).Idx ≃ Fin n where
  toFun i := i 0
  invFun r := ix1 r
  left_inv i := (eq_ix1 i).symm
  right_inv _ := rfl

/-- The sum of a vector of 8192 entries, from the zero word. -/
theorem sumAll8192_apply (x : FVec Ideal S8192 .f32) :
    Host.reduceAdd x (constant S_ .f32 0x00000000#32) reducesTo_S8192_S_d0 h_S_ ix0 = 0 + ∑ r : Fin 8192, x (ix1 r) := by
  simp only [Host.reduceAdd, Ideal.hostReduceAdd_def]
  rw [Ideal.hostReduceAdd_total reducesTo_S8192_S_d0 (fun b => b.elim0)]
  refine congrArg₂ (· + ·) zero_word ?_
  exact (Equiv.sum_comp (idxEquiv1 (n := 8192)).symm x).symm

/-- A column of 8192 rows read as a vector: entry `r` is row `r`. -/
theorem colAsVec_apply (o : FVec Ideal S8192x1 .f32) (r : Fin 8192) :
    shapeCast S8192 o shapeCasts_S8192x1_S8192 (ix1 r) = o (ix2 r (0 : Fin 1)) :=
  shapeCast_apply o shapeCasts_S8192x1_S8192 (ix1 r) (ix2 r (0 : Fin 1))
    (by rewrite [Shape.rowMajor_val_two, Shape.rowMajor_val_one]; show r.val * 1 + 0 = r.val; omega)

/-- The mean of the differences, at the one index. -/
theorem finish_apply (o : FVec Ideal S8192x1 .f32) (t : FVec Ideal S8192 .f32) :
    finish o t ix0 = meanDiff o t := by
  have e1 := sumAll8192_apply (subf (shapeCast S8192 o shapeCasts_S8192x1_S8192) t)
  have e2 : (∑ r : Fin 8192, subf (shapeCast S8192 o shapeCasts_S8192x1_S8192) t (ix1 r))
      = ∑ r : Fin 8192, (o (ix2 r (0 : Fin 1)) - t (ix1 r)) :=
    Finset.sum_congr rfl fun r _ => congrArg (· - t (ix1 r)) (colAsVec_apply o r)
  unfold finish meanDiff
  exact congrArg (Ideal.div · (Ideal.ofBits .f32 0x46000000#32)) (e1.trans (congrArg (0 + ·) e2))

/-- The program's result from any contents `W` of the buffers before the last six operations. -/
theorem tail_apply (W : Valuation τ sig (Elt Ideal)) :
    (StableHlo.after hostOps1 W (Proc.devRef .tc main_v24) : S_.Idx → EReal) ix0
      = meanDiff (W (Proc.devRef .tc main_v20)) (W (Proc.devRef .tc main_v19)) := by
  rw [after_tail]; exact finish_apply _ _

end Cert.KernelIdeal.Hand

end
-- ==== Proof.KValue.lean ====
/-
  The kernel side's value, assembled: the program's result buffer holds the specification's kernel side of the stacked input.

  * The blocks as rows of their arrays. The query window's block at grid point `t` is rows `1024·t … 1024·t + 1023` of the
    normalized array, the key window's block is the whole normalized array at every point, and the output window's block at `t` is
    rows `1024·t … 1024·t + 1023` of the output column (a block's coordinate is always block index × block size + the coordinate
    inside the block; the block indices are decided once over the 8 points).
  * What point `t` writes back. The body's output block at row `p` is the logarithm of the sum over all 8192 key rows `n` of
    `exp (∑ d, (q p d · 2) · X n d)`; with `q p d` the normalized entry `(1024·t + p, d)` and `X n d` the normalized entry `(n, d)`
    this is the log-sum-exp of the kernel's logits of row `1024·t + p`: block `t` of ONE column, the rows' log-sum-exps.
  * The output array after the region. Every row `r` is in the block of point `r / 1024`, so the eight write-backs leave the whole
    column of log-sum-exps.
  * The value. The six operations after the region take the mean over the rows of output less target; the output column is the
    log-sum-exps, the target buffer was not touched by the region and holds the specification's target terms: together, the
    specification's kernel side.
-/
import proofs.«106615_j4045859193248_2_alg».proof.Proof.KData
import proofs.«106615_j4045859193248_2_alg».proof.Proof.KPayIdx
import proofs.«106615_j4045859193248_2_alg».proof.Proof.KHostZn
import proofs.«106615_j4045859193248_2_alg».proof.Proof.KHostTgt
import proofs.«106615_j4045859193248_2_alg».proof.Proof.KHostTail
import proofs.«106615_j4045859193248_2_alg».proof.Proof.KRunRegion
import proofs.«106615_j4045859193248_2_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (m : (ℓ : Loc nD τ sig) → Buf (Elt Ideal) ℓ) (c : Dev nD)

/-! ## The windows' blocks as rows of their arrays -/

/-- The windows' block indices over the grid: the query window moves one block of rows per point, the key window stays on its
    one block, the output window moves with the query window. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of grid point `t`'s block as a row of the array. -/
def prow (t : Fin cfg0.N) (p : Fin 1024) : Fin 8192 :=
  ⟨1024 * t.val + p.val, by have := t.isLt; have hN : cfg0.N = 8 := N_0; have := p.isLt; omega⟩

/-- The query block of point `t` is rows `1024·t … 1024·t + 1023` of the normalized array. -/
theorem qblk_apply (t : Fin cfg0.N) (p : Fin 1024) (d : Fin 256) :
    qblk m c t (ix2 p d) = (V m c main_v6 : S8192x256.Idx → EReal) (ix2 (prow t p) d) := by
  obtain ⟨e0, e1, -⟩ := index_facts t
  show (V m c main_v6 : S8192x256.Idx → EReal) (((cfg0.win 0).blk t).view.emb (ix2 p d)) = _
  refine congrArg _ (funext fun a => Fin.ext ?_)
  match a with
  | ⟨0, _⟩ => show win0_0.index t (0 : Fin 2) * 1024 + 1 * p.val = 1024 * t.val + p.val; rw [e0]; omega
  | ⟨1, _⟩ => show win0_0.index t (1 : Fin 2) * 256 + 1 * d.val = d.val; rw [e1]; omega

/-- The keys at every point are the whole normalized array. -/
theorem kall_apply (t : Fin cfg0.N) (n : Fin 8192) (d : Fin 256) :
    kall m c t (ix2 n d) = (V m c main_v6 : S8192x256.Idx → EReal) (ix2 n d) := by
  obtain ⟨-, -, e0, e1, -⟩ := index_facts t
  show (V m c main_v6 : S8192x256.Idx → EReal) (((cfg0.win 1).blk t).view.emb (ix2 n d)) = _
  refine congrArg _ (funext fun a => Fin.ext ?_)
  match a with
  | ⟨0, _⟩ => show win0_1.index t (0 : Fin 2) * 8192 + 1 * n.val = n.val; rw [e0]; omega
  | ⟨1, _⟩ => show win0_1.index t (1 : Fin 2) * 256 + 1 * d.val = d.val; rw [e1]; omega

/-! ## What each point writes back, and the output array after the region -/

/-- Row `r`'s log-sum-exp of the kernel's logits. -/
def rowLse (z : Cert.Spec.Z) (r : Fin 8192) : EReal :=
  Ideal.log (∑ n : Fin 8192, Ideal.exp (Cert.Spec.dotK z r n))

/-- The column of all rows' log-sum-exps. -/
def lseCol : S8192x1.Idx → EReal := fun j => rowLse (zin m c) (j 0)

/-- The body's output block at point `t`, row `p`: the log-sum-exp of row `1024·t + p` of the array. -/
theorem outV_blocks (t : Fin cfg0.N) (p : Fin 1024) (u : Fin 1) :
    outV (qblk m c t) (kall m c t) (ix2 p u) = rowLse (zin m c) (prow t p) := by
  rw [outV_apply]
  unfold rowLse Cert.Spec.dotK
  refine congrArg Ideal.log (Finset.sum_congr rfl fun n _ => congrArg Ideal.exp (Finset.sum_congr rfl fun d _ => ?_))
  rw [qblk_apply, kall_apply, v6_apply, v6_apply]

/-- WHAT POINT `t` WRITES BACK is block `t` of the column of log-sum-exps. -/
theorem flushed_eq (t : Fin cfg0.N) :
    (dats m 0 c).flushed 2 t = ((cfg0.win 2).blk t).view.read (Elt Ideal) (lseCol m c) := by
  obtain ⟨-, -, -, -, e0, e1⟩ := index_facts t
  show (cfg0.win 2).cut (grid0.coords t) ((dats m 0 c).after 2 t) = _
  dsimp only [dats]
  funext y
  obtain ⟨p, u, rfl⟩ : ∃ (p : Fin 1024) (u : Fin 1), y = ix2 p u := ⟨y 0, y 1, eq_ix2 (n0 := 1024) (n1 := 1) y⟩
  refine (outV_blocks m c t p u).trans ?_
  show rowLse (zin m c) (prow t p) = rowLse (zin m c) ((((cfg0.win 2).blk t).view.emb (ix2 p u)) 0)
  refine congrArg _ (Fin.ext ?_)
  show 1024 * t.val + p.val = win0_2.index t (0 : Fin 2) * 1024 + 1 * p.val
  rw [e0]; omega

/-- An index of the output array is in point `t`'s block iff each coordinate is in the block's range on its axis. -/
theorem mem_blk (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v20).slice (win0_2.rect t)).set ↔ _
  rw [View.set_slice_whole, Rect.mem_set_unit]
  exact Iff.rfl

/-- Row `r` of the output array is in the block of point `r / 1024`. -/
theorem cover (i : S8192x1.Idx) : ∃ t : Fin cfg0.N, (cfg0.win 2).flush t = true ∧ i ∈ ((cfg0.win 2).blk t).view.set := by
  have hN : cfg0.N = 8 := N_0
  have hi0 : (i 0).val < 8192 := (i 0).isLt
  have hi1 : (i 1).val < 1 := (i 1).isLt
  refine ⟨⟨(i 0).val / 1024, by omega⟩, flush0_2 _, ?_⟩
  obtain ⟨-, -, -, -, e0, e1⟩ := index_facts ⟨(i 0).val / 1024, by omega⟩
  rw [mem_blk]
  intro a
  match a with
  | ⟨0, _⟩ => show win0_2.index _ (0 : Fin 2) * 1024 ≤ (i 0).val ∧ (i 0).val < win0_2.index _ (0 : Fin 2) * 1024 + 1024; rw [e0]; show (i 0).val / 1024 * 1024 ≤ (i 0).val ∧ (i 0).val < (i 0).val / 1024 * 1024 + 1024; omega
  | ⟨1, _⟩ => show win0_2.index _ (1 : Fin 2) * 1 ≤ (i 1).val ∧ (i 1).val < win0_2.index _ (1 : Fin 2) * 1 + 1; rw [e1]; omega

/-- THE OUTPUT ARRAY after the eight write-backs: the column of log-sum-exps. -/
theorem final : (dats m 0 c).arrAt 2 cfg0.N = lseCol m c :=
  (dats m 0 c).arrAt_eq_of_cover 2 (lseCol m c) (fun t _ => flushed_eq m c t) (cover)

/-! ## The value -/

/-- The target vector's buffer is not the output column's. -/
theorem d19_ne_d20 : (Proc.devRef .tc main_v19 : DevRef τ sig) ≠ d20 := StableHlo.devRef_ne_of_ne (by decide)

/-- THE VALUE: after the region and the last six operations, the result buffer holds the specification's kernel side. -/
theorem kernel_value :
    (StableHlo.after hostOps1 (Wx m c) (Proc.devRef .tc main_v24) : S_.Idx → EReal) = fun _ => Cert.Spec.resK (zin m c) := by
  funext i
  obtain rfl : i = ix0 := eq_ix0 i
  rw [tail_apply]
  have e20 : Wx m c (Proc.devRef .tc main_v20) = lseCol m c := (Wx_d20 m c).trans (final m c)
  have e19 : Wx m c (Proc.devRef .tc main_v19) = V m c main_v19 := Wx_of_ne m c _ d19_ne_d20
  rw [e20, e19]
  unfold meanDiff Cert.Spec.resK
  refine congrArg (Ideal.div · _) (congrArg (0 + ·) (Finset.sum_congr rfl fun r _ => ?_))
  rw [v19_apply]
  rfl

end Cert.KernelIdeal.Hand

end
-- ==== Proof.BData.lean ====
/-
  (The program read at bit patterns. The argument is the one made for the same program read over the extended reals, word
  for word: nothing in it depends on how a float is read.)

  The proof data of the kernel's one region, for every float instance.

  The region runs on a grid of 8 points. At point `t` the body is handed block `t` (1024 rows) of the normalized array as its
  query block and the WHOLE normalized array as its keys (fetched once, at the first point, and kept), and a scratch column.
  It zeroes the scratch, then for each of the 8 key tiles (1024 rows each) adds to the scratch the row sums of
  `exp (2·q · tileᵀ)`, and finally stores the logarithm of the scratch as its output block. So what the body leaves is:
  the query block as found, the keys as found, and `outV q X`, the column computed from them by the recursion `accV`.
-/
import proofs.«106615_j4045859193248_2_alg».proof.Proof.Gen.Kernel.Launch
import proofs.«106615_j4045859193248_2_alg».proof.Proof.Gen.Kernel.Points
import proofs.«106615_j4045859193248_2_alg».proof.Proof.Gen.Kernel.Loops
import Idealize.ShloMosaic.Lib.Pipeline.Regions
import Idealize.ShloMosaic.Lib.Pipeline.Value

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

/-! ## The body's values -/

/-- Key tile `k`: rows `1024·k … 1024·k + 1023` of the key array. -/
def tile (X : Vec F S8192x256 .bf16) (k : Fin k0_t1_loop.trips) : Vec F S1024x256 .bf16 :=
  View.ld X (Rect.unit (s := S8192x256) (k0_off1 k) S1024x256.size (k0_off1_inb k))

/-- The scratch column before trip `k`: zero, then one tile's row sums added per trip. -/
def accV (q : Vec F S1024x256 .bf16) (X : Vec F S8192x256 .bf16) : ℕ → Vec F S1024x1 .f32
  | 0 => k0_pay1
  | k + 1 => if h : k < k0_t1_loop.trips then k0_pay2 q (tile X ⟨k, h⟩) (accV q X k) else accV q X k

theorem accV_succ (q : Vec F S1024x256 .bf16) (X : Vec F S8192x256 .bf16) (k : Fin k0_t1_loop.trips) :
    accV q X (k.val + 1) = k0_pay2 q (tile X k) (accV q X k.val) := by
  rw [accV, dif_pos k.isLt]

/-- The output block: the logarithm of the scratch after all the trips. -/
def outV (q : Vec F S1024x256 .bf16) (X : Vec F S8192x256 .bf16) : Vec F S1024x1 .f32 :=
  k0_pay3 (accV q X k0_t1_loop.trips)

/-! ## The arrays as the region finds them -/

variable (m : (ℓ : Loc nD τ sig) → Buf (Elt F) ℓ)

/-- Core `c`'s buffers at launch, as the host operations' valuation; -/
abbrev V₀ (c : Dev nD) : Valuation τ sig (Elt F) := fun b => m ((c : Dev nD), b)
/-- the host operations before the region, in order; -/
abbrev preOps : List (HloOp τ sig (Elt F)) := hostOps0 ++ hostOps0_1 ++ hostOps0_2
/-- and the buffers when the region is entered. -/
abbrev V (c : Dev nD) (b : Ref sig .tc) : Buf (Elt F) ((c : Thread nD τ).loc b) := StableHlo.after preOps (V₀ m c) b

/-- The query block of point `t`: block `t` of the normalized array. -/
abbrev qblk (c : Dev nD) (t : Fin cfg0.N) : (cfg0.win 0).block.Idx → Elt F (cfg0.win 0).elt :=
  ((cfg0.win 0).blk t).view.read (Elt F) (V m c (Pipeline.arrRef spec0 0))

/-- The keys at point `t`: the window's block there, which at every point is the whole normalized array. -/
abbrev kall (c : Dev nD) (t : Fin cfg0.N) : (cfg0.win 1).block.Idx → Elt F (cfg0.win 1).elt :=
  ((cfg0.win 1).blk t).view.read (Elt F) (V m c (Pipeline.arrRef spec0 1))

/-- The proof data on core `c`: each array at its entry contents; after the body the query block and the keys as found and
    the output block at `outV`; the invariant the scratch at something; the two input windows hold the shared array at half
    a share each; nothing owed. -/
def dats (_ : Fin 1) (c : Dev nD) : Dat τ (Elt F) Unit ℕ (UR sig nD τ) ℕ cfg0 c where
  A w := V m c (Pipeline.arrRef spec0 w)
  after w t := match w with
    | ⟨0, _⟩ => qblk m c t
    | ⟨1, _⟩ => kall m c t
    | ⟨2, _⟩ => outV (qblk m c t) (kall m c t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

abbrev 𝒱₀ : Variants := Variants.none

end Cert.Kernel.Hand

end
-- ==== Proof.BBefore.lean ====
/-
  (The program read at bit patterns. The argument is the one made for the same program read over the extended reals, word
  for word: nothing in it depends on how a float is read.)

  What the body finds in the two reading windows' buffers at each of the eight points.

  The query window moves to a new block of the normalized array at every point, so it is fetched at every point and the body
  finds that block. The key window's block is the whole array at every point: it is fetched once, at the first point, and
  the body, which only reads it, leaves it in place — so at every point the body finds the whole array there, fetched at that
  point or not.
-/
import proofs.«106615_j4045859193248_2_alg».proof.Proof.BData
import Idealize.ShloMosaic.Lib.Pipeline.Frame
import Idealize.ShloMosaic.Lib.Pipeline.FrameBody

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-- The query window's buffer holds block `t` of the normalized array when the body runs at point `t`. -/
theorem before0 (c : Dev nD) (t : Fin cfg0.N) (d : (cfg0.win 0).block.Idx → Elt F (cfg0.win 0).elt) :
    (dats m 0 c).before 0 t d = qblk m c t := by
  rw [(dats m 0 c).before_fetched 0 t (fetch0_0 t) d]
  unfold Dat.fetched Dat.blockOf
  dsimp only [dats]
  rfl

/-- The key window's buffer holds the whole normalized array when the body runs at any point. -/
theorem before1 (c : Dev nD) (t : Fin cfg0.N) (d : (cfg0.win 1).block.Idx → Elt F (cfg0.win 1).elt) :
    (dats m 0 c).before 1 t d = kall m c t := by
  rw [(dats m 0 c).before_in_eq_fetched 1 rfl (fun _ => rfl) (fun _ _ _ => rfl)
    (fun t => by unfold Dat.blockOf; dsimp only [dats]) t d]
  unfold Dat.fetched Dat.blockOf
  dsimp only [dats]
  rfl

end Cert.Kernel.Hand

end
-- ==== Proof.BBody.lean ====
/-
  (The program read at bit patterns. The argument is the one made for the same program read over the extended reals, word
  for word: nothing in it depends on how a float is read.)

  The kernel body's triple and the pipeline's body obligation, for every float instance.

  One trip of the loop stores into the scratch column ONE whole-buffer piece: the payload of the query block, the trip's key tile
  and the scratch as the trip found it. A whole-buffer store leaves its payload and a whole-buffer load reads the contents, so by
  induction on the trip count the scratch before trip `k` reads `accV q X k` — zero, then one tile's row sums of
  `exp (2·q·tileᵀ)` added per trip. After the loop the body stores the logarithm of the scratch, whole, into the output
  buffer, which therefore reads `outV q X`; the query block and the keys are only read. At a grid point the pipeline hands the
  body the point's query block and the keys (the whole normalized array, fetched at the first point and kept), so the obligation
  at every point is that triple at the point's staging buffers.
-/
import proofs.«106615_j4045859193248_2_alg».proof.Proof.BData
import proofs.«106615_j4045859193248_2_alg».proof.Proof.BBefore
import Idealize.ShloMosaic.Lib.Pipeline.FrameBody

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄G" => MT nD τ sig Unit (Elt F) ℕ (UR sig nD τ) ℕ

/-! ## Whole-buffer loads and stores -/

/-- Both offsets of a whole-buffer rectangle are zero. -/
theorem off_zero : (![0, 0] : Fin 2 → Nat) = fun _ => 0 := by
  funext a; fin_cases a <;> rfl

/-- The whole-buffer rectangle of the scratch column and of the output block; -/
abbrev rCol : Rect S1024x1 := Rect.unit (s := S1024x1) ![0, 0] S1024x1.size inb_S1024x1_S1024x1_0_0
/-- and of the query block. -/
abbrev rQ : Rect S1024x256 := Rect.unit (s := S1024x256) ![0, 0] S1024x256.size inb_S1024x256_S1024x256_0_0

/-- A column buffer whose LAST store was a whole-buffer one reads that store's payload, whatever was stored before. -/
theorem read_store_whole {sp : Space} (v : View sig .tc sp S1024x1 .f32) (f : v.ty.Contents (Elt F))
    (w : S1024x1.Idx → Elt F .f32) (L : List (View.Piece (Elt F) S1024x1 .f32)) :
    v.read (Elt F) (v.writes (Elt F) f ((⟨rCol, w⟩ : View.Piece (Elt F) S1024x1 .f32) :: L)) = w := by
  have hcov : ∀ y : S1024x1.Idx, ∃ p ∈ ((⟨rCol, w⟩ : View.Piece (Elt F) S1024x1 .f32) :: L), y ∈ p.1.set :=
    fun y => ⟨⟨rCol, w⟩, List.mem_cons_self .., View.mem_set_unit_zero off_zero inb_S1024x1_S1024x1_0_0 y⟩
  rw [View.read_writes_eq_canon v f _ hcov]
  exact View.canon_cons_unit_zero off_zero inb_S1024x1_S1024x1_0_0 w L

/-! ## One trip's piece, and the scratch trip by trip -/

/-- The pieces one trip stores, as the run found them: one whole-buffer piece, its payload over what the trip loaded. -/
theorem tripL_eq (𝒱 : Variants) (c : Dev nD) (bd : Option 𝒱.V) (i : grid0.Coords) (arg1 : Memref sig .tc .vmem S1024x256 .bf16) (harg1 : arg1.IsWhole) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (v4 : Vec F S1024x256 .bf16) (X_arg2 : BufTy.Contents (Elt F) arg2.view.ty) (k : Fin k0_t1_loop.trips) (f : BufTy.Contents (Elt F) arg4.view.ty) :
    tripL_k0_t1 (F := F) 𝒱 c bd i arg1 harg1 arg2 harg2 arg3 harg3 arg4 harg4 v4 X_arg2 k f
      = [⟨Rect.unit (s := S1024x1) ![0, 0] S1024x1.size inb_S1024x1_S1024x1_0_0, k0_pay2 v4 (View.readAt (Elt F) arg2.view (Rect.unit (s := S8192x256) (k0_off1 k) S1024x256.size (k0_off1_inb k)).toLoadRect X_arg2)
            (View.readAt (Elt F) arg4.view (Rect.unit (s := S1024x1) ![0, 0] S1024x1.size inb_S1024x1_S1024x1_0_0).toLoadRect f)⟩] := by
  unfold tripL_k0_t1
  unfold trip_k0_t1
  rfl

/-- The same with the loads read off the buffers' contents: the key tile, and the scratch as found. -/
theorem tripL_eq' (𝒱 : Variants) (c : Dev nD) (bd : Option 𝒱.V) (i : grid0.Coords) (arg1 : Memref sig .tc .vmem S1024x256 .bf16) (harg1 : arg1.IsWhole) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (v4 : Vec F S1024x256 .bf16) (X_arg2 : BufTy.Contents (Elt F) arg2.view.ty) (k : Fin k0_t1_loop.trips) (f : BufTy.Contents (Elt F) arg4.view.ty) :
    tripL_k0_t1 (F := F) 𝒱 c bd i arg1 harg1 arg2 harg2 arg3 harg3 arg4 harg4 v4 X_arg2 k f
      = [⟨rCol, k0_pay2 v4 (tile (arg2.view.read (Elt F) X_arg2) k) (arg4.view.read (Elt F) f)⟩] := by
  rw [tripL_eq]
  have h1 : View.readAt (Elt F) arg4.view rCol.toLoadRect f = arg4.view.read (Elt F) f :=
    (View.readAt_eq_ld arg4.view f rCol).trans (View.ld_unit_zero off_zero _ _)
  have h2 : View.readAt (Elt F) arg2.view (Rect.unit (s := S8192x256) (k0_off1 k) S1024x256.size (k0_off1_inb k)).toLoadRect X_arg2 = tile (arg2.view.read (Elt F) X_arg2) k := by
    unfold tile; exact View.readAt_eq_ld arg2.view X_arg2 _
  rw [h1, h2]

/-- The scratch before trip `k` reads `accV`, if it read zero when the loop was entered. -/
theorem acc_read (𝒱 : Variants) (c : Dev nD) (bd : Option 𝒱.V) (i : grid0.Coords) (arg1 : Memref sig .tc .vmem S1024x256 .bf16) (harg1 : arg1.IsWhole) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole) (v4 : Vec F S1024x256 .bf16) (X_arg2 : BufTy.Contents (Elt F) arg2.view.ty) (G0 : BufTy.Contents (Elt F) arg4.view.ty)
    (hG0 : arg4.view.read (Elt F) G0 = k0_pay1) :
    ∀ k, k ≤ k0_t1_loop.trips →
      arg4.view.read (Elt F) (arg4.view.writes (Elt F) G0
        (pb_k0_t1 (F := F) 𝒱 c bd i arg1 harg1 arg2 harg2 arg3 harg3 arg4 harg4 v4 X_arg2 G0 k))
      = accV v4 (arg2.view.read (Elt F) X_arg2) k := by
  intro k
  induction k with
  | zero =>
    intro _
    exact hG0
  | succ k ih =>
    intro hk
    have hk' : k < k0_t1_loop.trips := hk
    have ih' := ih (Nat.le_of_lt hk')
    have e1 := pb_k0_t1_succ (F := F) 𝒱 c bd i arg1 harg1 arg2 harg2 arg3 harg3 arg4 harg4 v4 X_arg2 G0 ⟨k, hk'⟩
    have e2 := tripL_eq' (F := F) 𝒱 c bd i arg1 harg1 arg2 harg2 arg3 harg3 arg4 harg4 v4 X_arg2 ⟨k, hk'⟩
      (arg4.view.writes (Elt F) G0 (pb_k0_t1 (F := F) 𝒱 c bd i arg1 harg1 arg2 harg2 arg3 harg3 arg4 harg4 v4 X_arg2 G0 k))
    have e3 := e1.trans (congrArg (· ++ pb_k0_t1 (F := F) 𝒱 c bd i arg1 harg1 arg2 harg2 arg3 harg3 arg4 harg4 v4 X_arg2 G0 k) e2)
    refine (congrArg (fun L => arg4.view.read (Elt F) (arg4.view.writes (Elt F) G0 L)) e3).trans ?_
    refine (read_store_whole arg4.view G0 _ _).trans ?_
    rw [accV_succ v4 _ ⟨k, hk'⟩]
    exact congrArg (k0_pay2 v4 (tile (arg2.view.read (Elt F) X_arg2) ⟨k, hk'⟩)) ih'

/-! ## The body's triple -/

/-- From the query block at `Q1`, the keys at `XX`, the output buffer and the scratch at anything, the body ends with the query
    block and the keys as they were, the output buffer at `outV Q1 XX`, and the scratch at something. -/
theorem kernelRun (𝒱 : Variants) (c : Dev nD) (bd : Option 𝒱.V) (E : Set ℕ) (i : grid0.Coords) (arg1 : Memref sig .tc .vmem S1024x256 .bf16) (harg1 : arg1.IsWhole) (arg2 : Memref sig .tc .vmem S8192x256 .bf16) (harg2 : arg2.IsWhole) (arg3 : Memref sig .tc .vmem S1024x1 .f32) (harg3 : arg3.IsWhole) (arg4 : Memref sig .tc .vmem S1024x1 .f32) (harg4 : arg4.IsWhole)
    (Q1 : S1024x256.Idx → Elt F .bf16) (XX : S8192x256.Idx → Elt F .bf16) :
    (iprop(owns (c : Thread nD τ) arg1 fullShare Q1 ∗ owns (c : Thread nD τ) arg2 fullShare XX
        ∗ (∃ d3, owns (c : Thread nD τ) arg3 fullShare d3) ∗ (∃ d4, owns (c : Thread nD τ) arg4 fullShare d4)) : sProp 𝕄G)
      ⊢ wp frame (wpE (defs₀ (F := F)) 𝒱 (c : Thread nD τ) bd) E (cc0__lse_kernel (F := F) i arg1 harg1 arg2 harg2 arg3 harg3 arg4 harg4)
          (fun _ => iprop(owns (c : Thread nD τ) arg1 fullShare Q1 ∗ owns (c : Thread nD τ) arg2 fullShare XX
            ∗ owns (c : Thread nD τ) arg3 fullShare (outV Q1 XX) ∗ (∃ d4, owns (c : Thread nD τ) arg4 fullShare d4))) := by
  unfold owns
  iintro ⟨⟨%X1, %h1, H1⟩, ⟨%X2, %h2, H2⟩, ⟨%d3, %f3, %h3, H3⟩, ⟨%d4, %f4, %h4, H4⟩⟩
  subst h1 h2
  simp only [cc0__lse_kernel_eq_skeleton]; unfold cc0__lse_kernel_skel
  sl_exec
  sl_step
  sl_unfold_run_names
  isplitl [H1]
  · iexists _; isplitr; · ipureintro; rfl
    iexact H1
  isplitl [H2]
  · iexists _; isplitr; · ipureintro; rfl
    iexact H2
  isplitl [H3]
  · iexists _; isplitr; swap; · iexact H3
    ipureintro
    rw [read_store_whole]
    unfold outV
    refine congrArg k0_pay3 ?_
    have e1 : View.readAt (Elt F) arg1.view rQ.toLoadRect X1 = arg1.view.read (Elt F) X1 :=
      (View.readAt_eq_ld arg1.view X1 rQ).trans (View.ld_unit_zero off_zero _ _)
    have e4 : ∀ g, View.readAt (Elt F) arg4.view rCol.toLoadRect g = arg4.view.read (Elt F) g := fun g =>
      (View.readAt_eq_ld arg4.view g rCol).trans (View.ld_unit_zero off_zero _ _)
    rw [e1, e4, View.writes_append]
    exact acc_read 𝒱 c bd i arg1 harg1 arg2 harg2 arg3 harg3 arg4 harg4 _ X2 _ (read_store_whole arg4.view arg4.view.junk k0_pay1 []) k0_t1_loop.trips le_rfl
  · iexists _; iexists _; isplitr; swap; · iexact H4
    ipureintro; rfl

/-! ## The body obligation -/

variable (m : (ℓ : Loc nD τ sig) → Buf (Elt F) ℓ)

/-- What the proof data says the body leaves in each window's buffer, window by window. -/
theorem after0 (c : Dev nD) (t : Fin cfg0.N) : (dats m 0 c).after 0 t = qblk m c t := by dsimp only [dats]
theorem after1 (c : Dev nD) (t : Fin cfg0.N) : (dats m 0 c).after 1 t = kall m c t := by dsimp only [dats]
theorem after2 (c : Dev nD) (t : Fin cfg0.N) : (dats m 0 c).after 2 t = outV (qblk m c t) (kall m c t) := by dsimp only [dats]

theorem body_obligation (c : Dev nD) : BodyObligation (dats m 0 c) (defs₀ (F := F)) 𝒱₀ () Set.univ := fun t => by
  rw [bigSep_W0, bigSep_W0]
  dsimp only
  simp only [before0 m c t, before1 m c t]
  rw [show (dats m 0 c).owesAt () t.succ = (dats m 0 c).owesAt () t.castSucc from rfl]
  rw [show (dats m 0 c).Φ t.castSucc = Pipeline.scopedRest (Ix := Unit) (Name := ℕ) (U := UR sig nD τ) (Lvl := ℕ) (Val := Elt F) spec0 c from rfl,
    show (dats m 0 c).Φ t.succ = Pipeline.scopedRest (Ix := Unit) (Name := ℕ) (U := UR sig nD τ) (Lvl := ℕ) (Val := Elt F) spec0 c from rfl, scopedRest0_eq]
  rw [after0 m c t, after1 m c t, after2 m c t]
  show _ ⊢ wp frame (wpE (defs₀ (F := F)) 𝒱₀ (c : Thread nD τ) none) Set.univ (bodyAt0 (F := F) t) _
  have hk := kernelRun (F := F) 𝒱₀ c none Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (Memref.whole cc0_scratch0) (Memref.isWhole_whole _) (qblk m c t) (kall m c t)
  simp only [owns_whole] at hk
  iintro ⟨Hs, Ho, ⟨%d0, H0⟩, ⟨%d1, H1⟩, ⟨%d2, H2⟩⟩
  iapply (wp_wand_r Idealize.ShloMosaic.frame (wpE (defs₀ (F := F)) 𝒱₀ (c : Thread nD τ) none) Set.univ)
  isplitl [Hs H0 H1 H2]
  · iapply hk
    isplitl [H0]; · iexact H0
    isplitl [H1]; · iexact H1
    isplitl [H2]; · iexists _; iexact H2
    iexact Hs
  · iintro %_ ⟨H0, H1, H2, Hs⟩
    isplitl [Hs]; · iexact Hs
    isplitl [Ho]; · iexact Ho
    isplitl [H0]; · iexact H0
    isplitl [H1]; · iexact H1
    iexact H2

end Cert.Kernel.Hand

end
-- ==== Proof.BRunHost.lean ====
/-
  (The program read at bit patterns. The argument is the one made for the same program read over the extended reals, word
  for word: nothing in it depends on how a float is read.)

  The host operations around the kernel's one region.

  Before the region the program runs 29 tensor operations in three stretches (stacking the two inputs, the row norms,
  the normalization, its rounding to the narrower float type, and the target terms); after it, 6 more (the reshape of the
  kernel's column, the subtraction of the target terms, the sum, the division by the row count). Each stretch is a straight
  line over the device's unscoped buffers, so it runs from the buffers held at a valuation to the buffers held at the
  valuation the line computes. No operation of either stretch writes one of the two argument arrays: they hold at the end
  what they held at launch.
-/
import proofs.«106615_j4045859193248_2_alg».proof.Proof.BData
import Idealize.ShloMosaic.Lib.Pipeline.Frame

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs sub_ucRefs unscopedBufs_held)

variable {F : FTy → Type} [FloatOps F]

/-! ## Every operation stays within the unscoped buffers and allocates nothing -/

/-- The operations before the region touch unscoped buffers only. -/
theorem preOps_sub : ∀ op ∈ (preOps (F := F)), op.bufs ⊆ ucRefs τ sig := fun op h => by
  rcases List.mem_append.mp h with h | h
  · rcases List.mem_append.mp h with h | h
    · exact sub_ucRefs op ((List.forall_iff_forall_mem.mp hostOps0_sub) op h)
    · exact sub_ucRefs op ((List.forall_iff_forall_mem.mp hostOps0_1_sub) op h)
  · exact sub_ucRefs op ((List.forall_iff_forall_mem.mp hostOps0_2_sub) op h)

/-- The operations after the region touch unscoped buffers only. -/
theorem hostOps1_sub' : ∀ op ∈ (hostOps1 (F := F)), op.bufs ⊆ ucRefs τ sig := fun op h =>
  sub_ucRefs op ((List.forall_iff_forall_mem.mp hostOps1_sub) op h)

/-- No operation before the region allocates a buffer. -/
theorem preOps_fresh : ∀ op ∈ (preOps (F := F)), op.fresh = ∅ := fun op h => by
  rcases List.mem_append.mp h with h | h
  · rcases List.mem_append.mp h with h | h
    · (repeat (cases h with | head => rfl | tail _ h => ?_)); exact nomatch h
    · (repeat (cases h with | head => rfl | tail _ h => ?_)); exact nomatch h
  · (repeat (cases h with | head => rfl | tail _ h => ?_)); exact nomatch h

/-- No operation after the region allocates a buffer. -/
theorem hostOps1_fresh : ∀ op ∈ (hostOps1 (F := F)), op.fresh = ∅ := fun op h => by
  (repeat (cases h with | head => rfl | tail _ h => ?_)); exact nomatch h

/-! ## The arguments are never written -/

/-- The buffers the operations before the region write. -/
def preWrites : List (Ref sig .tc) :=
  [main_v0, main_call0_v0, main_call0_cst, main_call0_v1, main_call0_v2, main_v1, main_cst, main_v2, main_v3, main_v4, main_v5,
   main_v6, main_v7, main_v8, main_v9, main_v10, main_v11, main_cst_0, main_v12, main_cst_1, main_v13, main_v14, main_v15,
   main_cst_2, main_v16, main_cst_3, main_v17, main_v18, main_v19]

/-- The buffers the operations after the region write. -/
def postWrites : List (Ref sig .tc) := [main_v21, main_v22, main_cst_4, main_v23, main_cst_5, main_v24]

/-- A buffer outside `preWrites` is written by no operation before the region. -/
theorem pre_not_written (b : Ref sig .tc) (hb : b ∉ preWrites) :
    ∀ op ∈ (preOps (F := F)), Proc.devRef (τ := τ) .tc b ∉ op.writes := by
  have hne : ∀ y ∈ preWrites, b ≠ y := fun y hy e => hb (e ▸ hy)
  intro op hop
  simp only [preOps, hostOps0, hostOps0_1, hostOps0_2, List.mem_append, List.mem_cons, List.mem_nil_iff, or_false] at hop
  rcases hop with (rfl | rfl | rfl | rfl | rfl | rfl) | rfl | rfl | rfl | rfl | rfl | rfl | rfl | rfl | rfl | rfl | rfl | rfl | rfl | rfl | rfl | rfl | rfl | rfl | rfl | rfl | rfl | rfl | rfl <;>
    simp only [StableHlo.unary_writes, StableHlo.binary_writes, StableHlo.nullary_writes, Finset.mem_singleton] <;>
    exact StableHlo.devRef_ne_of_ne (hne _ (by decide))

/-- A buffer outside `postWrites` is written by no operation after the region. -/
theorem post_not_written (b : Ref sig .tc) (hb : b ∉ postWrites) :
    ∀ op ∈ (hostOps1 (F := F)), Proc.devRef (τ := τ) .tc b ∉ op.writes := by
  have hne : ∀ y ∈ postWrites, b ≠ y := fun y hy e => hb (e ▸ hy)
  intro op hop
  simp only [hostOps1, List.mem_cons, List.mem_nil_iff, or_false] at hop
  rcases hop with rfl | rfl | rfl | rfl | rfl | rfl <;>
    simp only [StableHlo.unary_writes, StableHlo.binary_writes, StableHlo.nullary_writes, StableHlo.reshape_writes, Finset.mem_singleton] <;>
    exact StableHlo.devRef_ne_of_ne (hne _ (by decide))

variable (m : (ℓ : Loc nD τ sig) → Buf (Elt F) ℓ)

/-- A buffer no operation before the region writes enters the region as launched. -/
theorem V_of_not_written (c : Dev nD) (b : Ref sig .tc) (hb : b ∉ preWrites) : V m c b = m ((c : Thread nD τ).loc b) :=
  StableHlo.after_of_forall_not_mem (b := Proc.devRef .tc b) preOps (V₀ m c) (pre_not_written b hb)

end Cert.Kernel.Hand

end
-- ==== Proof.BRunRegion.lean ====
/-
  (The program read at bit patterns. The argument is the one made for the same program read over the extended reals, word
  for word: nothing in it depends on how a float is read.)

  The kernel's one region between the host stretches.

  The region reads the normalized array through two windows (the query blocks and the whole array as keys) and writes the
  column of logarithms through a third. Both reading windows sit on ONE buffer, so on entry that buffer's full ownership is cut
  into two halves, one per window; the output buffer goes in whole; every other unscoped buffer passes the region by
  untouched. On exit the two halves — the buffer was only read, both still say what it held on entry — are joined into the
  full ownership again, and the output buffer comes back holding what the eight write-backs left in it. So the device's
  buffers after the region are those before it, except that the output buffer holds the computed column.
-/
import proofs.«106615_j4045859193248_2_alg».proof.Proof.BRunHost
import Idealize.ShloMosaic.Lib.Pipeline.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs sub_ucRefs unscopedBufs_held)

variable {F : FTy → Type} [FloatOps F]

local notation "𝕄" => MT nD τ sig Unit (Elt F) ℕ (UR sig nD τ) ℕ

/-- The ghost algebra is the staging cells' rounds algebra and nothing else: the kernel has no protocol of its own. -/
abbrev EP : Emb (UR sig nD τ) (MT nD τ sig Unit (Elt F) ℕ (UR sig nD τ) ℕ) := emb₁

/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm

/-- What rides beside the buffers through every segment: that the core owes nothing. -/
abbrev R (c : Dev nD) : sProp 𝕄 := iprop(∃ W, owes (c : Thread nD τ) (0 : CellTallies nD τ sig Unit) W)

/-! ## The two buffers the region works on, out of the unscoped ones -/

/-- The normalized array's buffer, read by two windows; -/
abbrev d6 : DevRef τ sig := Proc.devRef .tc main_v6
/-- the output column's buffer. -/
abbrev d20 : DevRef τ sig := Proc.devRef .tc main_v20

theorem d6_ne_d20 : (d6 : DevRef τ sig) ≠ d20 := StableHlo.devRef_ne_of_ne (by decide)

theorem pair_sub : ({d6, d20} : Finset (DevRef τ sig)) ⊆ ucRefs τ sig := by
  intro b hb
  rcases Finset.mem_insert.mp hb with rfl | hb
  · exact Finset.mem_filter.mpr ⟨StableHlo.devRef_mem_tcRefs _, by decide⟩
  · rcases Finset.mem_singleton.mp hb with rfl
    exact Finset.mem_filter.mpr ⟨StableHlo.devRef_mem_tcRefs _, by decide⟩

/-- The unscoped buffers held at a valuation: the two the region works on, and the rest. -/
theorem held_ucRefs_split (c : Dev nD) (W : Valuation τ sig (Elt F)) :
    (StableHlo.held (c : Thread nD τ) (ucRefs τ sig) W : sProp 𝕄)
      = iprop(((((c : Thread nD τ).loc main_v6) ↦{fullShare} W d6) ∗ (((c : Thread nD τ).loc main_v20) ↦{fullShare} W d20))
          ∗ StableHlo.held (c : Thread nD τ) (ucRefs τ sig \ {d6, d20}) W) := by
  rw [StableHlo.held_sub_split (c : Thread nD τ) pair_sub W]
  congr 1
  unfold StableHlo.held
  rw [bigSep_insert (by rw [Finset.mem_singleton]; exact d6_ne_d20), bigSep_singleton]
  rfl

variable (m : (ℓ : Loc nD τ sig) → Buf (Elt F) ℓ)

/-- The windows' arrays one by one: the shared buffer at a half for each reading window, the output buffer whole. -/
theorem arrays_eq3 (c : Dev nD) (G : (w : Fin cfg0.W) → Buf (Elt F) ((cfg0.win w).arr.view.loc (c : Thread nD τ))) :
    ((dats m 0 c).arrays G : sProp 𝕄)
      = iprop((((c : Thread nD τ).loc main_v6) ↦{fullShare.left} G 0) ∗ (((c : Thread nD τ).loc main_v6) ↦{fullShare.right} G 1)
          ∗ (((c : Thread nD τ).loc main_v20) ↦{fullShare} G 2)) := by
  unfold Dat.arrays
  rw [bigSep_W0, (arr_whole0 0).set_eq_univ, (arr_whole0 2).set_eq_univ]
  rfl

/-! ## The buffers after the region -/

/-- The device's buffers when the region is left: as entered, except the output buffer, which holds what the eight
    write-backs left in it. -/
def Wx (c : Dev nD) : Valuation τ sig (Elt F) :=
  Function.update (StableHlo.after preOps (V₀ m c)) d20 ((dats m 0 c).arrAt 2 cfg0.N)

theorem Wx_d20 (c : Dev nD) : Wx m c d20 = (dats m 0 c).arrAt 2 cfg0.N := by
  unfold Wx; exact Function.update_self ..

theorem Wx_of_ne (c : Dev nD) (b : DevRef τ sig) (hb : b ≠ d20) : Wx m c b = StableHlo.after preOps (V₀ m c) b := by
  unfold Wx; exact Function.update_of_ne hb ..

/-- Off the two buffers the region works on nothing changed. -/
theorem held_rest_Wx (c : Dev nD) :
    (StableHlo.held (c : Thread nD τ) (ucRefs τ sig \ {d6, d20}) (Wx m c) : sProp 𝕄)
      = StableHlo.held (c : Thread nD τ) (ucRefs τ sig \ {d6, d20}) (StableHlo.after preOps (V₀ m c)) :=
  StableHlo.held_congr (c : Thread nD τ) fun b hb => Wx_of_ne m c b fun e =>
    (Finset.mem_sdiff.mp hb).2 (e ▸ Finset.mem_insert_of_mem (Finset.mem_singleton_self _))

/-! ## The segments -/

/-- THE STRETCH BEFORE the region: the 29 operations over the unscoped buffers, from the launch contents. -/
def seg0 : Pipeline.HostSeg (Name := ℕ) (U := UR sig nD τ) (pcfgs (F := F)) defs₀ 𝒱₀ L lv :=
  Pipeline.HostSeg.ofOps _ _ _ _ _ (ucRefs τ sig) preOps preOps_sub preOps_fresh (V₀ m) R

/-- THE STRETCH AFTER the region: the 6 operations over the unscoped buffers, from what the region left. -/
def seg1 : Pipeline.HostSeg (Name := ℕ) (U := UR sig nD τ) (pcfgs (F := F)) defs₀ 𝒱₀ L lv :=
  Pipeline.HostSeg.ofOps _ _ _ _ _ (ucRefs τ sig) hostOps1 hostOps1_sub' hostOps1_fresh (Wx m) R

variable (hbody : ∀ c, BodyObligation (dats m 0 c) (defs₀ (F := F)) 𝒱₀ () Set.univ)

set_option backward.isDefEq.respectTransparency.types false in
/-- THE REGION: entered from what the first stretch left — the shared buffer cut in two halves for the two reading windows,
    the output buffer whole, the other buffers bypassing —, left with the halves joined again and the output buffer at its
    final contents. The kernel has no semaphore of its own; its invariant is the scratch buffer at something. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (hbody c).loose
  hwaits := Pipeline.hwaits_of_owed_zero _ _ _ _ L lv 0 fun _ _ => rfl
  pre c := iprop(StableHlo.held (c : Thread nD τ) (ucRefs τ sig) (StableHlo.after preOps (V₀ m c)) ∗ R c)
  post c := iprop(StableHlo.held (c : Thread nD τ) (ucRefs τ sig) (Wx m c) ∗ R c)
  X _ := iprop(emp)
  Y _ := iprop(emp)
  Z c := StableHlo.held (c : Thread nD τ) (ucRefs τ sig \ {d6, d20}) (StableHlo.after preOps (V₀ m c))
  hentry c := by
    rw [arrays_eq3 m c, held_ucRefs_split c (StableHlo.after preOps (V₀ m c))]
    iintro ⟨⟨⟨⟨H6, H20⟩, Hrest⟩, HO⟩, -, -⟩
    ihave H6' := (pointsTo_share (PosShare.mem_left_op_right fullShare)).1 $$ H6
    icases H6' with ⟨H6l, H6r⟩
    imodintro
    isplitl [H6l H6r H20]
    · isplitl [H6l]; · iexact H6l
      isplitl [H6r]; · iexact H6r
      iexact H20
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [arrays_eq3 m c, held_ucRefs_split c (Wx m c), Wx_d20, Wx_of_ne m c d6 d6_ne_d20, held_rest_Wx,
      (dats m 0 c).arrAt_in 0 rfl, (dats m 0 c).arrAt_in 1 rfl,
      show (dats m 0 c).A 0 = StableHlo.after preOps (V₀ m c) d6 from rfl,
      show (dats m 0 c).A 1 = StableHlo.after preOps (V₀ m c) d6 from rfl]
    iintro ⟨⟨H6l, H6r, H20⟩, HO, -, Hrest⟩
    ihave H6 := (pointsTo_share (PosShare.mem_left_op_right fullShare)).2 $$ [H6l H6r]
    · isplitl [H6l]; · iexact H6l
      iexact H6r
    imodintro
    isplitr [HO]
    · isplitr [Hrest]
      · isplitl [H6]; · iexact H6
        iexact H20
      · iexact Hrest
    · unfold Pipeline.Dat.owesAt Pipeline.owesWithin
      icases HO with ⟨%W, -, HO⟩; iexists W; iexact HO

end Cert.Kernel.Hand

end
-- ==== Proof.BRun.lean ====
/-
  (The program read at bit patterns. The argument is the one made for the same program read over the extended reals, word
  for word: nothing in it depends on how a float is read.)

  The run of the whole program.

  The program is the 29 operations before the region, the region, and the 6 operations after it. Run in that order from any
  memory whose semaphore counters are zero, every weakly fair execution on the device's core terminates, and every final
  memory holds, in the result buffer, the value the last six operations compute from the buffers as the region left them
  (those the first 29 operations computed, with the kernel's column in the output buffer), and in the two argument
  buffers what they held at launch: no operation writes them, and the region does not touch them.
-/
import proofs.«106615_j4045859193248_2_alg».proof.Proof.BRunRegion

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs sub_ucRefs unscopedBufs_held)

variable {F : FTy → Type} [FloatOps F]

local notation "𝕄" => MT nD τ sig Unit (Elt F) ℕ (UR sig nD τ) ℕ

variable (m : (ℓ : Loc nD τ sig) → Buf (Elt F) ℓ)

/-! ## What the end holds -/

/-- The device's buffers at the end: the last six operations run from what the region left. -/
abbrev Wend (c : Dev nD) : Valuation τ sig (Elt F) := StableHlo.after hostOps1 (Wx m c)

/-- An argument buffer holds at the end what it held at launch. -/
theorem Wend_arg (c : Dev nD) (b : Ref sig .tc) (h₀ : b ∉ preWrites) (h₁ : b ∉ postWrites) (h₂ : b ≠ main_v20) :
    Wend m c (Proc.devRef .tc b) = m ((c : Thread nD τ).loc b) := by
  unfold Wend
  rw [StableHlo.after_of_forall_not_mem (b := Proc.devRef .tc b) hostOps1 (Wx m c) (post_not_written b h₁),
    Wx_of_ne m c _ (StableHlo.devRef_ne_of_ne h₂)]
  exact V_of_not_written m c b h₀

theorem mem_ucRefs (b : Ref sig .tc) (h : b.isScoped = false) : Proc.devRef (τ := τ) .tc b ∈ ucRefs τ sig :=
  Finset.mem_filter.mpr ⟨StableHlo.devRef_mem_tcRefs _, fun h' => Bool.false_ne_true (h.symm.trans h')⟩

/-- The physical post: the result buffer at the value the last operations compute, the arguments as launched. -/
def QC : PUnit × MemSt nD τ sig (Elt F) → Prop := fun r =>
  ∀ c : Dev nD, r.2.mem ((c : Thread nD τ).loc main_v24) = Wend m c (Proc.devRef .tc main_v24)
    ∧ r.2.mem ((c : Thread nD τ).loc main_arg0) = m ((c : Thread nD τ).loc main_arg0)
    ∧ r.2.mem ((c : Thread nD τ).loc main_arg1) = m ((c : Thread nD τ).loc main_arg1)

/-- The program as the list of its three segments. -/
abbrev segs (hbody : ∀ c, BodyObligation (dats m 0 c) (defs₀ (F := F)) 𝒱₀ () Set.univ) :
    List (Pipeline.Seg (pcfgs (F := F)) adm (dats m) () defs₀ 𝒱₀ L lv) :=
  [.host (seg0 m), .region (reg0 m hbody), .host (seg1 m)]

/-- The program IS the run of the three segments: its chain of five items, the three stretches before the region being one
    line run in a row. -/
theorem main_eq (hbody : ∀ c, BodyObligation (dats m 0 c) (defs₀ (F := F)) 𝒱₀ () Set.univ) (c : Dev nD) :
    main (F := F) c = Pipeline.Seg.run (segs m hbody) := by
  rw [main_chain c, Pipeline.Seg.run_eq_chain]
  simp only [List.map_cons, List.map_nil, Pipeline.Seg.prog, seg0, seg1, Pipeline.HostSeg.ofOps, Pipeline.chain_cons,
    Pipeline.chain_nil, StableHlo.seq_append, bind_assoc]

set_option backward.isDefEq.respectTransparency.types false in
/-- From any memory with zero counters: every weakly fair execution of the program terminates, and every final memory has
    the result buffer at the computed value and the two arguments unchanged. -/
theorem run_main_of (hbody : ∀ c, BodyObligation (dats m 0 c) (defs₀ (F := F)) 𝒱₀ () Set.univ) (ρ : Dev nD → PrngReg) :
    θ_run defs (onTc (τ := τ) (main (F := F))) ⟨m, fun _ => 0, ρ⟩ (QC m) :=
  Pipeline.θ_run_regions_kit (pcfgs (F := F)) adm (dats m) () cellOf_inj EP defs₀ 𝒱₀ L lv m ρ main (segs m hbody)
    (fun c Q => by rw [main_eq m hbody c])
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V₀ m c) ∗ R c))
    (Tₙ := fun c => StableHlo.held (c : Thread nD τ) (ucRefs τ sig) (Wend m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (ucRefs τ sig) (V₀ m c) from
        unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v24) = Wend m c (Proc.devRef .tc main_v24)
      ∧ s.mem ((c : Thread nD τ).loc main_arg0) = m ((c : Thread nD τ).loc main_arg0)
      ∧ s.mem ((c : Thread nD τ).loc main_arg1) = m ((c : Thread nD τ).loc main_arg1))
    (hfin := fun c s' => by
      unfold StableHlo.held
      iintro ⟨Hh, HSI⟩
      ihave Hr := (pointsTo_read_all (ucRefs τ sig) (fun b => ((c : Thread nD τ).1, b)) (Wend m c) s') $$ [Hh HSI]
      · isplitl [Hh] <;> iassumption
      icases Hr with ⟨%ha, HSI⟩
      imodintro
      isplitr
      · ipureintro
        exact ⟨ha _ (mem_ucRefs main_v24 rfl),
          (ha _ (mem_ucRefs main_arg0 rfl)).trans (Wend_arg m c main_arg0 (by decide) (by decide) (by decide)),
          (ha _ (mem_ucRefs main_arg1 rfl)).trans (Wend_arg m c main_arg1 (by decide) (by decide) (by decide))⟩
      iexact HSI)
    (hQ := fun _ h => h)

end Cert.Kernel.Hand

end
-- ==== Proof.BFrame.lean ====
/-
  (The program read at bit patterns. The argument is the one made for the same program read over the extended reals, word
  for word: nothing in it depends on how a float is read.)

  The frame claim's post from the run: the program terminates and its two argument arrays end as launched.

  The run of the whole program says what the result buffer and the two argument buffers hold in every final memory; the
  frame claim keeps the two statements about the arguments and forgets the one about the result.
-/
import proofs.«106615_j4045859193248_2_alg».proof.Proof.BRun

noncomputable section

namespace Cert.Kernel.Hand

open Cert.Kernel Cert.Kernel.Gen
open Idealize.ShloMosaic Idealize.ShloMosaic.TcCoe
open Idealize.SL Idealize.SL.Sem
open Idealize.ShloMosaic.Pipeline (BodyObligation)

variable {F : FTy → Type} [FloatOps F]

variable (m : (ℓ : Loc nD τ sig) → Buf (Elt F) ℓ)

/-- From any memory with zero counters: every weakly fair execution of the program terminates, and every final memory has
    the two arguments unchanged. -/
theorem frame_of (hbody : ∀ c, BodyObligation (dats m 0 c) (defs₀ (F := F)) 𝒱₀ () Set.univ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.1, (h c).2.2⟩) (run_main_of m hbody ρ)

end Cert.Kernel.Hand

end
-- ==== Proof.RefFoldRowMax.lean ====
/-
  One operation of the reference program, read as a step on the buffers' contents: the row maximum of the logits.

  The operation reads the 8192 × 8192 logits and the initial value (the word of -∞) and writes, into the vector of 8192
  entries, the fold of `maximum` along each row from the initial value. If the two buffers it reads hold the stages
  `val_main_v9` and `val_main_call1_cst`, the buffer it writes holds the stage `val_main_call1_v0`, which is by definition
  that same fold of those two stages: the operation's result at its own buffer is its function of its operands' contents,
  and the transports between a buffer's contents and a value of the buffer's literal type are identities. The fold itself is
  never opened: both sides are the same fold of the same operands.
-/
import proofs.«106615_j4045859193248_2_alg».proof.Proof.RefReadP
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce in
/-- The row-maximum operation takes the stages of the logits and of the initial value to the stage of the row maxima. -/
theorem step_main_call1_v0 (W : Valuation τ sig (Elt F)) (x0 x1 : (⟨S4096x256, .f32⟩ : BufTy).Contents (Elt F))
    (hx : W (Proc.devRef .tc main_v9) = Cert.ReferenceIdeal.ReadP.val_main_v9 (F := F) x0 x1)
    (hv : W (Proc.devRef .tc main_call1_cst) = Cert.ReferenceIdeal.ReadP.val_main_call1_cst (F := F)) :
    (TRef.binary (TRef.of (T := ⟨S8192x8192, .f32⟩) main_v9) (TRef.of (T := ⟨S_, .f32⟩) main_call1_cst) (TRef.of (T := ⟨S8192, .f32⟩) main_call1_v0) (fun x v => Host.reduce FloatOps.maximumf x v reducesTo_S8192x8192_S8192_d1 h_S_) : HloOp τ sig (Elt F)).result W (Proc.devRef .tc main_call1_v0)
      = Cert.ReferenceIdeal.ReadP.val_main_call1_v0 (F := F) x0 x1 := by
  refine (binary_result _ _ _ _ _ _ _ W).trans ?_
  dsimp only
  rw [hx, hv]
  rfl

end Cert.ReferenceIdeal.ValueP

end
-- ==== Proof.RefFoldMask.lean ====
/-
  One operation of the reference program, run from any buffer contents: the reduction by "and" of the bounds mask along its
  last axis, from the constant 1. If the operand buffer holds the mask stage and the initial-value buffer holds the constant
  stage, the result buffer holds the reduced stage — the operation's function applied to the two buffers' contents, the
  transports between a buffer's type and the value's type being identities.
-/
import proofs.«106615_j4045859193248_2_alg».proof.Proof.RefReadP
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- A transport along an equation between a type and itself is the identity. -/
theorem cast_self {α : Type} (h : α = α) (v : α) : cast h v = v := rfl

theorem step_main_call2_v12 (W : Valuation τ sig (Elt F))
    (hx : W (Proc.devRef .tc main_call2_v11) = Cert.ReferenceIdeal.ReadP.val_main_call2_v11 (F := F))
    (hv : W (Proc.devRef .tc main_call2_c_3) = Cert.ReferenceIdeal.ReadP.val_main_call2_c_3 (F := F)) :
    (TRef.binary (TRef.of (T := ⟨S8192x1x1, .i1⟩) main_call2_v11) (TRef.of (T := ⟨S_, .i1⟩) main_call2_c_3) (TRef.of (T := ⟨S8192x1, .i1⟩) main_call2_v12) (fun x v => Host.reduce IntOp.andi x v reducesTo_S8192x1x1_S8192x1_d2 h_S_) : HloOp τ sig (Elt F)).result W (Proc.devRef .tc main_call2_v12)
      = Cert.ReferenceIdeal.ReadP.val_main_call2_v12 (F := F) := by
  rw [binary_result]
  dsimp only
  rw [hx, hv]
  unfold Cert.ReferenceIdeal.ReadP.val_main_call2_v12
  rfl

end Cert.ReferenceIdeal.ValueP

end
-- ==== Proof.RefRun.lean ====
/-
  The reference program's run, read at its last stage.

  The program's @main is a list of 63 host operations, each writing one buffer from the whole contents of its operand
  buffers through a pure function. Folding the operations over the launch contents, the result buffer ends at the
  composition of those functions over the two arguments; that composition is the last of the stages (one stage per
  operation: the operation's function of its operands' stages). The proof goes one operation at a time: after an
  operation its result buffer holds the operation's function of the operands' contents, which are their stages, so it
  holds its own stage; and a buffer the operation does not write keeps its contents, so every buffer a later operation
  still reads keeps its stage. Two stages are reductions by an arbitrary commutative operation (a row's maximum, the
  conjunction of a mask); their two steps are proved on their own, and here the reduction stays folded, so that a stage
  is compared with itself and never with the fold over the 8192 × 8192 indices it abbreviates.

  Hence `run`: every weakly fair execution of the reference terminates, with the result at the last stage of the
  arguments and the arguments unchanged.
-/
import proofs.«106615_j4045859193248_2_alg».proof.Proof.RefRunP
import proofs.«106615_j4045859193248_2_alg».proof.Proof.RefReadP
import proofs.«106615_j4045859193248_2_alg».proof.Proof.RefFoldRowMax
import proofs.«106615_j4045859193248_2_alg».proof.Proof.RefFoldMask

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- One operation at a time: the fold over `op :: rest` from `V` is the fold over `rest` from the contents after `op`. -/
theorem after_cons_gen {Val : EltTy → Type} (op : HloOp τ sig Val) (rest : List (HloOp τ sig Val)) (V : Valuation τ sig Val)
    {r : DevRef τ sig} {R : r.ty.Contents Val}
    (h : ∀ W : Valuation τ sig Val, W = op.result V → after rest W r = R) : after (op :: rest) V r = R := by
  rw [after_cons]; exact h _ rfl

set_option maxRecDepth 8192 in
set_option maxHeartbeats 4000000 in
/-- The operations' fold at the result buffer is the last stage: each operation's result is its stage of the
    operands' stages, and every buffer still to be read keeps its stage across an operation that does not write it. -/
theorem fold_eq (V : Valuation τ sig (Elt F)) (a0 a1 : (⟨S4096x256, .f32⟩ : BufTy).Contents (Elt F))
    (h0 : V (Proc.devRef .tc main_arg0) = a0) (h1 : V (Proc.devRef .tc main_arg1) = a1) :
    after ops V (Proc.devRef .tc main_v19) = Cert.ReferenceIdeal.ReadP.val_main_v19 (F := F) a0 a1 := by
  -- operation 1: main_v0
  refine after_cons_gen _ _ _ (fun W1 hW1 => ?_)
  have f1_main_v0 : W1 (Proc.devRef .tc main_v0) = Cert.ReferenceIdeal.ReadP.val_main_v0 (F := F) a0 a1 := by
    rw [hW1]; simp only [binary_result']; rw [h0, h1]; rfl
  clear hW1 h0 h1
  -- operation 2: main_call0_v0
  refine after_cons_gen _ _ _ (fun W2 hW2 => ?_)
  have f2_main_call0_v0 : W2 (Proc.devRef .tc main_call0_v0) = Cert.ReferenceIdeal.ReadP.val_main_call0_v0 (F := F) a0 a1 := by
    rw [hW2]; simp only [binary_result', f1_main_v0] <;> rfl
  have f2_main_v0 : W2 (Proc.devRef .tc main_v0) = Cert.ReferenceIdeal.ReadP.val_main_v0 (F := F) a0 a1 := by
    rw [hW2]; simp (disch := decide) only [binary_result_ne', f1_main_v0]
  clear hW2 f1_main_v0
  clear W1
  -- operation 3: main_call0_cst
  refine after_cons_gen _ _ _ (fun W3 hW3 => ?_)
  have f3_main_call0_cst : W3 (Proc.devRef .tc main_call0_cst) = Cert.ReferenceIdeal.ReadP.val_main_call0_cst (F := F) := by
    rw [hW3]; simp only [nullary_result'] <;> rfl
  have f3_main_v0 : W3 (Proc.devRef .tc main_v0) = Cert.ReferenceIdeal.ReadP.val_main_v0 (F := F) a0 a1 := by
    rw [hW3]; simp (disch := decide) only [nullary_result_ne', f2_main_v0]
  have f3_main_call0_v0 : W3 (Proc.devRef .tc main_call0_v0) = Cert.ReferenceIdeal.ReadP.val_main_call0_v0 (F := F) a0 a1 := by
    rw [hW3]; simp (disch := decide) only [nullary_result_ne', f2_main_call0_v0]
  clear hW3 f2_main_v0 f2_main_call0_v0
  clear W2
  -- operation 4: main_call0_v1
  refine after_cons_gen _ _ _ (fun W4 hW4 => ?_)
  have f4_main_call0_v1 : W4 (Proc.devRef .tc main_call0_v1) = Cert.ReferenceIdeal.ReadP.val_main_call0_v1 (F := F) a0 a1 := by
    rw [hW4]; simp only [binary_result', f3_main_call0_v0, f3_main_call0_cst] <;> rfl
  have f4_main_v0 : W4 (Proc.devRef .tc main_v0) = Cert.ReferenceIdeal.ReadP.val_main_v0 (F := F) a0 a1 := by
    rw [hW4]; simp (disch := decide) only [binary_result_ne', f3_main_v0]
  clear hW4 f3_main_v0 f3_main_call0_v0 f3_main_call0_cst
  clear W3
  -- operation 5: main_call0_v2
  refine after_cons_gen _ _ _ (fun W5 hW5 => ?_)
  have f5_main_call0_v2 : W5 (Proc.devRef .tc main_call0_v2) = Cert.ReferenceIdeal.ReadP.val_main_call0_v2 (F := F) a0 a1 := by
    rw [hW5]; simp only [unary_result', f4_main_call0_v1] <;> rfl
  have f5_main_v0 : W5 (Proc.devRef .tc main_v0) = Cert.ReferenceIdeal.ReadP.val_main_v0 (F := F) a0 a1 := by
    rw [hW5]; simp (disch := decide) only [unary_result_ne', f4_main_v0]
  clear hW5 f4_main_v0 f4_main_call0_v1
  clear W4
  -- operation 6: main_v1
  refine after_cons_gen _ _ _ (fun W6 hW6 => ?_)
  have f6_main_v1 : W6 (Proc.devRef .tc main_v1) = Cert.ReferenceIdeal.ReadP.val_main_v1 (F := F) a0 a1 := by
    rw [hW6]; simp only [unary_result', f5_main_call0_v2] <;> rfl
  have f6_main_v0 : W6 (Proc.devRef .tc main_v0) = Cert.ReferenceIdeal.ReadP.val_main_v0 (F := F) a0 a1 := by
    rw [hW6]; simp (disch := decide) only [unary_result_ne', f5_main_v0]
  clear hW6 f5_main_v0 f5_main_call0_v2
  clear W5
  -- operation 7: main_cst
  refine after_cons_gen _ _ _ (fun W7 hW7 => ?_)
  have f7_main_cst : W7 (Proc.devRef .tc main_cst) = Cert.ReferenceIdeal.ReadP.val_main_cst (F := F) := by
    rw [hW7]; simp only [nullary_result'] <;> rfl
  have f7_main_v0 : W7 (Proc.devRef .tc main_v0) = Cert.ReferenceIdeal.ReadP.val_main_v0 (F := F) a0 a1 := by
    rw [hW7]; simp (disch := decide) only [nullary_result_ne', f6_main_v0]
  have f7_main_v1 : W7 (Proc.devRef .tc main_v1) = Cert.ReferenceIdeal.ReadP.val_main_v1 (F := F) a0 a1 := by
    rw [hW7]; simp (disch := decide) only [nullary_result_ne', f6_main_v1]
  clear hW7 f6_main_v0 f6_main_v1
  clear W6
  -- operation 8: main_v2
  refine after_cons_gen _ _ _ (fun W8 hW8 => ?_)
  have f8_main_v2 : W8 (Proc.devRef .tc main_v2) = Cert.ReferenceIdeal.ReadP.val_main_v2 (F := F) := by
    rw [hW8]; simp only [unary_result', f7_main_cst] <;> rfl
  have f8_main_v0 : W8 (Proc.devRef .tc main_v0) = Cert.ReferenceIdeal.ReadP.val_main_v0 (F := F) a0 a1 := by
    rw [hW8]; simp (disch := decide) only [unary_result_ne', f7_main_v0]
  have f8_main_v1 : W8 (Proc.devRef .tc main_v1) = Cert.ReferenceIdeal.ReadP.val_main_v1 (F := F) a0 a1 := by
    rw [hW8]; simp (disch := decide) only [unary_result_ne', f7_main_v1]
  clear hW8 f7_main_v0 f7_main_v1 f7_main_cst
  clear W7
  -- operation 9: main_v3
  refine after_cons_gen _ _ _ (fun W9 hW9 => ?_)
  have f9_main_v3 : W9 (Proc.devRef .tc main_v3) = Cert.ReferenceIdeal.ReadP.val_main_v3 (F := F) a0 a1 := by
    rw [hW9]; simp only [binary_result', f8_main_v1, f8_main_v2] <;> rfl
  have f9_main_v0 : W9 (Proc.devRef .tc main_v0) = Cert.ReferenceIdeal.ReadP.val_main_v0 (F := F) a0 a1 := by
    rw [hW9]; simp (disch := decide) only [binary_result_ne', f8_main_v0]
  clear hW9 f8_main_v0 f8_main_v1 f8_main_v2
  clear W8
  -- operation 10: main_v4
  refine after_cons_gen _ _ _ (fun W10 hW10 => ?_)
  have f10_main_v4 : W10 (Proc.devRef .tc main_v4) = Cert.ReferenceIdeal.ReadP.val_main_v4 (F := F) a0 a1 := by
    rw [hW10]; simp only [unary_result', f9_main_v3] <;> rfl
  have f10_main_v0 : W10 (Proc.devRef .tc main_v0) = Cert.ReferenceIdeal.ReadP.val_main_v0 (F := F) a0 a1 := by
    rw [hW10]; simp (disch := decide) only [unary_result_ne', f9_main_v0]
  clear hW10 f9_main_v0 f9_main_v3
  clear W9
  -- operation 11: main_v5
  refine after_cons_gen _ _ _ (fun W11 hW11 => ?_)
  have f11_main_v5 : W11 (Proc.devRef .tc main_v5) = Cert.ReferenceIdeal.ReadP.val_main_v5 (F := F) a0 a1 := by
    rw [hW11]; simp only [binary_result', f10_main_v0, f10_main_v4] <;> rfl
  clear hW11 f10_main_v0 f10_main_v4
  clear W10
  -- operation 12: main_v6
  refine after_cons_gen _ _ _ (fun W12 hW12 => ?_)
  have f12_main_v6 : W12 (Proc.devRef .tc main_v6) = Cert.ReferenceIdeal.ReadP.val_main_v6 (F := F) a0 a1 := by
    rw [hW12]; simp only [unary_result', f11_main_v5] <;> rfl
  have f12_main_v5 : W12 (Proc.devRef .tc main_v5) = Cert.ReferenceIdeal.ReadP.val_main_v5 (F := F) a0 a1 := by
    rw [hW12]; simp (disch := decide) only [unary_result_ne', f11_main_v5]
  clear hW12 f11_main_v5
  clear W11
  -- operation 13: main_v7
  refine after_cons_gen _ _ _ (fun W13 hW13 => ?_)
  have f13_main_v7 : W13 (Proc.devRef .tc main_v7) = Cert.ReferenceIdeal.ReadP.val_main_v7 (F := F) a0 a1 := by
    rw [hW13]; simp only [binary_result', f12_main_v5, f12_main_v6] <;> rfl
  clear hW13 f12_main_v5 f12_main_v6
  clear W12
  -- operation 14: main_cst_0
  refine after_cons_gen _ _ _ (fun W14 hW14 => ?_)
  have f14_main_cst_0 : W14 (Proc.devRef .tc main_cst_0) = Cert.ReferenceIdeal.ReadP.val_main_cst_0 (F := F) := by
    rw [hW14]; simp only [nullary_result'] <;> rfl
  have f14_main_v7 : W14 (Proc.devRef .tc main_v7) = Cert.ReferenceIdeal.ReadP.val_main_v7 (F := F) a0 a1 := by
    rw [hW14]; simp (disch := decide) only [nullary_result_ne', f13_main_v7]
  clear hW14 f13_main_v7
  clear W13
  -- operation 15: main_v8
  refine after_cons_gen _ _ _ (fun W15 hW15 => ?_)
  have f15_main_v8 : W15 (Proc.devRef .tc main_v8) = Cert.ReferenceIdeal.ReadP.val_main_v8 (F := F) := by
    rw [hW15]; simp only [unary_result', f14_main_cst_0] <;> rfl
  have f15_main_v7 : W15 (Proc.devRef .tc main_v7) = Cert.ReferenceIdeal.ReadP.val_main_v7 (F := F) a0 a1 := by
    rw [hW15]; simp (disch := decide) only [unary_result_ne', f14_main_v7]
  clear hW15 f14_main_v7 f14_main_cst_0
  clear W14
  -- operation 16: main_v9
  refine after_cons_gen _ _ _ (fun W16 hW16 => ?_)
  have f16_main_v9 : W16 (Proc.devRef .tc main_v9) = Cert.ReferenceIdeal.ReadP.val_main_v9 (F := F) a0 a1 := by
    rw [hW16]; simp only [binary_result', f15_main_v7, f15_main_v8] <;> rfl
  clear hW16 f15_main_v7 f15_main_v8
  clear W15
  -- operation 17: main_v10
  refine after_cons_gen _ _ _ (fun W17 hW17 => ?_)
  have f17_main_v10 : W17 (Proc.devRef .tc main_v10) = Cert.ReferenceIdeal.ReadP.val_main_v10 (F := F) := by
    rw [hW17]; simp only [nullary_result'] <;> rfl
  have f17_main_v9 : W17 (Proc.devRef .tc main_v9) = Cert.ReferenceIdeal.ReadP.val_main_v9 (F := F) a0 a1 := by
    rw [hW17]; simp (disch := decide) only [nullary_result_ne', f16_main_v9]
  clear hW17 f16_main_v9
  clear W16
  -- operation 18: main_v11
  refine after_cons_gen _ _ _ (fun W18 hW18 => ?_)
  have f18_main_v11 : W18 (Proc.devRef .tc main_v11) = Cert.ReferenceIdeal.ReadP.val_main_v11 (F := F) := by
    rw [hW18]; simp only [nullary_result'] <;> rfl
  have f18_main_v9 : W18 (Proc.devRef .tc main_v9) = Cert.ReferenceIdeal.ReadP.val_main_v9 (F := F) a0 a1 := by
    rw [hW18]; simp (disch := decide) only [nullary_result_ne', f17_main_v9]
  have f18_main_v10 : W18 (Proc.devRef .tc main_v10) = Cert.ReferenceIdeal.ReadP.val_main_v10 (F := F) := by
    rw [hW18]; simp (disch := decide) only [nullary_result_ne', f17_main_v10]
  clear hW18 f17_main_v9 f17_main_v10
  clear W17
  -- operation 19: main_v12
  refine after_cons_gen _ _ _ (fun W19 hW19 => ?_)
  have f19_main_v12 : W19 (Proc.devRef .tc main_v12) = Cert.ReferenceIdeal.ReadP.val_main_v12 (F := F) := by
    rw [hW19]; simp only [binary_result']; rw [f18_main_v10, f18_main_v11]; rfl
  have f19_main_v9 : W19 (Proc.devRef .tc main_v9) = Cert.ReferenceIdeal.ReadP.val_main_v9 (F := F) a0 a1 := by
    rw [hW19]; simp (disch := decide) only [binary_result_ne', f18_main_v9]
  clear hW19 f18_main_v9 f18_main_v10 f18_main_v11
  clear W18
  -- operation 20: main_call1_cst
  refine after_cons_gen _ _ _ (fun W20 hW20 => ?_)
  have f20_main_call1_cst : W20 (Proc.devRef .tc main_call1_cst) = Cert.ReferenceIdeal.ReadP.val_main_call1_cst (F := F) := by
    rw [hW20]; simp only [nullary_result'] <;> rfl
  have f20_main_v9 : W20 (Proc.devRef .tc main_v9) = Cert.ReferenceIdeal.ReadP.val_main_v9 (F := F) a0 a1 := by
    rw [hW20]; simp (disch := decide) only [nullary_result_ne', f19_main_v9]
  have f20_main_v12 : W20 (Proc.devRef .tc main_v12) = Cert.ReferenceIdeal.ReadP.val_main_v12 (F := F) := by
    rw [hW20]; simp (disch := decide) only [nullary_result_ne', f19_main_v12]
  clear hW20 f19_main_v9 f19_main_v12
  clear W19
  -- operation 21: main_call1_v0
  refine after_cons_gen _ _ _ (fun W21 hW21 => ?_)
  have f21_main_call1_v0 : W21 (Proc.devRef .tc main_call1_v0) = Cert.ReferenceIdeal.ReadP.val_main_call1_v0 (F := F) a0 a1 := by
    rw [hW21]; exact step_main_call1_v0 W20 a0 a1 f20_main_v9 f20_main_call1_cst
  have f21_main_v9 : W21 (Proc.devRef .tc main_v9) = Cert.ReferenceIdeal.ReadP.val_main_v9 (F := F) a0 a1 := by
    rw [hW21]; simp (disch := decide) only [binary_result_ne', f20_main_v9]
  have f21_main_v12 : W21 (Proc.devRef .tc main_v12) = Cert.ReferenceIdeal.ReadP.val_main_v12 (F := F) := by
    rw [hW21]; simp (disch := decide) only [binary_result_ne', f20_main_v12]
  clear hW21 f20_main_v9 f20_main_v12 f20_main_call1_cst
  clear W20
  -- operation 22: main_call1_cst_0
  refine after_cons_gen _ _ _ (fun W22 hW22 => ?_)
  have f22_main_call1_cst_0 : W22 (Proc.devRef .tc main_call1_cst_0) = Cert.ReferenceIdeal.ReadP.val_main_call1_cst_0 (F := F) := by
    rw [hW22]; simp only [nullary_result'] <;> rfl
  have f22_main_v9 : W22 (Proc.devRef .tc main_v9) = Cert.ReferenceIdeal.ReadP.val_main_v9 (F := F) a0 a1 := by
    rw [hW22]; simp (disch := decide) only [nullary_result_ne', f21_main_v9]
  have f22_main_v12 : W22 (Proc.devRef .tc main_v12) = Cert.ReferenceIdeal.ReadP.val_main_v12 (F := F) := by
    rw [hW22]; simp (disch := decide) only [nullary_result_ne', f21_main_v12]
  have f22_main_call1_v0 : W22 (Proc.devRef .tc main_call1_v0) = Cert.ReferenceIdeal.ReadP.val_main_call1_v0 (F := F) a0 a1 := by
    rw [hW22]; simp (disch := decide) only [nullary_result_ne', f21_main_call1_v0]
  clear hW22 f21_main_v9 f21_main_v12 f21_main_call1_v0
  clear W21
  -- operation 23: main_call1_v1
  refine after_cons_gen _ _ _ (fun W23 hW23 => ?_)
  have f23_main_call1_v1 : W23 (Proc.devRef .tc main_call1_v1) = Cert.ReferenceIdeal.ReadP.val_main_call1_v1 (F := F) := by
    rw [hW23]; simp only [unary_result', f22_main_call1_cst_0] <;> rfl
  have f23_main_v9 : W23 (Proc.devRef .tc main_v9) = Cert.ReferenceIdeal.ReadP.val_main_v9 (F := F) a0 a1 := by
    rw [hW23]; simp (disch := decide) only [unary_result_ne', f22_main_v9]
  have f23_main_v12 : W23 (Proc.devRef .tc main_v12) = Cert.ReferenceIdeal.ReadP.val_main_v12 (F := F) := by
    rw [hW23]; simp (disch := decide) only [unary_result_ne', f22_main_v12]
  have f23_main_call1_v0 : W23 (Proc.devRef .tc main_call1_v0) = Cert.ReferenceIdeal.ReadP.val_main_call1_v0 (F := F) a0 a1 := by
    rw [hW23]; simp (disch := decide) only [unary_result_ne', f22_main_call1_v0]
  clear hW23 f22_main_v9 f22_main_v12 f22_main_call1_v0 f22_main_call1_cst_0
  clear W22
  -- operation 24: main_call1_v2
  refine after_cons_gen _ _ _ (fun W24 hW24 => ?_)
  have f24_main_call1_v2 : W24 (Proc.devRef .tc main_call1_v2) = Cert.ReferenceIdeal.ReadP.val_main_call1_v2 (F := F) a0 a1 := by
    rw [hW24]; simp only [binary_result', f23_main_call1_v1, f23_main_call1_v0]
    have hY : ∀ v : (⟨S8192, .f32⟩ : BufTy).Contents (Elt F), (TRef.of (T := ⟨S8192, .f32⟩) main_call1_v2).toBuf (Val := Elt F) v = v := fun _ => rfl
    have hA0 : ∀ v : (Proc.devRef (τ := τ) .tc main_call1_v1).ty.Contents (Elt F), (TRef.of (T := ⟨S8192, .f32⟩) main_call1_v1).ofBuf (Val := Elt F) v = v := fun _ => rfl
    have hA1 : ∀ v : (Proc.devRef (τ := τ) .tc main_call1_v0).ty.Contents (Elt F), (TRef.of (T := ⟨S8192, .f32⟩) main_call1_v0).ofBuf (Val := Elt F) v = v := fun _ => rfl
    rw [hY, hA0, hA1]
    rfl
  have f24_main_v9 : W24 (Proc.devRef .tc main_v9) = Cert.ReferenceIdeal.ReadP.val_main_v9 (F := F) a0 a1 := by
    rw [hW24]; simp (disch := decide) only [binary_result_ne', f23_main_v9]
  have f24_main_v12 : W24 (Proc.devRef .tc main_v12) = Cert.ReferenceIdeal.ReadP.val_main_v12 (F := F) := by
    rw [hW24]; simp (disch := decide) only [binary_result_ne', f23_main_v12]
  clear hW24 f23_main_v9 f23_main_v12 f23_main_call1_v0 f23_main_call1_v1
  clear W23
  -- operation 25: main_call1_v3
  refine after_cons_gen _ _ _ (fun W25 hW25 => ?_)
  have f25_main_call1_v3 : W25 (Proc.devRef .tc main_call1_v3) = Cert.ReferenceIdeal.ReadP.val_main_call1_v3 (F := F) a0 a1 := by
    rw [hW25]; simp only [unary_result', f24_main_call1_v2] <;> rfl
  have f25_main_v9 : W25 (Proc.devRef .tc main_v9) = Cert.ReferenceIdeal.ReadP.val_main_v9 (F := F) a0 a1 := by
    rw [hW25]; simp (disch := decide) only [unary_result_ne', f24_main_v9]
  have f25_main_v12 : W25 (Proc.devRef .tc main_v12) = Cert.ReferenceIdeal.ReadP.val_main_v12 (F := F) := by
    rw [hW25]; simp (disch := decide) only [unary_result_ne', f24_main_v12]
  clear hW25 f24_main_v9 f24_main_v12 f24_main_call1_v2
  clear W24
  -- operation 26: main_call1_v4
  refine after_cons_gen _ _ _ (fun W26 hW26 => ?_)
  have f26_main_call1_v4 : W26 (Proc.devRef .tc main_call1_v4) = Cert.ReferenceIdeal.ReadP.val_main_call1_v4 (F := F) a0 a1 := by
    rw [hW26]; simp only [unary_result', f25_main_call1_v3] <;> rfl
  have f26_main_v9 : W26 (Proc.devRef .tc main_v9) = Cert.ReferenceIdeal.ReadP.val_main_v9 (F := F) a0 a1 := by
    rw [hW26]; simp (disch := decide) only [unary_result_ne', f25_main_v9]
  have f26_main_v12 : W26 (Proc.devRef .tc main_v12) = Cert.ReferenceIdeal.ReadP.val_main_v12 (F := F) := by
    rw [hW26]; simp (disch := decide) only [unary_result_ne', f25_main_v12]
  clear hW26 f25_main_v9 f25_main_v12 f25_main_call1_v3
  clear W25
  -- operation 27: main_call1_v5
  refine after_cons_gen _ _ _ (fun W27 hW27 => ?_)
  have f27_main_call1_v5 : W27 (Proc.devRef .tc main_call1_v5) = Cert.ReferenceIdeal.ReadP.val_main_call1_v5 (F := F) a0 a1 := by
    rw [hW27]; simp only [binary_result', f26_main_v9, f26_main_call1_v4] <;> rfl
  have f27_main_v12 : W27 (Proc.devRef .tc main_v12) = Cert.ReferenceIdeal.ReadP.val_main_v12 (F := F) := by
    rw [hW27]; simp (disch := decide) only [binary_result_ne', f26_main_v12]
  clear hW27 f26_main_v9 f26_main_v12 f26_main_call1_v4
  clear W26
  -- operation 28: main_call1_v6
  refine after_cons_gen _ _ _ (fun W28 hW28 => ?_)
  have f28_main_call1_v6 : W28 (Proc.devRef .tc main_call1_v6) = Cert.ReferenceIdeal.ReadP.val_main_call1_v6 (F := F) a0 a1 := by
    rw [hW28]; simp only [unary_result', f27_main_call1_v5] <;> rfl
  have f28_main_v12 : W28 (Proc.devRef .tc main_v12) = Cert.ReferenceIdeal.ReadP.val_main_v12 (F := F) := by
    rw [hW28]; simp (disch := decide) only [unary_result_ne', f27_main_v12]
  have f28_main_call1_v5 : W28 (Proc.devRef .tc main_call1_v5) = Cert.ReferenceIdeal.ReadP.val_main_call1_v5 (F := F) a0 a1 := by
    rw [hW28]; simp (disch := decide) only [unary_result_ne', f27_main_call1_v5]
  clear hW28 f27_main_v12 f27_main_call1_v5
  clear W27
  -- operation 29: main_call1_cst_1
  refine after_cons_gen _ _ _ (fun W29 hW29 => ?_)
  have f29_main_call1_cst_1 : W29 (Proc.devRef .tc main_call1_cst_1) = Cert.ReferenceIdeal.ReadP.val_main_call1_cst_1 (F := F) := by
    rw [hW29]; simp only [nullary_result'] <;> rfl
  have f29_main_v12 : W29 (Proc.devRef .tc main_v12) = Cert.ReferenceIdeal.ReadP.val_main_v12 (F := F) := by
    rw [hW29]; simp (disch := decide) only [nullary_result_ne', f28_main_v12]
  have f29_main_call1_v5 : W29 (Proc.devRef .tc main_call1_v5) = Cert.ReferenceIdeal.ReadP.val_main_call1_v5 (F := F) a0 a1 := by
    rw [hW29]; simp (disch := decide) only [nullary_result_ne', f28_main_call1_v5]
  have f29_main_call1_v6 : W29 (Proc.devRef .tc main_call1_v6) = Cert.ReferenceIdeal.ReadP.val_main_call1_v6 (F := F) a0 a1 := by
    rw [hW29]; simp (disch := decide) only [nullary_result_ne', f28_main_call1_v6]
  clear hW29 f28_main_v12 f28_main_call1_v5 f28_main_call1_v6
  clear W28
  -- operation 30: main_call1_v7
  refine after_cons_gen _ _ _ (fun W30 hW30 => ?_)
  have f30_main_call1_v7 : W30 (Proc.devRef .tc main_call1_v7) = Cert.ReferenceIdeal.ReadP.val_main_call1_v7 (F := F) a0 a1 := by
    rw [hW30]; simp only [binary_result', f29_main_call1_v6, f29_main_call1_cst_1] <;> rfl
  have f30_main_v12 : W30 (Proc.devRef .tc main_v12) = Cert.ReferenceIdeal.ReadP.val_main_v12 (F := F) := by
    rw [hW30]; simp (disch := decide) only [binary_result_ne', f29_main_v12]
  have f30_main_call1_v5 : W30 (Proc.devRef .tc main_call1_v5) = Cert.ReferenceIdeal.ReadP.val_main_call1_v5 (F := F) a0 a1 := by
    rw [hW30]; simp (disch := decide) only [binary_result_ne', f29_main_call1_v5]
  clear hW30 f29_main_v12 f29_main_call1_v5 f29_main_call1_v6 f29_main_call1_cst_1
  clear W29
  -- operation 31: main_call1_v8
  refine after_cons_gen _ _ _ (fun W31 hW31 => ?_)
  have f31_main_call1_v8 : W31 (Proc.devRef .tc main_call1_v8) = Cert.ReferenceIdeal.ReadP.val_main_call1_v8 (F := F) a0 a1 := by
    rw [hW31]; simp only [unary_result', f30_main_call1_v7] <;> rfl
  have f31_main_v12 : W31 (Proc.devRef .tc main_v12) = Cert.ReferenceIdeal.ReadP.val_main_v12 (F := F) := by
    rw [hW31]; simp (disch := decide) only [unary_result_ne', f30_main_v12]
  have f31_main_call1_v5 : W31 (Proc.devRef .tc main_call1_v5) = Cert.ReferenceIdeal.ReadP.val_main_call1_v5 (F := F) a0 a1 := by
    rw [hW31]; simp (disch := decide) only [unary_result_ne', f30_main_call1_v5]
  clear hW31 f30_main_v12 f30_main_call1_v5 f30_main_call1_v7
  clear W30
  -- operation 32: main_call1_v9
  refine after_cons_gen _ _ _ (fun W32 hW32 => ?_)
  have f32_main_call1_v9 : W32 (Proc.devRef .tc main_call1_v9) = Cert.ReferenceIdeal.ReadP.val_main_call1_v9 (F := F) a0 a1 := by
    rw [hW32]; simp only [unary_result', f31_main_call1_v8] <;> rfl
  have f32_main_v12 : W32 (Proc.devRef .tc main_v12) = Cert.ReferenceIdeal.ReadP.val_main_v12 (F := F) := by
    rw [hW32]; simp (disch := decide) only [unary_result_ne', f31_main_v12]
  have f32_main_call1_v5 : W32 (Proc.devRef .tc main_call1_v5) = Cert.ReferenceIdeal.ReadP.val_main_call1_v5 (F := F) a0 a1 := by
    rw [hW32]; simp (disch := decide) only [unary_result_ne', f31_main_call1_v5]
  clear hW32 f31_main_v12 f31_main_call1_v5 f31_main_call1_v8
  clear W31
  -- operation 33: main_call1_v10
  refine after_cons_gen _ _ _ (fun W33 hW33 => ?_)
  have f33_main_call1_v10 : W33 (Proc.devRef .tc main_call1_v10) = Cert.ReferenceIdeal.ReadP.val_main_call1_v10 (F := F) a0 a1 := by
    rw [hW33]; simp only [unary_result', f32_main_call1_v9] <;> rfl
  have f33_main_v12 : W33 (Proc.devRef .tc main_v12) = Cert.ReferenceIdeal.ReadP.val_main_v12 (F := F) := by
    rw [hW33]; simp (disch := decide) only [unary_result_ne', f32_main_v12]
  have f33_main_call1_v5 : W33 (Proc.devRef .tc main_call1_v5) = Cert.ReferenceIdeal.ReadP.val_main_call1_v5 (F := F) a0 a1 := by
    rw [hW33]; simp (disch := decide) only [unary_result_ne', f32_main_call1_v5]
  clear hW33 f32_main_v12 f32_main_call1_v5 f32_main_call1_v9
  clear W32
  -- operation 34: main_v13
  refine after_cons_gen _ _ _ (fun W34 hW34 => ?_)
  have f34_main_v13 : W34 (Proc.devRef .tc main_v13) = Cert.ReferenceIdeal.ReadP.val_main_v13 (F := F) a0 a1 := by
    rw [hW34]; simp only [binary_result', f33_main_call1_v5, f33_main_call1_v10] <;> rfl
  have f34_main_v12 : W34 (Proc.devRef .tc main_v12) = Cert.ReferenceIdeal.ReadP.val_main_v12 (F := F) := by
    rw [hW34]; simp (disch := decide) only [binary_result_ne', f33_main_v12]
  clear hW34 f33_main_v12 f33_main_call1_v5 f33_main_call1_v10
  clear W33
  -- operation 35: main_v14
  refine after_cons_gen _ _ _ (fun W35 hW35 => ?_)
  have f35_main_v14 : W35 (Proc.devRef .tc main_v14) = Cert.ReferenceIdeal.ReadP.val_main_v14 (F := F) := by
    rw [hW35]; simp only [unary_result', f34_main_v12] <;> rfl
  have f35_main_v13 : W35 (Proc.devRef .tc main_v13) = Cert.ReferenceIdeal.ReadP.val_main_v13 (F := F) a0 a1 := by
    rw [hW35]; simp (disch := decide) only [unary_result_ne', f34_main_v13]
  clear hW35 f34_main_v12 f34_main_v13
  clear W34
  -- operation 36: main_call2_c
  refine after_cons_gen _ _ _ (fun W36 hW36 => ?_)
  have f36_main_call2_c : W36 (Proc.devRef .tc main_call2_c) = Cert.ReferenceIdeal.ReadP.val_main_call2_c (F := F) := by
    rw [hW36]; simp only [nullary_result'] <;> rfl
  have f36_main_v13 : W36 (Proc.devRef .tc main_v13) = Cert.ReferenceIdeal.ReadP.val_main_v13 (F := F) a0 a1 := by
    rw [hW36]; simp (disch := decide) only [nullary_result_ne', f35_main_v13]
  have f36_main_v14 : W36 (Proc.devRef .tc main_v14) = Cert.ReferenceIdeal.ReadP.val_main_v14 (F := F) := by
    rw [hW36]; simp (disch := decide) only [nullary_result_ne', f35_main_v14]
  clear hW36 f35_main_v13 f35_main_v14
  clear W35
  -- operation 37: main_call2_v0
  refine after_cons_gen _ _ _ (fun W37 hW37 => ?_)
  have f37_main_call2_v0 : W37 (Proc.devRef .tc main_call2_v0) = Cert.ReferenceIdeal.ReadP.val_main_call2_v0 (F := F) := by
    rw [hW37]; simp only [unary_result', f36_main_call2_c] <;> rfl
  have f37_main_v13 : W37 (Proc.devRef .tc main_v13) = Cert.ReferenceIdeal.ReadP.val_main_v13 (F := F) a0 a1 := by
    rw [hW37]; simp (disch := decide) only [unary_result_ne', f36_main_v13]
  have f37_main_v14 : W37 (Proc.devRef .tc main_v14) = Cert.ReferenceIdeal.ReadP.val_main_v14 (F := F) := by
    rw [hW37]; simp (disch := decide) only [unary_result_ne', f36_main_v14]
  clear hW37 f36_main_v13 f36_main_v14 f36_main_call2_c
  clear W36
  -- operation 38: main_call2_v1
  refine after_cons_gen _ _ _ (fun W38 hW38 => ?_)
  have f38_main_call2_v1 : W38 (Proc.devRef .tc main_call2_v1) = Cert.ReferenceIdeal.ReadP.val_main_call2_v1 (F := F) := by
    rw [hW38]; simp only [binary_result', f37_main_v14, f37_main_call2_v0] <;> rfl
  have f38_main_v13 : W38 (Proc.devRef .tc main_v13) = Cert.ReferenceIdeal.ReadP.val_main_v13 (F := F) a0 a1 := by
    rw [hW38]; simp (disch := decide) only [binary_result_ne', f37_main_v13]
  have f38_main_v14 : W38 (Proc.devRef .tc main_v14) = Cert.ReferenceIdeal.ReadP.val_main_v14 (F := F) := by
    rw [hW38]; simp (disch := decide) only [binary_result_ne', f37_main_v14]
  clear hW38 f37_main_v13 f37_main_v14 f37_main_call2_v0
  clear W37
  -- operation 39: main_call2_c_0
  refine after_cons_gen _ _ _ (fun W39 hW39 => ?_)
  have f39_main_call2_c_0 : W39 (Proc.devRef .tc main_call2_c_0) = Cert.ReferenceIdeal.ReadP.val_main_call2_c_0 (F := F) := by
    rw [hW39]; simp only [nullary_result'] <;> rfl
  have f39_main_v13 : W39 (Proc.devRef .tc main_v13) = Cert.ReferenceIdeal.ReadP.val_main_v13 (F := F) a0 a1 := by
    rw [hW39]; simp (disch := decide) only [nullary_result_ne', f38_main_v13]
  have f39_main_v14 : W39 (Proc.devRef .tc main_v14) = Cert.ReferenceIdeal.ReadP.val_main_v14 (F := F) := by
    rw [hW39]; simp (disch := decide) only [nullary_result_ne', f38_main_v14]
  have f39_main_call2_v1 : W39 (Proc.devRef .tc main_call2_v1) = Cert.ReferenceIdeal.ReadP.val_main_call2_v1 (F := F) := by
    rw [hW39]; simp (disch := decide) only [nullary_result_ne', f38_main_call2_v1]
  clear hW39 f38_main_v13 f38_main_v14 f38_main_call2_v1
  clear W38
  -- operation 40: main_call2_v2
  refine after_cons_gen _ _ _ (fun W40 hW40 => ?_)
  have f40_main_call2_v2 : W40 (Proc.devRef .tc main_call2_v2) = Cert.ReferenceIdeal.ReadP.val_main_call2_v2 (F := F) := by
    rw [hW40]; simp only [unary_result', f39_main_call2_c_0] <;> rfl
  have f40_main_v13 : W40 (Proc.devRef .tc main_v13) = Cert.ReferenceIdeal.ReadP.val_main_v13 (F := F) a0 a1 := by
    rw [hW40]; simp (disch := decide) only [unary_result_ne', f39_main_v13]
  have f40_main_v14 : W40 (Proc.devRef .tc main_v14) = Cert.ReferenceIdeal.ReadP.val_main_v14 (F := F) := by
    rw [hW40]; simp (disch := decide) only [unary_result_ne', f39_main_v14]
  have f40_main_call2_v1 : W40 (Proc.devRef .tc main_call2_v1) = Cert.ReferenceIdeal.ReadP.val_main_call2_v1 (F := F) := by
    rw [hW40]; simp (disch := decide) only [unary_result_ne', f39_main_call2_v1]
  clear hW40 f39_main_v13 f39_main_v14 f39_main_call2_v1 f39_main_call2_c_0
  clear W39
  -- operation 41: main_call2_v3
  refine after_cons_gen _ _ _ (fun W41 hW41 => ?_)
  have f41_main_call2_v3 : W41 (Proc.devRef .tc main_call2_v3) = Cert.ReferenceIdeal.ReadP.val_main_call2_v3 (F := F) := by
    rw [hW41]; simp only [binary_result', f40_main_v14, f40_main_call2_v2] <;> rfl
  have f41_main_v13 : W41 (Proc.devRef .tc main_v13) = Cert.ReferenceIdeal.ReadP.val_main_v13 (F := F) a0 a1 := by
    rw [hW41]; simp (disch := decide) only [binary_result_ne', f40_main_v13]
  have f41_main_v14 : W41 (Proc.devRef .tc main_v14) = Cert.ReferenceIdeal.ReadP.val_main_v14 (F := F) := by
    rw [hW41]; simp (disch := decide) only [binary_result_ne', f40_main_v14]
  have f41_main_call2_v1 : W41 (Proc.devRef .tc main_call2_v1) = Cert.ReferenceIdeal.ReadP.val_main_call2_v1 (F := F) := by
    rw [hW41]; simp (disch := decide) only [binary_result_ne', f40_main_call2_v1]
  clear hW41 f40_main_v13 f40_main_v14 f40_main_call2_v1 f40_main_call2_v2
  clear W40
  -- operation 42: main_call2_v4
  refine after_cons_gen _ _ _ (fun W42 hW42 => ?_)
  have f42_main_call2_v4 : W42 (Proc.devRef .tc main_call2_v4) = Cert.ReferenceIdeal.ReadP.val_main_call2_v4 (F := F) := by
    rw [hW42]; simp only [ternary_result', f41_main_call2_v1, f41_main_call2_v3, f41_main_v14] <;> rfl
  have f42_main_v13 : W42 (Proc.devRef .tc main_v13) = Cert.ReferenceIdeal.ReadP.val_main_v13 (F := F) a0 a1 := by
    rw [hW42]; simp (disch := decide) only [ternary_result_ne', f41_main_v13]
  clear hW42 f41_main_v13 f41_main_v14 f41_main_call2_v1 f41_main_call2_v3
  clear W41
  -- operation 43: main_call2_v5
  refine after_cons_gen _ _ _ (fun W43 hW43 => ?_)
  have f43_main_call2_v5 : W43 (Proc.devRef .tc main_call2_v5) = Cert.ReferenceIdeal.ReadP.val_main_call2_v5 (F := F) := by
    rw [hW43]; simp only [reshape_result', f42_main_call2_v4] <;> rfl
  have f43_main_v13 : W43 (Proc.devRef .tc main_v13) = Cert.ReferenceIdeal.ReadP.val_main_v13 (F := F) a0 a1 := by
    rw [hW43]; simp (disch := decide) only [reshape_result_ne', f42_main_v13]
  clear hW43 f42_main_v13 f42_main_call2_v4
  clear W42
  -- operation 44: main_call2_c_1
  refine after_cons_gen _ _ _ (fun W44 hW44 => ?_)
  have f44_main_call2_c_1 : W44 (Proc.devRef .tc main_call2_c_1) = Cert.ReferenceIdeal.ReadP.val_main_call2_c_1 (F := F) := by
    rw [hW44]; simp only [nullary_result'] <;> rfl
  have f44_main_v13 : W44 (Proc.devRef .tc main_v13) = Cert.ReferenceIdeal.ReadP.val_main_v13 (F := F) a0 a1 := by
    rw [hW44]; simp (disch := decide) only [nullary_result_ne', f43_main_v13]
  have f44_main_call2_v5 : W44 (Proc.devRef .tc main_call2_v5) = Cert.ReferenceIdeal.ReadP.val_main_call2_v5 (F := F) := by
    rw [hW44]; simp (disch := decide) only [nullary_result_ne', f43_main_call2_v5]
  clear hW44 f43_main_v13 f43_main_call2_v5
  clear W43
  -- operation 45: main_call2_c_2
  refine after_cons_gen _ _ _ (fun W45 hW45 => ?_)
  have f45_main_call2_c_2 : W45 (Proc.devRef .tc main_call2_c_2) = Cert.ReferenceIdeal.ReadP.val_main_call2_c_2 (F := F) := by
    rw [hW45]; simp only [nullary_result'] <;> rfl
  have f45_main_v13 : W45 (Proc.devRef .tc main_v13) = Cert.ReferenceIdeal.ReadP.val_main_v13 (F := F) a0 a1 := by
    rw [hW45]; simp (disch := decide) only [nullary_result_ne', f44_main_v13]
  have f45_main_call2_v5 : W45 (Proc.devRef .tc main_call2_v5) = Cert.ReferenceIdeal.ReadP.val_main_call2_v5 (F := F) := by
    rw [hW45]; simp (disch := decide) only [nullary_result_ne', f44_main_call2_v5]
  have f45_main_call2_c_1 : W45 (Proc.devRef .tc main_call2_c_1) = Cert.ReferenceIdeal.ReadP.val_main_call2_c_1 (F := F) := by
    rw [hW45]; simp (disch := decide) only [nullary_result_ne', f44_main_call2_c_1]
  clear hW45 f44_main_v13 f44_main_call2_v5 f44_main_call2_c_1
  clear W44
  -- operation 46: main_call2_v6
  refine after_cons_gen _ _ _ (fun W46 hW46 => ?_)
  have f46_main_call2_v6 : W46 (Proc.devRef .tc main_call2_v6) = Cert.ReferenceIdeal.ReadP.val_main_call2_v6 (F := F) := by
    rw [hW46]; simp only [unary_result', f45_main_call2_c_2] <;> rfl
  have f46_main_v13 : W46 (Proc.devRef .tc main_v13) = Cert.ReferenceIdeal.ReadP.val_main_v13 (F := F) a0 a1 := by
    rw [hW46]; simp (disch := decide) only [unary_result_ne', f45_main_v13]
  have f46_main_call2_v5 : W46 (Proc.devRef .tc main_call2_v5) = Cert.ReferenceIdeal.ReadP.val_main_call2_v5 (F := F) := by
    rw [hW46]; simp (disch := decide) only [unary_result_ne', f45_main_call2_v5]
  have f46_main_call2_c_1 : W46 (Proc.devRef .tc main_call2_c_1) = Cert.ReferenceIdeal.ReadP.val_main_call2_c_1 (F := F) := by
    rw [hW46]; simp (disch := decide) only [unary_result_ne', f45_main_call2_c_1]
  clear hW46 f45_main_v13 f45_main_call2_v5 f45_main_call2_c_1 f45_main_call2_c_2
  clear W45
  -- operation 47: main_call2_v7
  refine after_cons_gen _ _ _ (fun W47 hW47 => ?_)
  have f47_main_call2_v7 : W47 (Proc.devRef .tc main_call2_v7) = Cert.ReferenceIdeal.ReadP.val_main_call2_v7 (F := F) := by
    rw [hW47]; simp only [binary_result', f46_main_call2_v5, f46_main_call2_v6] <;> rfl
  have f47_main_v13 : W47 (Proc.devRef .tc main_v13) = Cert.ReferenceIdeal.ReadP.val_main_v13 (F := F) a0 a1 := by
    rw [hW47]; simp (disch := decide) only [binary_result_ne', f46_main_v13]
  have f47_main_call2_v5 : W47 (Proc.devRef .tc main_call2_v5) = Cert.ReferenceIdeal.ReadP.val_main_call2_v5 (F := F) := by
    rw [hW47]; simp (disch := decide) only [binary_result_ne', f46_main_call2_v5]
  have f47_main_call2_c_1 : W47 (Proc.devRef .tc main_call2_c_1) = Cert.ReferenceIdeal.ReadP.val_main_call2_c_1 (F := F) := by
    rw [hW47]; simp (disch := decide) only [binary_result_ne', f46_main_call2_c_1]
  clear hW47 f46_main_v13 f46_main_call2_v5 f46_main_call2_c_1 f46_main_call2_v6
  clear W46
  -- operation 48: main_call2_v8
  refine after_cons_gen _ _ _ (fun W48 hW48 => ?_)
  have f48_main_call2_v8 : W48 (Proc.devRef .tc main_call2_v8) = Cert.ReferenceIdeal.ReadP.val_main_call2_v8 (F := F) := by
    rw [hW48]; simp only [unary_result', f47_main_call2_c_1] <;> rfl
  have f48_main_v13 : W48 (Proc.devRef .tc main_v13) = Cert.ReferenceIdeal.ReadP.val_main_v13 (F := F) a0 a1 := by
    rw [hW48]; simp (disch := decide) only [unary_result_ne', f47_main_v13]
  have f48_main_call2_v5 : W48 (Proc.devRef .tc main_call2_v5) = Cert.ReferenceIdeal.ReadP.val_main_call2_v5 (F := F) := by
    rw [hW48]; simp (disch := decide) only [unary_result_ne', f47_main_call2_v5]
  have f48_main_call2_v7 : W48 (Proc.devRef .tc main_call2_v7) = Cert.ReferenceIdeal.ReadP.val_main_call2_v7 (F := F) := by
    rw [hW48]; simp (disch := decide) only [unary_result_ne', f47_main_call2_v7]
  clear hW48 f47_main_v13 f47_main_call2_v5 f47_main_call2_c_1 f47_main_call2_v7
  clear W47
  -- operation 49: main_call2_v9
  refine after_cons_gen _ _ _ (fun W49 hW49 => ?_)
  have f49_main_call2_v9 : W49 (Proc.devRef .tc main_call2_v9) = Cert.ReferenceIdeal.ReadP.val_main_call2_v9 (F := F) := by
    rw [hW49]; simp only [unary_result', f48_main_call2_v8] <;> rfl
  have f49_main_v13 : W49 (Proc.devRef .tc main_v13) = Cert.ReferenceIdeal.ReadP.val_main_v13 (F := F) a0 a1 := by
    rw [hW49]; simp (disch := decide) only [unary_result_ne', f48_main_v13]
  have f49_main_call2_v5 : W49 (Proc.devRef .tc main_call2_v5) = Cert.ReferenceIdeal.ReadP.val_main_call2_v5 (F := F) := by
    rw [hW49]; simp (disch := decide) only [unary_result_ne', f48_main_call2_v5]
  have f49_main_call2_v7 : W49 (Proc.devRef .tc main_call2_v7) = Cert.ReferenceIdeal.ReadP.val_main_call2_v7 (F := F) := by
    rw [hW49]; simp (disch := decide) only [unary_result_ne', f48_main_call2_v7]
  clear hW49 f48_main_v13 f48_main_call2_v5 f48_main_call2_v7 f48_main_call2_v8
  clear W48
  -- operation 50: main_call2_v10
  refine after_cons_gen _ _ _ (fun W50 hW50 => ?_)
  have f50_main_call2_v10 : W50 (Proc.devRef .tc main_call2_v10) = Cert.ReferenceIdeal.ReadP.val_main_call2_v10 (F := F) := by
    rw [hW50]; simp only [binary_result', f49_main_call2_v5, f49_main_call2_v9] <;> rfl
  have f50_main_v13 : W50 (Proc.devRef .tc main_v13) = Cert.ReferenceIdeal.ReadP.val_main_v13 (F := F) a0 a1 := by
    rw [hW50]; simp (disch := decide) only [binary_result_ne', f49_main_v13]
  have f50_main_call2_v5 : W50 (Proc.devRef .tc main_call2_v5) = Cert.ReferenceIdeal.ReadP.val_main_call2_v5 (F := F) := by
    rw [hW50]; simp (disch := decide) only [binary_result_ne', f49_main_call2_v5]
  have f50_main_call2_v7 : W50 (Proc.devRef .tc main_call2_v7) = Cert.ReferenceIdeal.ReadP.val_main_call2_v7 (F := F) := by
    rw [hW50]; simp (disch := decide) only [binary_result_ne', f49_main_call2_v7]
  clear hW50 f49_main_v13 f49_main_call2_v5 f49_main_call2_v7 f49_main_call2_v9
  clear W49
  -- operation 51: main_call2_v11
  refine after_cons_gen _ _ _ (fun W51 hW51 => ?_)
  have f51_main_call2_v11 : W51 (Proc.devRef .tc main_call2_v11) = Cert.ReferenceIdeal.ReadP.val_main_call2_v11 (F := F) := by
    rw [hW51]; simp only [binary_result', f50_main_call2_v7, f50_main_call2_v10] <;> rfl
  have f51_main_v13 : W51 (Proc.devRef .tc main_v13) = Cert.ReferenceIdeal.ReadP.val_main_v13 (F := F) a0 a1 := by
    rw [hW51]; simp (disch := decide) only [binary_result_ne', f50_main_v13]
  have f51_main_call2_v5 : W51 (Proc.devRef .tc main_call2_v5) = Cert.ReferenceIdeal.ReadP.val_main_call2_v5 (F := F) := by
    rw [hW51]; simp (disch := decide) only [binary_result_ne', f50_main_call2_v5]
  clear hW51 f50_main_v13 f50_main_call2_v5 f50_main_call2_v7 f50_main_call2_v10
  clear W50
  -- operation 52: main_call2_c_3
  refine after_cons_gen _ _ _ (fun W52 hW52 => ?_)
  have f52_main_call2_c_3 : W52 (Proc.devRef .tc main_call2_c_3) = Cert.ReferenceIdeal.ReadP.val_main_call2_c_3 (F := F) := by
    rw [hW52]; simp only [nullary_result'] <;> rfl
  have f52_main_v13 : W52 (Proc.devRef .tc main_v13) = Cert.ReferenceIdeal.ReadP.val_main_v13 (F := F) a0 a1 := by
    rw [hW52]; simp (disch := decide) only [nullary_result_ne', f51_main_v13]
  have f52_main_call2_v5 : W52 (Proc.devRef .tc main_call2_v5) = Cert.ReferenceIdeal.ReadP.val_main_call2_v5 (F := F) := by
    rw [hW52]; simp (disch := decide) only [nullary_result_ne', f51_main_call2_v5]
  have f52_main_call2_v11 : W52 (Proc.devRef .tc main_call2_v11) = Cert.ReferenceIdeal.ReadP.val_main_call2_v11 (F := F) := by
    rw [hW52]; simp (disch := decide) only [nullary_result_ne', f51_main_call2_v11]
  clear hW52 f51_main_v13 f51_main_call2_v5 f51_main_call2_v11
  clear W51
  -- operation 53: main_call2_v12
  refine after_cons_gen _ _ _ (fun W53 hW53 => ?_)
  have f53_main_call2_v12 : W53 (Proc.devRef .tc main_call2_v12) = Cert.ReferenceIdeal.ReadP.val_main_call2_v12 (F := F) := by
    rw [hW53]; exact step_main_call2_v12 W52 f52_main_call2_v11 f52_main_call2_c_3
  have f53_main_v13 : W53 (Proc.devRef .tc main_v13) = Cert.ReferenceIdeal.ReadP.val_main_v13 (F := F) a0 a1 := by
    rw [hW53]; simp (disch := decide) only [binary_result_ne', f52_main_v13]
  have f53_main_call2_v5 : W53 (Proc.devRef .tc main_call2_v5) = Cert.ReferenceIdeal.ReadP.val_main_call2_v5 (F := F) := by
    rw [hW53]; simp (disch := decide) only [binary_result_ne', f52_main_call2_v5]
  clear hW53 f52_main_v13 f52_main_call2_v5 f52_main_call2_v11 f52_main_call2_c_3
  clear W52
  -- operation 54: main_call2_v13
  refine after_cons_gen _ _ _ (fun W54 hW54 => ?_)
  have f54_main_call2_v13 : W54 (Proc.devRef .tc main_call2_v13) = Cert.ReferenceIdeal.ReadP.val_main_call2_v13 (F := F) a0 a1 := by
    rw [hW54]; simp only [binary_result', f53_main_v13, f53_main_call2_v5] <;> rfl
  have f54_main_call2_v12 : W54 (Proc.devRef .tc main_call2_v12) = Cert.ReferenceIdeal.ReadP.val_main_call2_v12 (F := F) := by
    rw [hW54]; simp (disch := decide) only [binary_result_ne', f53_main_call2_v12]
  clear hW54 f53_main_v13 f53_main_call2_v5 f53_main_call2_v12
  clear W53
  -- operation 55: main_call2_cst
  refine after_cons_gen _ _ _ (fun W55 hW55 => ?_)
  have f55_main_call2_cst : W55 (Proc.devRef .tc main_call2_cst) = Cert.ReferenceIdeal.ReadP.val_main_call2_cst (F := F) := by
    rw [hW55]; simp only [nullary_result'] <;> rfl
  have f55_main_call2_v12 : W55 (Proc.devRef .tc main_call2_v12) = Cert.ReferenceIdeal.ReadP.val_main_call2_v12 (F := F) := by
    rw [hW55]; simp (disch := decide) only [nullary_result_ne', f54_main_call2_v12]
  have f55_main_call2_v13 : W55 (Proc.devRef .tc main_call2_v13) = Cert.ReferenceIdeal.ReadP.val_main_call2_v13 (F := F) a0 a1 := by
    rw [hW55]; simp (disch := decide) only [nullary_result_ne', f54_main_call2_v13]
  clear hW55 f54_main_call2_v12 f54_main_call2_v13
  clear W54
  -- operation 56: main_call2_v14
  refine after_cons_gen _ _ _ (fun W56 hW56 => ?_)
  have f56_main_call2_v14 : W56 (Proc.devRef .tc main_call2_v14) = Cert.ReferenceIdeal.ReadP.val_main_call2_v14 (F := F) := by
    rw [hW56]; simp only [unary_result', f55_main_call2_cst] <;> rfl
  have f56_main_call2_v12 : W56 (Proc.devRef .tc main_call2_v12) = Cert.ReferenceIdeal.ReadP.val_main_call2_v12 (F := F) := by
    rw [hW56]; simp (disch := decide) only [unary_result_ne', f55_main_call2_v12]
  have f56_main_call2_v13 : W56 (Proc.devRef .tc main_call2_v13) = Cert.ReferenceIdeal.ReadP.val_main_call2_v13 (F := F) a0 a1 := by
    rw [hW56]; simp (disch := decide) only [unary_result_ne', f55_main_call2_v13]
  clear hW56 f55_main_call2_v12 f55_main_call2_v13 f55_main_call2_cst
  clear W55
  -- operation 57: main_v15
  refine after_cons_gen _ _ _ (fun W57 hW57 => ?_)
  have f57_main_v15 : W57 (Proc.devRef .tc main_v15) = Cert.ReferenceIdeal.ReadP.val_main_v15 (F := F) a0 a1 := by
    rw [hW57]; simp only [ternary_result', f56_main_call2_v12, f56_main_call2_v13, f56_main_call2_v14]
    have hY : ∀ v : (⟨S8192x1, .f32⟩ : BufTy).Contents (Elt F), (TRef.of (T := ⟨S8192x1, .f32⟩) main_v15).toBuf (Val := Elt F) v = v := fun _ => rfl
    have hA0 : ∀ v : (Proc.devRef (τ := τ) .tc main_call2_v12).ty.Contents (Elt F), (TRef.of (T := ⟨S8192x1, .i1⟩) main_call2_v12).ofBuf (Val := Elt F) v = v := fun _ => rfl
    have hA1 : ∀ v : (Proc.devRef (τ := τ) .tc main_call2_v13).ty.Contents (Elt F), (TRef.of (T := ⟨S8192x1, .f32⟩) main_call2_v13).ofBuf (Val := Elt F) v = v := fun _ => rfl
    have hA2 : ∀ v : (Proc.devRef (τ := τ) .tc main_call2_v14).ty.Contents (Elt F), (TRef.of (T := ⟨S8192x1, .f32⟩) main_call2_v14).ofBuf (Val := Elt F) v = v := fun _ => rfl
    rw [hY, hA0, hA1, hA2]
    rfl
  clear hW57 f56_main_call2_v12 f56_main_call2_v13 f56_main_call2_v14
  clear W56
  -- operation 58: main_v16
  refine after_cons_gen _ _ _ (fun W58 hW58 => ?_)
  have f58_main_v16 : W58 (Proc.devRef .tc main_v16) = Cert.ReferenceIdeal.ReadP.val_main_v16 (F := F) a0 a1 := by
    rw [hW58]; simp only [reshape_result', f57_main_v15] <;> rfl
  clear hW58 f57_main_v15
  clear W57
  -- operation 59: main_v17
  refine after_cons_gen _ _ _ (fun W59 hW59 => ?_)
  have f59_main_v17 : W59 (Proc.devRef .tc main_v17) = Cert.ReferenceIdeal.ReadP.val_main_v17 (F := F) a0 a1 := by
    rw [hW59]; simp only [unary_result', f58_main_v16] <;> rfl
  clear hW59 f58_main_v16
  clear W58
  -- operation 60: main_cst_1
  refine after_cons_gen _ _ _ (fun W60 hW60 => ?_)
  have f60_main_cst_1 : W60 (Proc.devRef .tc main_cst_1) = Cert.ReferenceIdeal.ReadP.val_main_cst_1 (F := F) := by
    rw [hW60]; simp only [nullary_result'] <;> rfl
  have f60_main_v17 : W60 (Proc.devRef .tc main_v17) = Cert.ReferenceIdeal.ReadP.val_main_v17 (F := F) a0 a1 := by
    rw [hW60]; simp (disch := decide) only [nullary_result_ne', f59_main_v17]
  clear hW60 f59_main_v17
  clear W59
  -- operation 61: main_v18
  refine after_cons_gen _ _ _ (fun W61 hW61 => ?_)
  have f61_main_v18 : W61 (Proc.devRef .tc main_v18) = Cert.ReferenceIdeal.ReadP.val_main_v18 (F := F) a0 a1 := by
    rw [hW61]; simp only [binary_result', f60_main_v17, f60_main_cst_1] <;> rfl
  clear hW61 f60_main_v17 f60_main_cst_1
  clear W60
  -- operation 62: main_cst_2
  refine after_cons_gen _ _ _ (fun W62 hW62 => ?_)
  have f62_main_cst_2 : W62 (Proc.devRef .tc main_cst_2) = Cert.ReferenceIdeal.ReadP.val_main_cst_2 (F := F) := by
    rw [hW62]; simp only [nullary_result'] <;> rfl
  have f62_main_v18 : W62 (Proc.devRef .tc main_v18) = Cert.ReferenceIdeal.ReadP.val_main_v18 (F := F) a0 a1 := by
    rw [hW62]; simp (disch := decide) only [nullary_result_ne', f61_main_v18]
  clear hW62 f61_main_v18
  clear W61
  -- operation 63: main_v19
  refine after_cons_gen _ _ _ (fun W63 hW63 => ?_)
  have f63_main_v19 : W63 (Proc.devRef .tc main_v19) = Cert.ReferenceIdeal.ReadP.val_main_v19 (F := F) a0 a1 := by
    rw [hW63]; simp only [binary_result', f62_main_v18, f62_main_cst_2] <;> rfl
  clear hW63 f62_main_v18 f62_main_cst_2
  clear W62
  exact f63_main_v19

/-- On every device, for any float values, from any memory with zero counters: every weakly fair execution of
    @main terminates with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) = Cert.ReferenceIdeal.ReadP.val_main_v19 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (fold_eq (launchContents m c) _ _ rfl rfl), (h c).2⟩) (run_raw m ρ)

end Cert.ReferenceIdeal.ValueP

end
-- ==== Proof.lean ====
/-
  The certificate: two programs that compute the NT-Xent loss of two batches of 4096 feature rows of length 256, equal over the
  extended reals.

  Both stack the batches into 8192 rows and divide each row by the larger of its Euclidean norm and a small positive constant.
  The kernel program then takes, per row, the logarithm of the sum over all rows of the exponential of twice the inner product
  — computed block by block: 8 blocks of 1024 query rows, each against 8 tiles of 1024 key rows, the row sums accumulated in a
  scratch column — minus twice the inner product with the partner row, and averages. The reference program forms all the
  logits, subtracts each row's largest one, takes the log-softmax, reads it at the label column and averages the negatives.
  On finite inputs every normalized entry is a real number, the subtracted maximum cancels
  (`log ∑ exp (a - M) = log ∑ exp a - M`), dividing by one half is doubling, and the two averages are the same number.

  The pieces: `Spec` states both sides as functions of the stacked array, `LseLaw` proves them equal on real entries,
  `FiniteInputs` reads the precondition; `KData`, `KBefore`, `KBody` are the kernel region's proof data and body,
  `KRunHost`, `KRunRegion`, `KRun`, `KFrame` its launch among the host operations (the same text at bit patterns in the
  `B…` modules), `KPayIdx`, `KHostZn`, `KHostTgt`, `KHostTail`, `KValue` the kernel program's value; `RefReadP`, `RefValue`,
  `RefRunP`, `RefFoldRowMax`, `RefFoldMask`, `RefRun` the reference program's stages, value and run; `Claims` joins them into the five claims.
-/
import proofs.«106615_j4045859193248_2_alg».proof.Defs
import proofs.«106615_j4045859193248_2_alg».proof.Proof.Claims
import proofs.«106615_j4045859193248_2_alg».proof.Proof.KBody
import proofs.«106615_j4045859193248_2_alg».proof.Proof.KValue
import proofs.«106615_j4045859193248_2_alg».proof.Proof.BBody
import proofs.«106615_j4045859193248_2_alg».proof.Proof.BFrame
import proofs.«106615_j4045859193248_2_alg».proof.Proof.RefRun

noncomputable section

namespace Cert.Proof

open Idealize.ShloMosaic Idealize.SL.Sem

/-- The five claims, from: the word-level kernel program's run with its arguments unchanged, the kernel body's obligation over
    the extended reals, the value the kernel program's last operations compute, and the reference program's run. -/
theorem claim : Cert.Claim :=
  Cert.Proof.Claims.claim
    (fun m ρ => Cert.Kernel.Hand.frame_of (F := Bits) m (fun c => Cert.Kernel.Hand.body_obligation m c) ρ)
    (fun m c => Cert.KernelIdeal.Hand.body_obligation m c)
    (fun m c => Cert.KernelIdeal.Hand.kernel_value m c)
    (fun m ρ => Cert.ReferenceIdeal.ValueP.run (F := Ideal) m ρ)

end Cert.Proof

end
